-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2 : Shape := ⟨2, ![20000, 2]⟩
abbrev S40000x3 : Shape := ⟨2, ![40000, 3]⟩
abbrev S40000x2 : Shape := ⟨2, ![40000, 2]⟩
abbrev S1250000x1 : Shape := ⟨2, ![1250000, 1]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S2x64 : Shape := ⟨2, ![2, 64]⟩
abbrev S3x64 : Shape := ⟨2, ![3, 64]⟩
abbrev S64x1 : Shape := ⟨2, ![64, 1]⟩
abbrev S1 : Shape := ⟨1, ![1]⟩
abbrev S2x1250000 : Shape := ⟨2, ![2, 1250000]⟩
abbrev S100000 : Shape := ⟨1, ![100000]⟩
abbrev S_ : Shape := ⟨0, ![]⟩

class Facts : Prop where
  bcast_S_S20000x2 : S_.BroadcastsInDim S20000x2 (![] : Fin 0 → Fin S20000x2.rank)
  reducesTo_S20000x2_S_d0_1 : S20000x2.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S40000x2 : S_.BroadcastsInDim S40000x2 (![] : Fin 0 → Fin S40000x2.rank)
  reducesTo_S40000x2_S_d0_1 : S40000x2.ReducesTo [0, 1] S_
  bcast_S_S1250000x1 : S_.BroadcastsInDim S1250000x1 (![] : Fin 0 → Fin S1250000x1.rank)
  reducesTo_S1250000x1_S_d0_1 : S1250000x1.ReducesTo [0, 1] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S2x64 : S_.BroadcastsInDim S2x64 (![] : Fin 0 → Fin S2x64.rank)
  reducesTo_S2x64_S_d0_1 : S2x64.ReducesTo [0, 1] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S64 .f32) (main_arg19 : FVec F S64x1 .f32) (main_arg20 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg19
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S2x64 .f32) (main_arg16 : FVec F S64 .f32) (main_arg17 : FVec F S64x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S2x64 .f32 := Host.absf main_arg15
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S2x64 .f32) (main_arg12 : FVec F S64 .f32) (main_arg13 : FVec F S3x64 .f32) (main_arg14 : FVec F S64 .f32) (main_arg15 : FVec F S2x64 .f32) (main_arg16 : FVec F S64 .f32) (main_arg17 : FVec F S64x64 .f32) (main_arg18 : FVec F S64 .f32) (main_arg19 : FVec F S64x1 .f32) (main_arg20 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S2x64 .f32 := Host.absf main_arg11
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S3x64 .f32 := Host.absf main_arg13
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64x64 .f32) (main_arg8 : FVec F S64 .f32) (main_arg9 : FVec F S1x64 .f32) (main_arg10 : FVec F S64 .f32) (main_arg11 : FVec F S2x64 .f32) (main_arg12 : FVec F S64 .f32) (main_arg13 : FVec F S3x64 .f32) (main_arg14 : FVec F S64 .f32) (main_arg15 : FVec F S2x64 .f32) (main_arg16 : FVec F S64 .f32) (main_arg17 : FVec F S64x64 .f32) (main_arg18 : FVec F S64 .f32) (main_arg19 : FVec F S64x1 .f32) (main_arg20 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S100000x64 .f32) (main_arg5 : FVec F S64x64 .f32) (main_arg6 : FVec F S64 .f32) (main_arg7 : FVec F S64x64 .f32) (main_arg8 : FVec F S64 .f32) (main_arg9 : FVec F S1x64 .f32) (main_arg10 : FVec F S64 .f32) (main_arg11 : FVec F S2x64 .f32) (main_arg12 : FVec F S64 .f32) (main_arg13 : FVec F S3x64 .f32) (main_arg14 : FVec F S64 .f32) (main_arg15 : FVec F S2x64 .f32) (main_arg16 : FVec F S64 .f32) (main_arg17 : FVec F S64x64 .f32) (main_arg18 : FVec F S64 .f32) (main_arg19 : FVec F S64x1 .f32) (main_arg20 : FVec F S1 .f32) (main_v13 : IVec S_ 1) (main_v16 : IVec S1250000x1 1) : IVec S_ 1 :=
  let main_c_5 : IVec S_ 1 := constantI S_ 1 1#1
  let main_v17 : IVec S_ 1 := (fun x v => Host.reduce IntOp.andi x v reducesTo_S1250000x1_S_d0_1 h_S_) main_v16 main_c_5
  let main_v18 : IVec S_ 1 := andi main_v13 main_v17
  let main_v19 : FVec F S100000x64 .f32 := Host.absf main_arg4
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S20000x2 .f32) (main_arg1 : FVec F S40000x3 .f32) (main_arg2 : FVec F S40000x2 .f32) (main_arg3 : FVec F S1250000x1 .f32) (main_arg4 : FVec F S100000x64 .f32) (main_arg5 : FVec F S64x64 .f32) (main_arg6 : FVec F S64 .f32) (main_arg7 : FVec F S64x64 .f32) (main_arg8 : FVec F S64 .f32) (main_arg9 : FVec F S1x64 .f32) (main_arg10 : FVec F S64 .f32) (main_arg11 : FVec F S2x64 .f32) (main_arg12 : FVec F S64 .f32) (main_arg13 : FVec F S3x64 .f32) (main_arg14 : FVec F S64 .f32) (main_arg15 : FVec F S2x64 .f32) (main_arg16 : FVec F S64 .f32) (main_arg17 : FVec F S64x64 .f32) (main_arg18 : FVec F S64 .f32) (main_arg19 : FVec F S64x1 .f32) (main_arg20 : FVec F S1 .f32) (main_arg21 : IVec S2x1250000 32) (main_arg22 : IVec S100000 32) (main_arg23 : IVec S100000 32) : IVec S_ 1 :=
  let main_v0 : FVec F S20000x2 .f32 := Host.absf main_arg0
  let main_cst : FVec F S_ .f32 := constant S_ .f32 0x7F800000#32
  let main_v1 : FVec F S20000x2 .f32 := broadcastInDim S20000x2 ![] bcast_S_S20000x2 main_cst
  let main_v2 : IVec S20000x2 1 := cmpf .olt main_v0 main_v1
  let main_c : IVec S_ 1 := constantI S_ 1 1#1
  let main_v3 : IVec S_ 1 := (fun x v => Host.reduce IntOp.andi x v reducesTo_S20000x2_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S40000x2 .f32 := Host.absf main_arg2
  let main_cst_2 : FVec F S_ .f32 := constant S_ .f32 0x7F800000#32
  let main_v10 : FVec F S40000x2 .f32 := broadcastInDim S40000x2 ![] bcast_S_S40000x2 main_cst_2
  let main_v11 : IVec S40000x2 1 := cmpf .olt main_v9 main_v10
  let main_c_3 : IVec S_ 1 := constantI S_ 1 1#1
  let main_v12 : IVec S_ 1 := (fun x v => Host.reduce IntOp.andi x v reducesTo_S40000x2_S_d0_1 h_S_) main_v11 main_c_3
  let main_v13 : IVec S_ 1 := andi main_v8 main_v12
  let main_v14 : FVec F S1250000x1 .f32 := Host.absf main_arg3
  let main_cst_4 : FVec F S_ .f32 := constant S_ .f32 0x7F800000#32
  let main_v15 : FVec F S1250000x1 .f32 := broadcastInDim S1250000x1 ![] bcast_S_S1250000x1 main_cst_4
  let main_v16 : IVec S1250000x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S20000x2 : Shape := ⟨2, ![20000, 2]⟩
abbrev S40000x3 : Shape := ⟨2, ![40000, 3]⟩
abbrev S40000x2 : Shape := ⟨2, ![40000, 2]⟩
abbrev S1250000x1 : Shape := ⟨2, ![1250000, 1]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S2x64 : Shape := ⟨2, ![2, 64]⟩
abbrev S3x64 : Shape := ⟨2, ![3, 64]⟩
abbrev S64x1 : Shape := ⟨2, ![64, 1]⟩
abbrev S1 : Shape := ⟨1, ![1]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1250000x64 : Shape := ⟨2, ![1250000, 64]⟩
abbrev S5000x1 : Shape := ⟨2, ![5000, 1]⟩
abbrev S5000x64 : Shape := ⟨2, ![5000, 64]⟩
abbrev S_ : Shape := ⟨0, ![]⟩
abbrev S20000x64 : Shape := ⟨2, ![20000, 64]⟩
abbrev S40000x64 : Shape := ⟨2, ![40000, 64]⟩
abbrev S1024x64 : Shape := ⟨2, ![1024, 64]⟩
abbrev S100000x1 : Shape := ⟨2, ![100000, 1]⟩
abbrev S1024x1 : Shape := ⟨2, ![1024, 1]⟩
abbrev S1x1 : Shape := ⟨2, ![1, 1]⟩

abbrev nBuf : Space → Nat
  | .hbm => 124
  | .vmem => 52
  | .smem => 0
  | _ => 0

abbrev bufTy : (tb : Table) → Fin (tcTables nBuf tb) → BufTy
  | .hbm, ⟨0, _⟩ => ⟨S20000x2, .f32⟩
  | .hbm, ⟨1, _⟩ => ⟨S40000x3, .f32⟩
  | .hbm, ⟨2, _⟩ => ⟨S40000x2, .f32⟩
  | .hbm, ⟨3, _⟩ => ⟨S1250000x1, .f32⟩
  | .hbm, ⟨4, _⟩ => ⟨S100000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S2x64, .f32⟩
  | .hbm, ⟨12, _⟩ => ⟨S64, .f32⟩
  | .hbm, ⟨13, _⟩ => ⟨S3x64, .f32⟩
  | .hbm, ⟨14, _⟩ => ⟨S64, .f32⟩
  | .hbm, ⟨15, _⟩ => ⟨S2x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S2x1250000, .i32⟩
  | .hbm, ⟨22, _⟩ => ⟨S100000, .i32⟩
  | .hbm, ⟨23, _⟩ => ⟨S100000, .i32⟩
  | .hbm, ⟨24, _⟩ => ⟨S1x1250000, .i32⟩
  | .hbm, ⟨25, _⟩ => ⟨S1250000, .i32⟩
  | .hbm, ⟨26, _⟩ => ⟨S1x1250000, .i32⟩
  | .hbm, ⟨27, _⟩ => ⟨S1250000, .i32⟩
  | .hbm, ⟨28, _⟩ => ⟨S1x64, .f32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S20000x64, .f32⟩
  | .hbm, ⟨35, _⟩ => ⟨S1x64, .f32⟩
  | .hbm, ⟨36, _⟩ => ⟨S20000x64, .f32⟩
  | .hbm, ⟨37, _⟩ => ⟨S20000x64, .f32⟩
  | .hbm, ⟨38, _⟩ => ⟨S40000x64, .f32⟩
  | .hbm, ⟨39, _⟩ => ⟨S1x64, .f32⟩
  | .hbm, ⟨40, _⟩ => ⟨S40000x64, .f32⟩
  | .hbm, ⟨41, _⟩ => ⟨S40000x64, .f32⟩
  | .hbm, ⟨42, _⟩ => ⟨S40000x64, .f32⟩
  | .hbm, ⟨43, _⟩ => ⟨S1x64, .f32⟩
  | .hbm, ⟨44, _⟩ => ⟨S40000x64, .f32⟩
  | .hbm, ⟨45, _⟩ => ⟨S40000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S1x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S100000x64, .f32⟩
  | .hbm, ⟨61, _⟩ => ⟨S1250000x1, .i32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1250000, .i32⟩
  | .hbm, ⟨66, _⟩ => ⟨S1250000, .i1⟩
  | .hbm, ⟨67, _⟩ => ⟨S_, .i32⟩
  | .hbm, ⟨68, _⟩ => ⟨S1250000, .i32⟩
  | .hbm, ⟨69, _⟩ => ⟨S1250000, .i32⟩
  | .hbm, ⟨70, _⟩ => ⟨S1250000, .i32⟩
  | .hbm, ⟨71, _⟩ => ⟨S1250000x1, .i32⟩
  | .hbm, ⟨72, _⟩ => ⟨S1250000x64, .f32⟩
  | .hbm, ⟨73, _⟩ => ⟨S_, .f32⟩
  | .hbm, ⟨74, _⟩ => ⟨S100000x64, .f32⟩
  | .hbm, ⟨75, _⟩ => ⟨S1250000x1, .i32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1250000, .i32⟩
  | .hbm, ⟨80, _⟩ => ⟨S1250000, .i1⟩
  | .hbm, ⟨81, _⟩ => ⟨S_, .i32⟩
  | .hbm, ⟨82, _⟩ => ⟨S1250000, .i32⟩
  | .hbm, ⟨83, _⟩ => ⟨S1250000, .i32⟩
  | .hbm, ⟨84, _⟩ => ⟨S1250000, .i32⟩
  | .hbm, ⟨85, _⟩ => ⟨S1250000x1, .i32⟩
  | .hbm, ⟨86, _⟩ => ⟨S1250000x64, .f32⟩
  | .hbm, ⟨87, _⟩ => ⟨S_, .f32⟩
  | .hbm, ⟨88, _⟩ => ⟨S100000x64, .f32⟩
  | .hbm, ⟨89, _⟩ => ⟨S1250000x1, .i32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1250000, .i32⟩
  | .hbm, ⟨94, _⟩ => ⟨S1250000, .i1⟩
  | .hbm, ⟨95, _⟩ => ⟨S_, .i32⟩
  | .hbm, ⟨96, _⟩ => ⟨S1250000, .i32⟩
  | .hbm, ⟨97, _⟩ => ⟨S1250000, .i32⟩
  | .hbm, ⟨98, _⟩ => ⟨S1250000, .i32⟩
  | .hbm, ⟨99, _⟩ => ⟨S1250000x1, .i32⟩
  | .hbm, ⟨100, _⟩ => ⟨S1250000x64, .f32⟩
  | .hbm, ⟨101, _⟩ => ⟨S_, .f32⟩
  | .hbm, ⟨102, _⟩ => ⟨S100000x64, .f32⟩
  | .hbm, ⟨103, _⟩ => ⟨S1250000x1, .i32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S1024x64, .f32⟩
  | .hbm, ⟨108, _⟩ => ⟨S100000x1, .i32⟩
  | .hbm, ⟨109, _⟩ => ⟨S1024x64, .f32⟩
  | .hbm, ⟨110, _⟩ => ⟨S_, .f32⟩
  | .hbm, ⟨111, _⟩ => ⟨S100000x1, .f32⟩
  | .hbm, ⟨112, _⟩ => ⟨S_, .f32⟩
  | .hbm, ⟨113, _⟩ => ⟨S1024x1, .f32⟩
  | .hbm, ⟨114, _⟩ => ⟨S100000x1, .i32⟩
  | .hbm, ⟨115, _⟩ => ⟨S1024x1, .f32⟩
  | .hbm, ⟨116, _⟩ => ⟨S_, .f32⟩
  | .hbm, ⟨117, _⟩ => ⟨S1024x1, .f32⟩
  | .hbm, ⟨118, _⟩ => ⟨S1024x1, .f32⟩
  | .hbm, ⟨119, _⟩ => ⟨S1024x64, .f32⟩
  | .hbm, ⟨120, _⟩ => ⟨S1024x64, .f32⟩
  | .hbm, ⟨121, _⟩ => ⟨S1x64, .f32⟩
  | .hbm, ⟨122, _⟩ => ⟨S1x1, .f32⟩
  | .hbm, ⟨123, _⟩ => ⟨S1024x1, .f32⟩
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S1024x64, .f32⟩
  | .local _ .vmem, ⟨47, _⟩ => ⟨S64x64, .f32⟩
  | .local _ .vmem, ⟨48, _⟩ => ⟨S1x64, .f32⟩
  | .local _ .vmem, ⟨49, _⟩ => ⟨S64x1, .f32⟩
  | .local _ .vmem, ⟨50, _⟩ => ⟨S1x1, .f32⟩
  | .local _ .vmem, ⟨51, _⟩ => ⟨S1024x1, .f32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_v26 : Ref sig .tc := ⟨.hbm, 52, rfl⟩
abbrev main_c_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_2 : Ref sig .tc := ⟨.hbm, 64, rfl⟩
abbrev main_v36 : Ref sig .tc := ⟨.hbm, 65, rfl⟩
abbrev main_v37 : Ref sig .tc := ⟨.hbm, 66, rfl⟩
abbrev main_c_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_5 : Ref sig .tc := ⟨.hbm, 78, rfl⟩
abbrev main_v47 : Ref sig .tc := ⟨.hbm, 79, rfl⟩
abbrev main_v48 : Ref sig .tc := ⟨.hbm, 80, rfl⟩
abbrev main_c_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_8 : Ref sig .tc := ⟨.hbm, 92, rfl⟩
abbrev main_v58 : Ref sig .tc := ⟨.hbm, 93, rfl⟩
abbrev main_v59 : Ref sig .tc := ⟨.hbm, 94, rfl⟩
abbrev main_c_9 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_cst_13 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_14 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem4_1 : DmaSem sig := 45
abbrev cc6_sem0_0 : DmaSem sig := 46
abbrev cc6_sem1_0 : DmaSem sig := 47
abbrev cc6_sem2_0 : DmaSem sig := 48
abbrev cc6_sem3_0 : DmaSem sig := 49
abbrev cc6_sem4_0 : DmaSem sig := 50
abbrev cc6_sem5_0 : DmaSem sig := 51

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1024x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S1250000_S1250000x1_0 : S1250000.BroadcastsInDim S1250000x1 (![0] : Fin 1 → Fin S1250000x1.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S1x64_S40000x64_0_1 : S1x64.BroadcastsInDim S40000x64 (![0, 1] : Fin 2 → Fin S40000x64.rank)
  concatenates_S20000x64_S40000x64_S40000x64_S100000x64_d0 : Shape.Concatenates [S20000x64, S40000x64, S40000x64] S100000x64 0
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1250000 : S_.BroadcastsInDim S1250000 (![] : Fin 0 → Fin S1250000.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000x64_S1250000x1_S1250000x64_1_0_0_1_wf : ScatterDims.WF S100000x64 S1250000x1 S1250000x64 [1] [0] [0] 1
  dot_S20000x2_S2x64_S20000x64_1_0_0_1_n_n_wf : DotDims.WF S20000x2 S2x64 S20000x64 [1] [0] [0] [1] [] []
  dot_S40000x3_S3x64_S40000x64_1_0_0_1_n_n_wf : DotDims.WF S40000x3 S3x64 S40000x64 [1] [0] [0] [1] [] []
  dot_S40000x2_S2x64_S40000x64_1_0_0_1_n_n_wf : DotDims.WF S40000x2 S2x64 S40000x64 [1] [0] [0] [1] [] []
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S1024x64_S100000x1_S100000x64_1_0_0_1_wf : ScatterDims.WF S1024x64 S100000x1 S100000x64 [1] [0] [0] 1
  scatter_S1024x1_S100000x1_S100000x1_1_0_0_1_wf : ScatterDims.WF S1024x1 S100000x1 S100000x1 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S1250000x1.size a
  hwx0_0 : ∀ i : grid0.Coords, EltTy.bits .f32 = 32 ∨ (Rect.block (s := S1250000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1250000x64.size a
  hwx0_3 : ∀ i : grid0.Coords, EltTy.bits .f32 = 32 ∨ (Rect.block (s := S1250000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S1024x64.size a
  hwx6_0 : ∀ i : grid6.Coords, EltTy.bits .f32 = 32 ∨ (Rect.block (s := S1024x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1024x1.size a ≤ S1024x1.size a
  hwx6_5 : ∀ i : grid6.Coords, EltTy.bits .f32 = 32 ∨ (Rect.block (s := S1024x1) S1024x1.size (cc6_transform_5 i) (hinb6_5 i)).WholeWords (EltTy.packing .f32)

variable [Facts₀]

def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S20000x2_S2x64_S20000x64_1_0_0_1_n_n : DotDims S20000x2 S2x64 S20000x64 where
  lhsContracting := [1]
  rhsContracting := [0]
  lhsNonContracting := [0]
  rhsNonContracting := [1]
  lhsBatch := []
  rhsBatch := []
  wf := dot_S20000x2_S2x64_S20000x64_1_0_0_1_n_n_wf
def dot_S40000x3_S3x64_S40000x64_1_0_0_1_n_n : DotDims S40000x3 S3x64 S40000x64 where
  lhsContracting := [1]
  rhsContracting := [0]
  lhsNonContracting := [0]
  rhsNonContracting := [1]
  lhsBatch := []
  rhsBatch := []
  wf := dot_S40000x3_S3x64_S40000x64_1_0_0_1_n_n_wf
def dot_S40000x2_S2x64_S40000x64_1_0_0_1_n_n : DotDims S40000x2 S2x64 S40000x64 where
  lhsContracting := [1]
  rhsContracting := [0]
  lhsNonContracting := [0]
  rhsNonContracting := [1]
  lhsBatch := []
  rhsBatch := []
  wf := dot_S40000x2_S2x64_S40000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg3) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v57) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v67) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v23) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v68) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S1024x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S1024x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S20000x2 : Shape := ⟨2, ![20000, 2]⟩
abbrev S40000x3 : Shape := ⟨2, ![40000, 3]⟩
abbrev S40000x2 : Shape := ⟨2, ![40000, 2]⟩
abbrev S1250000x1 : Shape := ⟨2, ![1250000, 1]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S2x64 : Shape := ⟨2, ![2, 64]⟩
abbrev S3x64 : Shape := ⟨2, ![3, 64]⟩
abbrev S64x1 : Shape := ⟨2, ![64, 1]⟩
abbrev S1 : Shape := ⟨1, ![1]⟩
abbrev S2x1250000 : Shape := ⟨2, ![2, 1250000]⟩
abbrev S100000 : Shape := ⟨1, ![100000]⟩
abbrev S1x1250000 : Shape := ⟨2, ![1, 1250000]⟩
abbrev S1250000 : Shape := ⟨1, ![1250000]⟩
abbrev S1250000x64 : Shape := ⟨2, ![1250000, 64]⟩
abbrev S_ : Shape := ⟨0, ![]⟩
abbrev S20000x64 : Shape := ⟨2, ![20000, 64]⟩
abbrev S40000x64 : Shape := ⟨2, ![40000, 64]⟩
abbrev S1024x64 : Shape := ⟨2, ![1024, 64]⟩
abbrev S100000x1 : Shape := ⟨2, ![100000, 1]⟩
abbrev S1024x1 : Shape := ⟨2, ![1024, 1]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S20000x2, .f32⟩
  | 1 => ⟨S40000x3, .f32⟩
  | 2 => ⟨S40000x2, .f32⟩
  | 3 => ⟨S1250000x1, .f32⟩
  | 4 => ⟨S100000x64, .f32⟩
  | 5 => ⟨S64x64, .f32⟩
  | 6 => ⟨S64, .f32⟩
  | 7 => ⟨S64x64, .f32⟩
  | 8 => ⟨S64, .f32⟩
  | 9 => ⟨S1x64, .f32⟩
  | 10 => ⟨S64, .f32⟩
  | 11 => ⟨S2x64, .f32⟩
  | 12 => ⟨S64, .f32⟩
  | 13 => ⟨S3x64, .f32⟩
  | 14 => ⟨S64, .f32⟩
  | 15 => ⟨S2x64, .f32⟩
  | 16 => ⟨S64, .f32⟩
  | 17 => ⟨S64x64, .f32⟩
  | 18 => ⟨S64, .f32⟩
  | 19 => ⟨S64x1, .f32⟩
  | 20 => ⟨S1, .f32⟩
  | 21 => ⟨S2x1250000, .i32⟩
  | 22 => ⟨S100000, .i32⟩
  | 23 => ⟨S100000, .i32⟩
  | 24 => ⟨S1x1250000, .i32⟩
  | 25 => ⟨S1250000, .i32⟩
  | 26 => ⟨S1x1250000, .i32⟩
  | 27 => ⟨S1250000, .i32⟩
  | 28 => ⟨S1250000x64, .f32⟩
  | 29 => ⟨S1x64, .f32⟩
  | 30 => ⟨S1250000x64, .f32⟩
  | 31 => ⟨S1250000x64, .f32⟩
  | 32 => ⟨S_, .f32⟩
  | 33 => ⟨S1250000x64, .f32⟩
  | 34 => ⟨S1250000x64, .i1⟩
  | 35 => ⟨S_, .f32⟩
  | 36 => ⟨S1250000x64, .f32⟩
  | 37 => ⟨S1250000x64, .f32⟩
  | 38 => ⟨S1250000x64, .f32⟩
  | 39 => ⟨S_, .f32⟩
  | 40 => ⟨S100000x64, .f32⟩
  | 41 => ⟨S1250000x1, .i32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S20000x64, .f32⟩
  | 48 => ⟨S1x64, .f32⟩
  | 49 => ⟨S20000x64, .f32⟩
  | 50 => ⟨S20000x64, .f32⟩
  | 51 => ⟨S40000x64, .f32⟩
  | 52 => ⟨S1x64, .f32⟩
  | 53 => ⟨S40000x64, .f32⟩
  | 54 => ⟨S40000x64, .f32⟩
  | 55 => ⟨S40000x64, .f32⟩
  | 56 => ⟨S1x64, .f32⟩
  | 57 => ⟨S40000x64, .f32⟩
  | 58 => ⟨S40000x64, .f32⟩
  | 59 => ⟨S100000x64, .f32⟩
  | 60 => ⟨S_, .i32⟩
  | 61 => ⟨S1250000, .i32⟩
  | 62 => ⟨S1250000, .i1⟩
  | 63 => ⟨S_, .i32⟩
  | 64 => ⟨S1250000, .i32⟩
  | 65 => ⟨S1250000, .i32⟩
  | 66 => ⟨S1250000, .i32⟩
  | 67 => ⟨S1250000x1, .i32⟩
  | 68 => ⟨S1250000x64, .f32⟩
  | 69 => ⟨S_, .f32⟩
  | 70 => ⟨S100000x64, .f32⟩
  | 71 => ⟨S1250000x1, .i32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .i1⟩
  | 82 => ⟨S_, .f32⟩
  | 83 => ⟨S100000x64, .f32⟩
  | 84 => ⟨S100000x64, .f32⟩
  | 85 => ⟨S100000x64, .f32⟩
  | 86 => ⟨S_, .i32⟩
  | 87 => ⟨S1250000, .i32⟩
  | 88 => ⟨S1250000, .i1⟩
  | 89 => ⟨S_, .i32⟩
  | 90 => ⟨S1250000, .i32⟩
  | 91 => ⟨S1250000, .i32⟩
  | 92 => ⟨S1250000, .i32⟩
  | 93 => ⟨S1250000x1, .i32⟩
  | 94 => ⟨S1250000x64, .f32⟩
  | 95 => ⟨S_, .f32⟩
  | 96 => ⟨S100000x64, .f32⟩
  | 97 => ⟨S1250000x1, .i32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x64, .f32⟩
  | 104 => ⟨S100000x64, .f32⟩
  | 105 => ⟨S_, .f32⟩
  | 106 => ⟨S100000x64, .f32⟩
  | 107 => ⟨S100000x64, .i1⟩
  | 108 => ⟨S_, .f32⟩
  | 109 => ⟨S100000x64, .f32⟩
  | 110 => ⟨S100000x64, .f32⟩
  | 111 => ⟨S100000x64, .f32⟩
  | 112 => ⟨S_, .i32⟩
  | 113 => ⟨S1250000, .i32⟩
  | 114 => ⟨S1250000, .i1⟩
  | 115 => ⟨S_, .i32⟩
  | 116 => ⟨S1250000, .i32⟩
  | 117 => ⟨S1250000, .i32⟩
  | 118 => ⟨S1250000, .i32⟩
  | 119 => ⟨S1250000x1, .i32⟩
  | 120 => ⟨S1250000x64, .f32⟩
  | 121 => ⟨S_, .f32⟩
  | 122 => ⟨S100000x64, .f32⟩
  | 123 => ⟨S1250000x1, .i32⟩
  | 124 => ⟨S100000x64, .f32⟩
  | 125 => ⟨S100000x64, .f32⟩
  | 126 => ⟨S1x64, .f32⟩
  | 127 => ⟨S100000x64, .f32⟩
  | _ => ⟨S20000x2, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .i1⟩
  | 6 => ⟨S_, .f32⟩
  | 7 => ⟨S100000x64, .f32⟩
  | 8 => ⟨S100000x64, .f32⟩
  | 9 => ⟨S100000x64, .f32⟩
  | 10 => ⟨S_, .i32⟩
  | 11 => ⟨S1250000, .i32⟩
  | 12 => ⟨S1250000, .i1⟩
  | 13 => ⟨S_, .i32⟩
  | 14 => ⟨S1250000, .i32⟩
  | 15 => ⟨S1250000, .i32⟩
  | 16 => ⟨S1250000, .i32⟩
  | 17 => ⟨S1250000x1, .i32⟩
  | 18 => ⟨S1250000x64, .f32⟩
  | 19 => ⟨S_, .f32⟩
  | 20 => ⟨S100000x64, .f32⟩
  | 21 => ⟨S1250000x1, .i32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .i1⟩
  | 32 => ⟨S_, .f32⟩
  | 33 => ⟨S100000x64, .f32⟩
  | 34 => ⟨S100000x64, .f32⟩
  | 35 => ⟨S100000x64, .f32⟩
  | 36 => ⟨S_, .f32⟩
  | 37 => ⟨S1024x64, .f32⟩
  | 38 => ⟨S100000x1, .i32⟩
  | 39 => ⟨S1024x64, .f32⟩
  | 40 => ⟨S_, .f32⟩
  | 41 => ⟨S100000x1, .f32⟩
  | 42 => ⟨S_, .f32⟩
  | 43 => ⟨S1024x1, .f32⟩
  | 44 => ⟨S100000x1, .i32⟩
  | 45 => ⟨S1024x1, .f32⟩
  | 46 => ⟨S_, .f32⟩
  | 47 => ⟨S1024x1, .f32⟩
  | 48 => ⟨S1024x1, .f32⟩
  | 49 => ⟨S1024x64, .f32⟩
  | 50 => ⟨S1024x64, .f32⟩
  | 51 => ⟨S1024x64, .f32⟩
  | 52 => ⟨S1x64, .f32⟩
  | 53 => ⟨S1024x64, .f32⟩
  | 54 => ⟨S1024x64, .f32⟩
  | 55 => ⟨S1024x1, .f32⟩
  | 56 => ⟨S1x1, .f32⟩
  | 57 => ⟨S1024x1, .f32⟩
  | 58 => ⟨S1024x1, .f32⟩
  | 59 => ⟨S1024x1, .f32⟩
  | 60 => ⟨S1024x1, .f32⟩
  | 61 => ⟨S_, .f32⟩
  | 62 => ⟨S1024x1, .f32⟩
  | 63 => ⟨S1024x1, .f32⟩
  | 64 => ⟨S_, .f32⟩
  | 65 => ⟨S1024x1, .f32⟩
  | 66 => ⟨S1024x1, .f32⟩
  | _ => ⟨S20000x2, .f32⟩

abbrev hbmTy (i : Nat) : BufTy := match i / 128 with
  | 0 => hbmTy0_0 i
  | 1 => hbmTy0_1 i
  | _ => ⟨S20000x2, .f32⟩

abbrev bufTy : (tb : Table) → Fin (tcTables nBuf tb) → BufTy
  | .hbm, ⟨i, _⟩ => hbmTy i
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c : Ref sig .tc := ⟨.hbm, 60, rfl⟩
abbrev main_v33 : Ref sig .tc := ⟨.hbm, 61, rfl⟩
abbrev main_v34 : Ref sig .tc := ⟨.hbm, 62, rfl⟩
abbrev main_c_2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_4 : Ref sig .tc := ⟨.hbm, 79, rfl⟩
abbrev main_v49 : Ref sig .tc := ⟨.hbm, 80, rfl⟩
abbrev main_v50 : Ref sig .tc := ⟨.hbm, 81, rfl⟩
abbrev main_cst_5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_6 : Ref sig .tc := ⟨.hbm, 86, rfl⟩
abbrev main_v54 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_11 : Ref sig .tc := ⟨.hbm, 112, rfl⟩
abbrev main_v75 : Ref sig .tc := ⟨.hbm, 113, rfl⟩
abbrev main_v76 : Ref sig .tc := ⟨.hbm, 114, rfl⟩
abbrev main_c_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_14 : Ref sig .tc := ⟨.hbm, 131, rfl⟩
abbrev main_v91 : Ref sig .tc := ⟨.hbm, 132, rfl⟩
abbrev main_v92 : Ref sig .tc := ⟨.hbm, 133, rfl⟩
abbrev main_cst_15 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_16 : Ref sig .tc := ⟨.hbm, 138, rfl⟩
abbrev main_v96 : Ref sig .tc := ⟨.hbm, 139, rfl⟩
abbrev main_v97 : Ref sig .tc := ⟨.hbm, 140, rfl⟩
abbrev main_c_17 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_18 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_19 : Ref sig .tc := ⟨.hbm, 157, rfl⟩
abbrev main_v112 : Ref sig .tc := ⟨.hbm, 158, rfl⟩
abbrev main_v113 : Ref sig .tc := ⟨.hbm, 159, rfl⟩
abbrev main_cst_20 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_21 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_22 : Ref sig .tc := ⟨.hbm, 168, rfl⟩
abbrev main_v120 : Ref sig .tc := ⟨.hbm, 169, rfl⟩
abbrev main_cst_23 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_24 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_25 : Ref sig .tc := ⟨.hbm, 189, rfl⟩
abbrev main_v138 : Ref sig .tc := ⟨.hbm, 190, rfl⟩
abbrev main_v139 : Ref sig .tc := ⟨.hbm, 191, rfl⟩
abbrev main_cst_26 : Ref sig .tc := ⟨.hbm, 192, rfl⟩
abbrev main_v140 : Ref sig .tc := ⟨.hbm, 193, rfl⟩
abbrev main_v141 : Ref sig .tc := ⟨.hbm, 194, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  bcast_S_S100000x64 : S_.BroadcastsInDim S100000x64 (![] : Fin 0 → Fin S100000x64.rank)
  bcast_S1250000_S1250000x1_0 : S1250000.BroadcastsInDim S1250000x1 (![0] : Fin 1 → Fin S1250000x1.rank)
  bcast_S1x64_S100000x64_0_1 : S1x64.BroadcastsInDim S100000x64 (![0, 1] : Fin 2 → Fin S100000x64.rank)
  bcast_S1x64_S20000x64_0_1 : S1x64.BroadcastsInDim S20000x64 (![0, 1] : Fin 2 → Fin S20000x64.rank)
  bcast_S1x64_S40000x64_0_1 : S1x64.BroadcastsInDim S40000x64 (![0, 1] : Fin 2 → Fin S40000x64.rank)
  concatenates_S20000x64_S40000x64_S40000x64_S100000x64_d0 : Shape.Concatenates [S20000x64, S40000x64, S40000x64] S100000x64 0
  bcast_S_S1250000 : S_.BroadcastsInDim S1250000 (![] : Fin 0 → Fin S1250000.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1250000x1_S1x64_S1250000x64_1_0_0_1_n_n_wf : DotDims.WF S1250000x1 S1x64 S1250000x64 [1] [0] [0] [1] [] []
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S20000x2_S2x64_S20000x64_1_0_0_1_n_n_wf : DotDims.WF S20000x2 S2x64 S20000x64 [1] [0] [0] [1] [] []
  dot_S40000x3_S3x64_S40000x64_1_0_0_1_n_n_wf : DotDims.WF S40000x3 S3x64 S40000x64 [1] [0] [0] [1] [] []
  dot_S40000x2_S2x64_S40000x64_1_0_0_1_n_n_wf : DotDims.WF S40000x2 S2x64 S40000x64 [1] [0] [0] [1] [] []
  gather_S100000x64_S1250000x1_S1250000x64_1_0_n_n_0_1_164_wf : GatherDims.WF S100000x64 S1250000x1 S1250000x64 [1] [0] [] [0] [] 1 ![1, 64]
  scatter_S1024x64_S100000x1_S100000x64_1_0_0_1_wf : ScatterDims.WF S1024x64 S100000x1 S100000x64 [1] [0] [0] 1
  scatter_S1024x1_S100000x1_S100000x1_1_0_0_1_wf : ScatterDims.WF S1024x1 S100000x1 S100000x1 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def dot_S1250000x1_S1x64_S1250000x64_1_0_0_1_n_n : DotDims S1250000x1 S1x64 S1250000x64 where
  lhsContracting := [1]
  rhsContracting := [0]
  lhsNonContracting := [0]
  rhsNonContracting := [1]
  lhsBatch := []
  rhsBatch := []
  wf := dot_S1250000x1_S1x64_S1250000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S20000x2_S2x64_S20000x64_1_0_0_1_n_n : DotDims S20000x2 S2x64 S20000x64 where
  lhsContracting := [1]
  rhsContracting := [0]
  lhsNonContracting := [0]
  rhsNonContracting := [1]
  lhsBatch := []
  rhsBatch := []
  wf := dot_S20000x2_S2x64_S20000x64_1_0_0_1_n_n_wf
def dot_S40000x3_S3x64_S40000x64_1_0_0_1_n_n : DotDims S40000x3 S3x64 S40000x64 where
  lhsContracting := [1]
  rhsContracting := [0]
  lhsNonContracting := [0]
  rhsNonContracting := [1]
  lhsBatch := []
  rhsBatch := []
  wf := dot_S40000x3_S3x64_S40000x64_1_0_0_1_n_n_wf
def dot_S40000x2_S2x64_S40000x64_1_0_0_1_n_n : DotDims S40000x2 S2x64 S40000x64 where
  lhsContracting := [1]
  rhsContracting := [0]
  lhsNonContracting := [0]
  rhsNonContracting := [1]
  lhsBatch := []
  rhsBatch := []
  wf := dot_S40000x2_S2x64_S40000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KB.Reg0.lean ====
/-
  Region 0 of the program: the edge transform: one block of 5000 edges. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether the point fetches it or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of the array at every point, whether the point fetches it or the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block of the array at every point, whether the point fetches it or the
    block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: its one store, over the whole block, of the body's value of the input blocks. -/
def out0 (x0 : Vec F S5000x1 .f32) (x1 : Vec F S1x64 .f32) (x2 : Vec F S1x64 .f32) : Vec F S5000x64 .f32 :=
  View.canon [⟨(Rect.unit (s := S5000x64) ![0, 0] S5000x64.size inb_S5000x64_S5000x64_0_0), k0_pay1 (View.ld x0 (Rect.unit (s := S5000x1) ![0, 0] S5000x1.size inb_S5000x1_S5000x1_0_0)) (View.ld x1 (Rect.unit (s := S1x64) ![0, 0] S1x64.size inb_S1x64_S1x64_0_0)) (View.ld x2 (Rect.unit (s := S1x64) ![0, 0] S1x64.size inb_S1x64_S1x64_0_0))⟩]

/-- The one store covers the output block. -/
theorem cover0 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out0 x`. -/
theorem sound_kernel0 (c : Dev nD) (E : Set ℕ) (i : grid0.Coords) (arg1 : Memref sig .tc .vmem S5000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__edge_transform_kernel i arg1 harg1 arg2 harg2 arg3 harg3 arg4 harg4) K := by
  simp only [cc0__edge_transform_kernel_eq_skeleton]; unfold cc0__edge_transform_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The launch's bookkeeping on core `c`: the arrays as the region finds them; after the body at point `t` each input
    buffer at its block and the output buffer at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 of the program: the dense layer without rectifier: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether the point fetches it or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the array at every point, whether the point fetches it or the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the array at every point, whether the point fetches it or the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the array at every point, whether the point fetches it or the
    block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output block: its one store, over the whole block, of the body's value of the input blocks. -/
def out1 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover1 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out1 x`. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1 x0 x1 x2 x3)) -∗ K ⟨⟩))
      ⊢ wp frame (wpE (defs₀ (F := F)) Variants.none c none) E (cc1__dense_add_kernel i arg1 harg1 arg2 harg2 arg3 harg3 arg4 harg4 arg5 harg5) K := by
  simp only [cc1__dense_add_kernel_eq_skeleton]; unfold cc1__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The launch's bookkeeping on core `c`: the arrays as the region finds them; after the body at point `t` each input
    buffer at its block and the output buffer at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 of the program: message-passing round 1: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether the point fetches it or the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of the array at every point, whether the point fetches it or the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of the array at every point, whether the point fetches it or the
    block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block of the array at every point, whether the point fetches it or the
    block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: its one store, over the whole block, of the body's value of the input blocks. -/
def out2 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out2 x`. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2 x0 x1 x2 x3)) -∗ K ⟨⟩))
      ⊢ wp frame (wpE (defs₀ (F := F)) Variants.none c none) E (cc2__dense_add_kernel i arg1 harg1 arg2 harg2 arg3 harg3 arg4 harg4 arg5 harg5) K := by
  simp only [cc2__dense_add_kernel_eq_skeleton]; unfold cc2__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The launch's bookkeeping on core `c`: the arrays as the region finds them; after the body at point `t` each input
    buffer at its block and the output buffer at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 of the program: message-passing round 2: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the array at every point, whether the point fetches it or the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block of the array at every point, whether the point fetches it or the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block of the array at every point, whether the point fetches it or the
    block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block of the array at every point, whether the point fetches it or the
    block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output block: its one store, over the whole block, of the body's value of the input blocks. -/
def out3 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out3 x`. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__dense_add_kernel i arg1 harg1 arg2 harg2 arg3 harg3 arg4 harg4 arg5 harg5) K := by
  simp only [cc3__dense_add_kernel_eq_skeleton]; unfold cc3__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The launch's bookkeeping on core `c`: the arrays as the region finds them; after the body at point `t` each input
    buffer at its block and the output buffer at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4 of the program: message-passing round 3: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of the array at every point, whether the point fetches it or the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block of the array at every point, whether the point fetches it or the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block of the array at every point, whether the point fetches it or the
    block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block of the array at every point, whether the point fetches it or the
    block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in the output block: its one store, over the whole block, of the body's value of the input blocks. -/
def out4 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k4_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out4 x`. -/
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4__dense_add_kernel i arg1 harg1 arg2 harg2 arg3 harg3 arg4 harg4 arg5 harg5) K := by
  simp only [cc4__dense_add_kernel_eq_skeleton]; unfold cc4__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The launch's bookkeeping on core `c`: the arrays as the region finds them; after the body at point `t` each input
    buffer at its block and the output buffer at the body's value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the input buffers hold their blocks, so the body's triple applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
/-
  Region 5 of the program: message-passing round 4: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block of the array at every point, whether the point fetches it or the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block of the array at every point, whether the point fetches it or the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block of the array at every point, whether the point fetches it or the
    block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block of the array at every point, whether the point fetches it or the
    block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in the output block: its one store, over the whole block, of the body's value of the input blocks. -/
def out5 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k5_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out5 x`. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5 x0 x1 x2 x3)) -∗ K ⟨⟩))
      ⊢ wp frame (wpE (defs₀ (F := F)) Variants.none c none) E (cc5__dense_add_kernel i arg1 harg1 arg2 harg2 arg3 harg3 arg4 harg4 arg5 harg5) K := by
  simp only [cc5__dense_add_kernel_eq_skeleton]; unfold cc5__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

/-- The launch's bookkeeping on core `c`: the arrays as the region finds them; after the body at point `t` each input
    buffer at its block and the output buffer at the body's value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the body's triple applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
/-
  Region 6 of the program: the classifier head on all 1024 graphs at once. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.Kernel.Launch
import proofs.«134920_j90091234001037_2_alg».proof.Proof.Gen.Kernel.Skeleton
import proofs.«134920_j90091234001037_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block of the array at every point, whether the point fetches it or the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block of the array at every point, whether the point fetches it or the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block of the array at every point, whether the point fetches it or the
    block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block of the array at every point, whether the point fetches it or the
    block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block of the array at every point, whether the point fetches it or the
    block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the output block: its one store, over the whole block, of the body's value of the input blocks. -/
def out6 (x0 : Vec F S1024x64 .f32) (x1 : Vec F S64x64 .f32) (x2 : Vec F S1x64 .f32) (x3 : Vec F S64x1 .f32) (x4 : Vec F S1x1 .f32) : Vec F S1024x1 .f32 :=
  View.canon [⟨(Rect.unit (s := S1024x1) ![0, 0] S1024x1.size inb_S1024x1_S1024x1_0_0), k6_pay1 (View.ld x0 (Rect.unit (s := S1024x64) ![0, 0] S1024x64.size inb_S1024x64_S1024x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S64x1) ![0, 0] S64x1.size inb_S64x1_S64x1_0_0)) (View.ld x4 (Rect.unit (s := S1x1) ![0, 0] S1x1.size inb_S1x1_S1x1_0_0))⟩]

/-- The one store covers the output block. -/
theorem cover6 (p0 : Vec F S1024x1 .f32) (y : S1024x1.Idx) :
    ∃ pc ∈ ([⟨(Rect.unit (s := S1024x1) ![0, 0] S1024x1.size inb_S1024x1_S1024x1_0_0), p0⟩] : List (View.Piece (Elt F) S1024x1 .f32)), y ∈ pc.1.set :=
  View.cover_of_tiled [⟨(Rect.unit (s := S1024x1) ![0, 0] S1024x1.size inb_S1024x1_S1024x1_0_0), p0⟩] S1024x1.size (by rfl) y

set_option maxHeartbeats 1000000 in
/-- The body on whole staging buffers: from the inputs at `x` and the output at anything it ends with the inputs as they
    were and the output at `out6 x`. -/
theorem sound_kernel6 (c : Dev nD) (E : Set ℕ) (i : grid6.Coords) (arg1 : Memref sig .tc .vmem S1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1024x1 .f32) (harg6 : arg6.IsWhole)
    (x0 : Vec F S1024x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-- The launch's bookkeeping on core `c`: the arrays as the region finds them; after the body at point `t` each input
    buffer at its block and the output buffer at the body's value of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the input buffers hold their blocks, so the body's triple applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Chain.lean ====
/-
  The whole program as a chain of host stretches and kernel launches, with the contents of every buffer named
  between any two items.

  `U (2k+1)` is what the core's buffers hold when launch `k` begins (the previous contents after the host stretch in
  between), and `U (2k+2)` what they hold when it ends: the same, except that the launch's output array now holds the
  blocks its grid points wrote back. Each launch is entered from the first and left at the second; its own arrays are
  taken out of the buffers on entry and put back on exit, and everything else rides along untouched. No item writes an
  argument array, so the arguments end as they began; and the last launch's output array is the program's result.
-/
import proofs.«134920_j90091234001037_2_alg».proof.Proof.KB.Reg0
import proofs.«134920_j90091234001037_2_alg».proof.Proof.KB.Reg1
import proofs.«134920_j90091234001037_2_alg».proof.Proof.KB.Reg2
import proofs.«134920_j90091234001037_2_alg».proof.Proof.KB.Reg3
import proofs.«134920_j90091234001037_2_alg».proof.Proof.KB.Reg4
import proofs.«134920_j90091234001037_2_alg».proof.Proof.KB.Reg5
import proofs.«134920_j90091234001037_2_alg».proof.Proof.KB.Reg6
import proofs.«134920_j90091234001037_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch 0's entry: the launch memory after the first host stretch. -/
def U1 (c : Dev nD) : Valuation τ sig (Elt F) := StableHlo.after hostOps0 (fun b => m (c, b))
/-- Launch 0's output array after its last grid point. -/
def a0 (c : Dev nD) : Buf (Elt F) ((c : Thread nD τ).loc main_v5) := (dat0 (fun c b => U1 m c b) c).arrAt 3 cfg0.N
/-- At launch 0's exit: as at its entry, its output array at what the grid points wrote back. -/
def U2 (c : Dev nD) : Valuation τ sig (Elt F) := Function.update (U1 m c) main_v5 (a0 m c)
/-- At launch 1's entry: after the host stretch that follows launch 0. -/
def U3 (c : Dev nD) : Valuation τ sig (Elt F) := StableHlo.after hostOps1 (U2 m c)
/-- Launch 1's output array after its last grid point. -/
def a1 (c : Dev nD) : Buf (Elt F) ((c : Thread nD τ).loc main_v23) := (dat1 (fun c b => U3 m c b) c).arrAt 4 cfg1.N
/-- At launch 1's exit: as at its entry, its output array at what the grid points wrote back. -/
def U4 (c : Dev nD) : Valuation τ sig (Elt F) := Function.update (U3 m c) main_v23 (a1 m c)
/-- At launch 2's entry: after the host stretch that follows launch 1. -/
def U5 (c : Dev nD) : Valuation τ sig (Elt F) := StableHlo.after hostOps2 (U4 m c)
/-- Launch 2's output array after its last grid point. -/
def a2 (c : Dev nD) : Buf (Elt F) ((c : Thread nD τ).loc main_v35) := (dat2 (fun c b => U5 m c b) c).arrAt 4 cfg2.N
/-- At launch 2's exit: as at its entry, its output array at what the grid points wrote back. -/
def U6 (c : Dev nD) : Valuation τ sig (Elt F) := Function.update (U5 m c) main_v35 (a2 m c)
/-- At launch 3's entry: after the host stretch that follows launch 2. -/
def U7 (c : Dev nD) : Valuation τ sig (Elt F) := StableHlo.after hostOps3 (U6 m c)
/-- Launch 3's output array after its last grid point. -/
def a3 (c : Dev nD) : Buf (Elt F) ((c : Thread nD τ).loc main_v46) := (dat3 (fun c b => U7 m c b) c).arrAt 4 cfg3.N
/-- At launch 3's exit: as at its entry, its output array at what the grid points wrote back. -/
def U8 (c : Dev nD) : Valuation τ sig (Elt F) := Function.update (U7 m c) main_v46 (a3 m c)
/-- At launch 4's entry: after the host stretch that follows launch 3. -/
def U9 (c : Dev nD) : Valuation τ sig (Elt F) := StableHlo.after hostOps4 (U8 m c)
/-- Launch 4's output array after its last grid point. -/
def a4 (c : Dev nD) : Buf (Elt F) ((c : Thread nD τ).loc main_v57) := (dat4 (fun c b => U9 m c b) c).arrAt 4 cfg4.N
/-- At launch 4's exit: as at its entry, its output array at what the grid points wrote back. -/
def U10 (c : Dev nD) : Valuation τ sig (Elt F) := Function.update (U9 m c) main_v57 (a4 m c)
/-- At launch 5's entry: after the host stretch that follows launch 4. -/
def U11 (c : Dev nD) : Valuation τ sig (Elt F) := StableHlo.after hostOps5 (U10 m c)
/-- Launch 5's output array after its last grid point. -/
def a5 (c : Dev nD) : Buf (Elt F) ((c : Thread nD τ).loc main_v68) := (dat5 (fun c b => U11 m c b) c).arrAt 4 cfg5.N
/-- At launch 5's exit: as at its entry, its output array at what the grid points wrote back. -/
def U12 (c : Dev nD) : Valuation τ sig (Elt F) := Function.update (U11 m c) main_v68 (a5 m c)
/-- At launch 6's entry: after the host stretch that follows launch 5. -/
def U13 (c : Dev nD) : Valuation τ sig (Elt F) := StableHlo.after hostOps6 (U12 m c)
/-- Launch 6's output array after its last grid point. -/
def a6 (c : Dev nD) : Buf (Elt F) ((c : Thread nD τ).loc main_v82) := (dat6 (fun c b => U13 m c b) c).arrAt 5 cfg6.N
/-- At launch 6's exit: as at its entry, its output array at what the grid points wrote back. -/
def U14 (c : Dev nD) : Valuation τ sig (Elt F) := Function.update (U13 m c) main_v82 (a6 m c)

/-- The regions' results, as the generated valuations read them: after item `J-1` the buffer `r` holds `U J`'s. -/
def outsH : Outs (F := F) := fun J r c =>
  match J with
  | 2 => U2 m c r | 4 => U4 m c r | 6 => U6 m c r | 8 => U8 m c r | 10 => U10 m c r | 12 => U12 m c r | 14 => U14 m c r
  | _ => m (c, r)

theorem V1_eq (c : Dev nD) : V1 m c = U1 m c := rfl
theorem V2_eq (c : Dev nD) : V2 m (outsH m) c = U2 m c := by
  show Function.update (V1 m c) main_v5 (U2 m c main_v5) = U2 m c
  rw [V1_eq]
  unfold U2
  simp only [Function.update_self]
theorem V3_eq (c : Dev nD) : V3 m (outsH m) c = U3 m c := by
  show StableHlo.after hostOps1 (V2 m (outsH m) c) = U3 m c
  rw [V2_eq]; rfl
theorem V4_eq (c : Dev nD) : V4 m (outsH m) c = U4 m c := by
  show Function.update (V3 m (outsH m) c) main_v23 (U4 m c main_v23) = U4 m c
  rw [V3_eq]
  unfold U4
  simp only [Function.update_self]
theorem V5_eq (c : Dev nD) : V5 m (outsH m) c = U5 m c := by
  show StableHlo.after hostOps2 (V4 m (outsH m) c) = U5 m c
  rw [V4_eq]; rfl
theorem V6_eq (c : Dev nD) : V6 m (outsH m) c = U6 m c := by
  show Function.update (V5 m (outsH m) c) main_v35 (U6 m c main_v35) = U6 m c
  rw [V5_eq]
  unfold U6
  simp only [Function.update_self]
theorem V7_eq (c : Dev nD) : V7 m (outsH m) c = U7 m c := by
  show StableHlo.after hostOps3 (V6 m (outsH m) c) = U7 m c
  rw [V6_eq]; rfl
theorem V8_eq (c : Dev nD) : V8 m (outsH m) c = U8 m c := by
  show Function.update (V7 m (outsH m) c) main_v46 (U8 m c main_v46) = U8 m c
  rw [V7_eq]
  unfold U8
  simp only [Function.update_self]
theorem V9_eq (c : Dev nD) : V9 m (outsH m) c = U9 m c := by
  show StableHlo.after hostOps4 (V8 m (outsH m) c) = U9 m c
  rw [V8_eq]; rfl
theorem V10_eq (c : Dev nD) : V10 m (outsH m) c = U10 m c := by
  show Function.update (V9 m (outsH m) c) main_v57 (U10 m c main_v57) = U10 m c
  rw [V9_eq]
  unfold U10
  simp only [Function.update_self]
theorem V11_eq (c : Dev nD) : V11 m (outsH m) c = U11 m c := by
  show StableHlo.after hostOps5 (V10 m (outsH m) c) = U11 m c
  rw [V10_eq]; rfl
theorem V12_eq (c : Dev nD) : V12 m (outsH m) c = U12 m c := by
  show Function.update (V11 m (outsH m) c) main_v68 (U12 m c main_v68) = U12 m c
  rw [V11_eq]
  unfold U12
  simp only [Function.update_self]
theorem V13_eq (c : Dev nD) : V13 m (outsH m) c = U13 m c := by
  show StableHlo.after hostOps6 (V12 m (outsH m) c) = U13 m c
  rw [V12_eq]; rfl
theorem V14_eq (c : Dev nD) : V14 m (outsH m) c = U14 m c := by
  show Function.update (V13 m (outsH m) c) main_v82 (U14 m c main_v82) = U14 m c
  rw [V13_eq]
  unfold U14
  simp only [Function.update_self]

/-! ## Each launch's arrays at its exit -/
/-- At launch 0's exit its output array holds what the grid points wrote back, -/
theorem U2_out (c : Dev nD) : U2 m c main_v5 = a0 m c := by
  unfold U2; simp only [Function.update_self]
/-- and every other buffer what it held at entry. -/
theorem U2_of_ne (c : Dev nD) (r : Ref sig .tc) (h : r ≠ main_v5) : U2 m c r = U1 m c r := by
  unfold U2
  simp only [Function.update_of_ne (StableHlo.devRef_ne_of_ne h : (Proc.devRef .tc r : DevRef τ sig) ≠ Proc.devRef .tc main_v5)]
set_option maxHeartbeats 1000000 in
/-- So each of launch 0's arrays holds at the exit what the launch leaves: an input as entered, the output at `a0`. -/
theorem hF0 (c : Dev nD) (w : Fin cfg0.W) : (dat0 (fun c b => U1 m c b) c).arrAt w cfg0.N = U2 m c (Pipeline.arrRef spec0 w) :=
  match w with
  | ⟨0, _⟩ => (((dat0 (fun c b => U1 m c b) c).arrAt_in 0 rfl _).trans (A_eq0 (fun c b => U1 m c b) c 0)).trans
      (U2_of_ne m c _ (by decide)).symm
  | ⟨1, _⟩ => (((dat0 (fun c b => U1 m c b) c).arrAt_in 1 rfl _).trans (A_eq0 (fun c b => U1 m c b) c 1)).trans
      (U2_of_ne m c _ (by decide)).symm
  | ⟨2, _⟩ => (((dat0 (fun c b => U1 m c b) c).arrAt_in 2 rfl _).trans (A_eq0 (fun c b => U1 m c b) c 2)).trans
      (U2_of_ne m c _ (by decide)).symm
  | ⟨3, _⟩ => (U2_out m c).symm
theorem hrest0 (c : Dev nD) : ∀ b : Ref sig .tc, b ∉ Finset.univ.image (Pipeline.arrRef spec0) → U2 m c b = U1 m c b := fun b hb =>
  U2_of_ne m c b fun e => hb (Finset.mem_image.mpr ⟨(3 : Fin cfg0.W), Finset.mem_univ _, (show Pipeline.arrRef spec0 3 = b from e.symm)⟩)
/-- At launch 1's exit its output array holds what the grid points wrote back, -/
theorem U4_out (c : Dev nD) : U4 m c main_v23 = a1 m c := by
  unfold U4; simp only [Function.update_self]
/-- and every other buffer what it held at entry. -/
theorem U4_of_ne (c : Dev nD) (r : Ref sig .tc) (h : r ≠ main_v23) : U4 m c r = U3 m c r := by
  unfold U4
  simp only [Function.update_of_ne (StableHlo.devRef_ne_of_ne h : (Proc.devRef .tc r : DevRef τ sig) ≠ Proc.devRef .tc main_v23)]
set_option maxHeartbeats 1000000 in
/-- So each of launch 1's arrays holds at the exit what the launch leaves: an input as entered, the output at `a1`. -/
theorem hF1 (c : Dev nD) (w : Fin cfg1.W) : (dat1 (fun c b => U3 m c b) c).arrAt w cfg1.N = U4 m c (Pipeline.arrRef spec1 w) :=
  match w with
  | ⟨0, _⟩ => (((dat1 (fun c b => U3 m c b) c).arrAt_in 0 rfl _).trans (A_eq1 (fun c b => U3 m c b) c 0)).trans
      (U4_of_ne m c _ (by decide)).symm
  | ⟨1, _⟩ => (((dat1 (fun c b => U3 m c b) c).arrAt_in 1 rfl _).trans (A_eq1 (fun c b => U3 m c b) c 1)).trans
      (U4_of_ne m c _ (by decide)).symm
  | ⟨2, _⟩ => (((dat1 (fun c b => U3 m c b) c).arrAt_in 2 rfl _).trans (A_eq1 (fun c b => U3 m c b) c 2)).trans
      (U4_of_ne m c _ (by decide)).symm
  | ⟨3, _⟩ => (((dat1 (fun c b => U3 m c b) c).arrAt_in 3 rfl _).trans (A_eq1 (fun c b => U3 m c b) c 3)).trans
      (U4_of_ne m c _ (by decide)).symm
  | ⟨4, _⟩ => (U4_out m c).symm
theorem hrest1 (c : Dev nD) : ∀ b : Ref sig .tc, b ∉ Finset.univ.image (Pipeline.arrRef spec1) → U4 m c b = U3 m c b := fun b hb =>
  U4_of_ne m c b fun e => hb (Finset.mem_image.mpr ⟨(4 : Fin cfg1.W), Finset.mem_univ _, (show Pipeline.arrRef spec1 4 = b from e.symm)⟩)
/-- At launch 2's exit its output array holds what the grid points wrote back, -/
theorem U6_out (c : Dev nD) : U6 m c main_v35 = a2 m c := by
  unfold U6; simp only [Function.update_self]
/-- and every other buffer what it held at entry. -/
theorem U6_of_ne (c : Dev nD) (r : Ref sig .tc) (h : r ≠ main_v35) : U6 m c r = U5 m c r := by
  unfold U6
  simp only [Function.update_of_ne (StableHlo.devRef_ne_of_ne h : (Proc.devRef .tc r : DevRef τ sig) ≠ Proc.devRef .tc main_v35)]
set_option maxHeartbeats 1000000 in
/-- So each of launch 2's arrays holds at the exit what the launch leaves: an input as entered, the output at `a2`. -/
theorem hF2 (c : Dev nD) (w : Fin cfg2.W) : (dat2 (fun c b => U5 m c b) c).arrAt w cfg2.N = U6 m c (Pipeline.arrRef spec2 w) :=
  match w with
  | ⟨0, _⟩ => (((dat2 (fun c b => U5 m c b) c).arrAt_in 0 rfl _).trans (A_eq2 (fun c b => U5 m c b) c 0)).trans
      (U6_of_ne m c _ (by decide)).symm
  | ⟨1, _⟩ => (((dat2 (fun c b => U5 m c b) c).arrAt_in 1 rfl _).trans (A_eq2 (fun c b => U5 m c b) c 1)).trans
      (U6_of_ne m c _ (by decide)).symm
  | ⟨2, _⟩ => (((dat2 (fun c b => U5 m c b) c).arrAt_in 2 rfl _).trans (A_eq2 (fun c b => U5 m c b) c 2)).trans
      (U6_of_ne m c _ (by decide)).symm
  | ⟨3, _⟩ => (((dat2 (fun c b => U5 m c b) c).arrAt_in 3 rfl _).trans (A_eq2 (fun c b => U5 m c b) c 3)).trans
      (U6_of_ne m c _ (by decide)).symm
  | ⟨4, _⟩ => (U6_out m c).symm
theorem hrest2 (c : Dev nD) : ∀ b : Ref sig .tc, b ∉ Finset.univ.image (Pipeline.arrRef spec2) → U6 m c b = U5 m c b := fun b hb =>
  U6_of_ne m c b fun e => hb (Finset.mem_image.mpr ⟨(4 : Fin cfg2.W), Finset.mem_univ _, (show Pipeline.arrRef spec2 4 = b from e.symm)⟩)
/-- At launch 3's exit its output array holds what the grid points wrote back, -/
theorem U8_out (c : Dev nD) : U8 m c main_v46 = a3 m c := by
  unfold U8; simp only [Function.update_self]
/-- and every other buffer what it held at entry. -/
theorem U8_of_ne (c : Dev nD) (r : Ref sig .tc) (h : r ≠ main_v46) : U8 m c r = U7 m c r := by
  unfold U8
  simp only [Function.update_of_ne (StableHlo.devRef_ne_of_ne h : (Proc.devRef .tc r : DevRef τ sig) ≠ Proc.devRef .tc main_v46)]
set_option maxHeartbeats 1000000 in
/-- So each of launch 3's arrays holds at the exit what the launch leaves: an input as entered, the output at `a3`. -/
theorem hF3 (c : Dev nD) (w : Fin cfg3.W) : (dat3 (fun c b => U7 m c b) c).arrAt w cfg3.N = U8 m c (Pipeline.arrRef spec3 w) :=
  match w with
  | ⟨0, _⟩ => (((dat3 (fun c b => U7 m c b) c).arrAt_in 0 rfl _).trans (A_eq3 (fun c b => U7 m c b) c 0)).trans
      (U8_of_ne m c _ (by decide)).symm
  | ⟨1, _⟩ => (((dat3 (fun c b => U7 m c b) c).arrAt_in 1 rfl _).trans (A_eq3 (fun c b => U7 m c b) c 1)).trans
      (U8_of_ne m c _ (by decide)).symm
  | ⟨2, _⟩ => (((dat3 (fun c b => U7 m c b) c).arrAt_in 2 rfl _).trans (A_eq3 (fun c b => U7 m c b) c 2)).trans
      (U8_of_ne m c _ (by decide)).symm
  | ⟨3, _⟩ => (((dat3 (fun c b => U7 m c b) c).arrAt_in 3 rfl _).trans (A_eq3 (fun c b => U7 m c b) c 3)).trans
      (U8_of_ne m c _ (by decide)).symm
  | ⟨4, _⟩ => (U8_out m c).symm
theorem hrest3 (c : Dev nD) : ∀ b : Ref sig .tc, b ∉ Finset.univ.image (Pipeline.arrRef spec3) → U8 m c b = U7 m c b := fun b hb =>
  U8_of_ne m c b fun e => hb (Finset.mem_image.mpr ⟨(4 : Fin cfg3.W), Finset.mem_univ _, (show Pipeline.arrRef spec3 4 = b from e.symm)⟩)
/-- At launch 4's exit its output array holds what the grid points wrote back, -/
theorem U10_out (c : Dev nD) : U10 m c main_v57 = a4 m c := by
  unfold U10; simp only [Function.update_self]
/-- and every other buffer what it held at entry. -/
theorem U10_of_ne (c : Dev nD) (r : Ref sig .tc) (h : r ≠ main_v57) : U10 m c r = U9 m c r := by
  unfold U10
  simp only [Function.update_of_ne (StableHlo.devRef_ne_of_ne h : (Proc.devRef .tc r : DevRef τ sig) ≠ Proc.devRef .tc main_v57)]
set_option maxHeartbeats 1000000 in
/-- So each of launch 4's arrays holds at the exit what the launch leaves: an input as entered, the output at `a4`. -/
theorem hF4 (c : Dev nD) (w : Fin cfg4.W) : (dat4 (fun c b => U9 m c b) c).arrAt w cfg4.N = U10 m c (Pipeline.arrRef spec4 w) :=
  match w with
  | ⟨0, _⟩ => (((dat4 (fun c b => U9 m c b) c).arrAt_in 0 rfl _).trans (A_eq4 (fun c b => U9 m c b) c 0)).trans
      (U10_of_ne m c _ (by decide)).symm
  | ⟨1, _⟩ => (((dat4 (fun c b => U9 m c b) c).arrAt_in 1 rfl _).trans (A_eq4 (fun c b => U9 m c b) c 1)).trans
      (U10_of_ne m c _ (by decide)).symm
  | ⟨2, _⟩ => (((dat4 (fun c b => U9 m c b) c).arrAt_in 2 rfl _).trans (A_eq4 (fun c b => U9 m c b) c 2)).trans
      (U10_of_ne m c _ (by decide)).symm
  | ⟨3, _⟩ => (((dat4 (fun c b => U9 m c b) c).arrAt_in 3 rfl _).trans (A_eq4 (fun c b => U9 m c b) c 3)).trans
      (U10_of_ne m c _ (by decide)).symm
  | ⟨4, _⟩ => (U10_out m c).symm
theorem hrest4 (c : Dev nD) : ∀ b : Ref sig .tc, b ∉ Finset.univ.image (Pipeline.arrRef spec4) → U10 m c b = U9 m c b := fun b hb =>
  U10_of_ne m c b fun e => hb (Finset.mem_image.mpr ⟨(4 : Fin cfg4.W), Finset.mem_univ _, (show Pipeline.arrRef spec4 4 = b from e.symm)⟩)
/-- At launch 5's exit its output array holds what the grid points wrote back, -/
theorem U12_out (c : Dev nD) : U12 m c main_v68 = a5 m c := by
  unfold U12; simp only [Function.update_self]
/-- and every other buffer what it held at entry. -/
theorem U12_of_ne (c : Dev nD) (r : Ref sig .tc) (h : r ≠ main_v68) : U12 m c r = U11 m c r := by
  unfold U12
  simp only [Function.update_of_ne (StableHlo.devRef_ne_of_ne h : (Proc.devRef .tc r : DevRef τ sig) ≠ Proc.devRef .tc main_v68)]
set_option maxHeartbeats 1000000 in
/-- So each of launch 5's arrays holds at the exit what the launch leaves: an input as entered, the output at `a5`. -/
theorem hF5 (c : Dev nD) (w : Fin cfg5.W) : (dat5 (fun c b => U11 m c b) c).arrAt w cfg5.N = U12 m c (Pipeline.arrRef spec5 w) :=
  match w with
  | ⟨0, _⟩ => (((dat5 (fun c b => U11 m c b) c).arrAt_in 0 rfl _).trans (A_eq5 (fun c b => U11 m c b) c 0)).trans
      (U12_of_ne m c _ (by decide)).symm
  | ⟨1, _⟩ => (((dat5 (fun c b => U11 m c b) c).arrAt_in 1 rfl _).trans (A_eq5 (fun c b => U11 m c b) c 1)).trans
      (U12_of_ne m c _ (by decide)).symm
  | ⟨2, _⟩ => (((dat5 (fun c b => U11 m c b) c).arrAt_in 2 rfl _).trans (A_eq5 (fun c b => U11 m c b) c 2)).trans
      (U12_of_ne m c _ (by decide)).symm
  | ⟨3, _⟩ => (((dat5 (fun c b => U11 m c b) c).arrAt_in 3 rfl _).trans (A_eq5 (fun c b => U11 m c b) c 3)).trans
      (U12_of_ne m c _ (by decide)).symm
  | ⟨4, _⟩ => (U12_out m c).symm
theorem hrest5 (c : Dev nD) : ∀ b : Ref sig .tc, b ∉ Finset.univ.image (Pipeline.arrRef spec5) → U12 m c b = U11 m c b := fun b hb =>
  U12_of_ne m c b fun e => hb (Finset.mem_image.mpr ⟨(4 : Fin cfg5.W), Finset.mem_univ _, (show Pipeline.arrRef spec5 4 = b from e.symm)⟩)
/-- At launch 6's exit its output array holds what the grid points wrote back, -/
theorem U14_out (c : Dev nD) : U14 m c main_v82 = a6 m c := by
  unfold U14; simp only [Function.update_self]
/-- and every other buffer what it held at entry. -/
theorem U14_of_ne (c : Dev nD) (r : Ref sig .tc) (h : r ≠ main_v82) : U14 m c r = U13 m c r := by
  unfold U14
  simp only [Function.update_of_ne (StableHlo.devRef_ne_of_ne h : (Proc.devRef .tc r : DevRef τ sig) ≠ Proc.devRef .tc main_v82)]
set_option maxHeartbeats 1000000 in
/-- So each of launch 6's arrays holds at the exit what the launch leaves: an input as entered, the output at `a6`. -/
theorem hF6 (c : Dev nD) (w : Fin cfg6.W) : (dat6 (fun c b => U13 m c b) c).arrAt w cfg6.N = U14 m c (Pipeline.arrRef spec6 w) :=
  match w with
  | ⟨0, _⟩ => (((dat6 (fun c b => U13 m c b) c).arrAt_in 0 rfl _).trans (A_eq6 (fun c b => U13 m c b) c 0)).trans
      (U14_of_ne m c _ (by decide)).symm
  | ⟨1, _⟩ => (((dat6 (fun c b => U13 m c b) c).arrAt_in 1 rfl _).trans (A_eq6 (fun c b => U13 m c b) c 1)).trans
      (U14_of_ne m c _ (by decide)).symm
  | ⟨2, _⟩ => (((dat6 (fun c b => U13 m c b) c).arrAt_in 2 rfl _).trans (A_eq6 (fun c b => U13 m c b) c 2)).trans
      (U14_of_ne m c _ (by decide)).symm
  | ⟨3, _⟩ => (((dat6 (fun c b => U13 m c b) c).arrAt_in 3 rfl _).trans (A_eq6 (fun c b => U13 m c b) c 3)).trans
      (U14_of_ne m c _ (by decide)).symm
  | ⟨4, _⟩ => (((dat6 (fun c b => U13 m c b) c).arrAt_in 4 rfl _).trans (A_eq6 (fun c b => U13 m c b) c 4)).trans
      (U14_of_ne m c _ (by decide)).symm
  | ⟨5, _⟩ => (U14_out m c).symm
theorem hrest6 (c : Dev nD) : ∀ b : Ref sig .tc, b ∉ Finset.univ.image (Pipeline.arrRef spec6) → U14 m c b = U13 m c b := fun b hb =>
  U14_of_ne m c b fun e => hb (Finset.mem_image.mpr ⟨(5 : Fin cfg6.W), Finset.mem_univ _, (show Pipeline.arrRef spec6 5 = b from e.symm)⟩)

/-! The entry contents unfolded once: the previous contents after the host stretch in between. -/
theorem U1_def (c : Dev nD) : U1 m c = StableHlo.after hostOps0 (fun b => m (c, b)) := by unfold U1; rfl
theorem U3_def (c : Dev nD) : U3 m c = StableHlo.after hostOps1 (U2 m c) := by unfold U3; rfl
theorem U5_def (c : Dev nD) : U5 m c = StableHlo.after hostOps2 (U4 m c) := by unfold U5; rfl
theorem U7_def (c : Dev nD) : U7 m c = StableHlo.after hostOps3 (U6 m c) := by unfold U7; rfl
theorem U9_def (c : Dev nD) : U9 m c = StableHlo.after hostOps4 (U8 m c) := by unfold U9; rfl
theorem U11_def (c : Dev nD) : U11 m c = StableHlo.after hostOps5 (U10 m c) := by unfold U11; rfl
theorem U13_def (c : Dev nD) : U13 m c = StableHlo.after hostOps6 (U12 m c) := by unfold U13; rfl

attribute [irreducible] a0 a1 a2 a3 a4 a5 a6 U1 U2 U3 U4 U5 U6 U7 U8 U9 U10 U11 U12 U13 U14

/-! ## The launches' bookkeeping as one family, and what rides beside the buffers -/

abbrev admH : (p : Fin 7) → (pcfgs (F := F) p).Adm := fun p => (cfgs p).toPCfg_adm
def pdatsH : (p : Fin 7) → (c : Dev nD) → Dat τ (Elt F) Unit ℕ (UR sig nD τ) ℕ (Pipeline.pin (pcfgs (F := F)) admH p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
abbrev 𝒱H : Variants := Variants.none
abbrev LH : GSem nD τ sig → Finset Unit := fun _ => ∅
abbrev lvH : GSem nD τ sig → Unit → ℕ := fun _ _ => 0
/-- Beside the buffers every item carries the core's generator register at some state and the core owing nothing. -/
abbrev RH (c : Dev nD) : sProp 𝕄 := iprop((∃ r, prngReg c r) ∗ ∃ W, owes (c : Thread nD τ) (0 : CellTallies nD τ sig Unit) W)

/-! ## The launches as segments -/

set_option backward.isDefEq.respectTransparency.types false in
/-- Launch 0: entered from every unscoped buffer at `U1`, left at `U2`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (fun c b => U1 m c b) c).loose
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (fun b => U1 m c b)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (fun b => U1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (fun b => U1 m c b) (fun b => U2 m c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `U3`, left at `U4`. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ LH lvH 1 fun _ _ => rfl
  pre c := iprop(StableHlo.held (c : Thread nD τ) (Pipeline.ucRefs τ sig) (U3 m c) ∗ RH c)
  post c := iprop(StableHlo.held (c : Thread nD τ) (Pipeline.ucRefs τ sig) (U4 m c) ∗ RH c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (fun b => U3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (fun b => U3 m c b) (fun b => U4 m c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `U5`, left at `U6`. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (fun c b => U5 m c b) c).loose
  hwaits := Pipeline.hwaits_of_owed_zero _ _ _ _ LH lvH 2 fun _ _ => rfl
  pre c := iprop(StableHlo.held (c : Thread nD τ) (Pipeline.ucRefs τ sig) (U5 m c) ∗ RH c)
  post c := iprop(StableHlo.held (c : Thread nD τ) (Pipeline.ucRefs τ sig) (U6 m c) ∗ RH c)
  X c := iprop(∃ r, prngReg c r)
  Y c := iprop(∃ r, prngReg c r)
  Z c := Pipeline.unscopedRest (Ix := Unit) (Name := ℕ) (U := UR sig nD τ) (Lvl := ℕ) spec2 c (fun b => U5 m c b)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (fun b => U5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (fun b => U5 m c b) (fun b => U6 m c b) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `U7`, left at `U8`. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (fun c b => U7 m c b) c).loose
  hwaits := Pipeline.hwaits_of_owed_zero _ _ _ _ LH lvH 3 fun _ _ => rfl
  pre c := iprop(StableHlo.held (c : Thread nD τ) (Pipeline.ucRefs τ sig) (U7 m c) ∗ RH c)
  post c := iprop(StableHlo.held (c : Thread nD τ) (Pipeline.ucRefs τ sig) (U8 m c) ∗ RH c)
  X c := iprop(∃ r, prngReg c r)
  Y c := iprop(∃ r, prngReg c r)
  Z c := Pipeline.unscopedRest (Ix := Unit) (Name := ℕ) (U := UR sig nD τ) (Lvl := ℕ) spec3 c (fun b => U7 m c b)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (fun b => U7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (fun b => U7 m c b) (fun b => U8 m c b) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `U9`, left at `U10`. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (fun c b => U9 m c b) c).loose
  hwaits := Pipeline.hwaits_of_owed_zero _ _ _ _ LH lvH 4 fun _ _ => rfl
  pre c := iprop(StableHlo.held (c : Thread nD τ) (Pipeline.ucRefs τ sig) (U9 m c) ∗ RH c)
  post c := iprop(StableHlo.held (c : Thread nD τ) (Pipeline.ucRefs τ sig) (U10 m c) ∗ RH c)
  X c := iprop(∃ r, prngReg c r)
  Y c := iprop(∃ r, prngReg c r)
  Z c := Pipeline.unscopedRest (Ix := Unit) (Name := ℕ) (U := UR sig nD τ) (Lvl := ℕ) spec4 c (fun b => U9 m c b)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (fun b => U9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (fun b => U9 m c b) (fun b => U10 m c b) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `U11`, left at `U12`. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (fun c b => U11 m c b) c).loose
  hwaits := Pipeline.hwaits_of_owed_zero _ _ _ _ LH lvH 5 fun _ _ => rfl
  pre c := iprop(StableHlo.held (c : Thread nD τ) (Pipeline.ucRefs τ sig) (U11 m c) ∗ RH c)
  post c := iprop(StableHlo.held (c : Thread nD τ) (Pipeline.ucRefs τ sig) (U12 m c) ∗ RH c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (fun b => U11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (fun b => U11 m c b) (fun b => U12 m c b) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: entered from every unscoped buffer at `U13`, left at `U14`. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (fun c b => U13 m c b) c).loose
  hwaits := Pipeline.hwaits_of_owed_zero _ _ _ _ LH lvH 6 fun _ _ => rfl
  pre c := iprop(StableHlo.held (c : Thread nD τ) (Pipeline.ucRefs τ sig) (U13 m c) ∗ RH c)
  post c := iprop(StableHlo.held (c : Thread nD τ) (Pipeline.ucRefs τ sig) (U14 m c) ∗ RH c)
  X c := iprop(∃ r, prngReg c r)
  Y c := iprop(∃ r, prngReg c r)
  Z c := Pipeline.unscopedRest (Ix := Unit) (Name := ℕ) (U := UR sig nD τ) (Lvl := ℕ) spec6 c (fun b => U13 m c b)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (fun b => U13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (fun b => U13 m c b) (fun b => U14 m c b) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Frames.lean ====
/-
  The frame of the program at any float instance: every weakly fair execution ends, nothing faults, and every
  argument array ends as it began. The chain of items is the generated one; each launch's record is the one proved for
  it, entered from and left at the named buffer contents.
-/
import proofs.«134920_j90091234001037_2_alg».proof.Proof.KB.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch makes, on every core, the generator register at its launch state and nothing owed. -/
theorem restInit : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts LH lvH)
    ⊢ (|={Set.univ}=> bigSep Finset.univ (fun c : Dev nD => RH (F := F) c) : sProp 𝕄) := by
  refine Pipeline.initEach LH lvH fun c => ?_
  iintro ⟨⟨-, HO, -, Hp, -⟩, -⟩
  imodintro
  isplitl [Hp]; · iexists _; iexact Hp
  iexists ∅; iexact HO

/-- The last item ends owing nothing. -/
theorem restOwes (c : Dev nD) : RH (F := F) c ⊢ (iprop(∃ W, owes (c : Thread nD τ) (0 : CellTallies nD τ sig Unit) W) : sProp 𝕄) := by
  iintro ⟨-, HO⟩; iexact HO

/-! Each launch's record is entered from, and left at, the generated thread state with the named contents. -/
theorem hpre0 (c : Dev nD) : iprop(StableHlo.held (c : Thread nD τ) (Pipeline.ucRefs τ sig) (V1 m c) ∗ RH (F := F) c) ⊢ (reg0 m).pre c := by
  rw [V1_eq]; exact .rfl
theorem hpost0 (c : Dev nD) : (reg0 m).post c ⊢ iprop(StableHlo.held (c : Thread nD τ) (Pipeline.ucRefs τ sig) (V2 m (outsH m) c) ∗ RH (F := F) c) := by
  rw [V2_eq]; exact .rfl
theorem hpre1 (c : Dev nD) : iprop(StableHlo.held (c : Thread nD τ) (Pipeline.ucRefs τ sig) (V3 m (outsH m) c) ∗ RH (F := F) c) ⊢ (reg1 m).pre c := by
  rw [V3_eq]; exact .rfl
theorem hpost1 (c : Dev nD) : (reg1 m).post c ⊢ iprop(StableHlo.held (c : Thread nD τ) (Pipeline.ucRefs τ sig) (V4 m (outsH m) c) ∗ RH (F := F) c) := by
  rw [V4_eq]; exact .rfl
theorem hpre2 (c : Dev nD) : iprop(StableHlo.held (c : Thread nD τ) (Pipeline.ucRefs τ sig) (V5 m (outsH m) c) ∗ RH (F := F) c) ⊢ (reg2 m).pre c := by
  rw [V5_eq]; exact .rfl
theorem hpost2 (c : Dev nD) : (reg2 m).post c ⊢ iprop(StableHlo.held (c : Thread nD τ) (Pipeline.ucRefs τ sig) (V6 m (outsH m) c) ∗ RH (F := F) c) := by
  rw [V6_eq]; exact .rfl
theorem hpre3 (c : Dev nD) : iprop(StableHlo.held (c : Thread nD τ) (Pipeline.ucRefs τ sig) (V7 m (outsH m) c) ∗ RH (F := F) c) ⊢ (reg3 m).pre c := by
  rw [V7_eq]; exact .rfl
theorem hpost3 (c : Dev nD) : (reg3 m).post c ⊢ iprop(StableHlo.held (c : Thread nD τ) (Pipeline.ucRefs τ sig) (V8 m (outsH m) c) ∗ RH (F := F) c) := by
  rw [V8_eq]; exact .rfl
theorem hpre4 (c : Dev nD) : iprop(StableHlo.held (c : Thread nD τ) (Pipeline.ucRefs τ sig) (V9 m (outsH m) c) ∗ RH (F := F) c) ⊢ (reg4 m).pre c := by
  rw [V9_eq]; exact .rfl
theorem hpost4 (c : Dev nD) : (reg4 m).post c ⊢ iprop(StableHlo.held (c : Thread nD τ) (Pipeline.ucRefs τ sig) (V10 m (outsH m) c) ∗ RH (F := F) c) := by
  rw [V10_eq]; exact .rfl
theorem hpre5 (c : Dev nD) : iprop(StableHlo.held (c : Thread nD τ) (Pipeline.ucRefs τ sig) (V11 m (outsH m) c) ∗ RH (F := F) c) ⊢ (reg5 m).pre c := by
  rw [V11_eq]; exact .rfl
theorem hpost5 (c : Dev nD) : (reg5 m).post c ⊢ iprop(StableHlo.held (c : Thread nD τ) (Pipeline.ucRefs τ sig) (V12 m (outsH m) c) ∗ RH (F := F) c) := by
  rw [V12_eq]; exact .rfl
theorem hpre6 (c : Dev nD) : iprop(StableHlo.held (c : Thread nD τ) (Pipeline.ucRefs τ sig) (V13 m (outsH m) c) ∗ RH (F := F) c) ⊢ (reg6 m).pre c := by
  rw [V13_eq]; exact .rfl
theorem hpost6 (c : Dev nD) : (reg6 m).post c ⊢ iprop(StableHlo.held (c : Thread nD τ) (Pipeline.ucRefs τ sig) (V14 m (outsH m) c) ∗ RH (F := F) c) := by
  rw [V14_eq]; exact .rfl

set_option backward.isDefEq.respectTransparency.types false in
/-- The frame, at any float instance. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond (F := F) m emb₁ () 𝒱H LH lvH (fun _ _ => rfl) ρ (outsH m) (pdatsH m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RH c)
    (restInit ρ)
    (restOwes)
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)

end Cert.Kernel.Hand

end
-- ==== Proof.KI.Reg0.lean ====
/-
  Region 0 of the program: the edge transform: one block of 5000 edges. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether the point fetches it or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of the array at every point, whether the point fetches it or the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block of the array at every point, whether the point fetches it or the
    block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: its one store, over the whole block, of the body's value of the input blocks. -/
def out0 (x0 : Vec F S5000x1 .f32) (x1 : Vec F S1x64 .f32) (x2 : Vec F S1x64 .f32) : Vec F S5000x64 .f32 :=
  View.canon [⟨(Rect.unit (s := S5000x64) ![0, 0] S5000x64.size inb_S5000x64_S5000x64_0_0), k0_pay1 (View.ld x0 (Rect.unit (s := S5000x1) ![0, 0] S5000x1.size inb_S5000x1_S5000x1_0_0)) (View.ld x1 (Rect.unit (s := S1x64) ![0, 0] S1x64.size inb_S1x64_S1x64_0_0)) (View.ld x2 (Rect.unit (s := S1x64) ![0, 0] S1x64.size inb_S1x64_S1x64_0_0))⟩]

/-- The one store covers the output block. -/
theorem cover0 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out0 x`. -/
theorem sound_kernel0 (c : Dev nD) (E : Set ℕ) (i : grid0.Coords) (arg1 : Memref sig .tc .vmem S5000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__edge_transform_kernel i arg1 harg1 arg2 harg2 arg3 harg3 arg4 harg4) K := by
  simp only [cc0__edge_transform_kernel_eq_skeleton]; unfold cc0__edge_transform_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The launch's bookkeeping on core `c`: the arrays as the region finds them; after the body at point `t` each input
    buffer at its block and the output buffer at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program: the dense layer without rectifier: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether the point fetches it or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the array at every point, whether the point fetches it or the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the array at every point, whether the point fetches it or the
    block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the array at every point, whether the point fetches it or the
    block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output block: its one store, over the whole block, of the body's value of the input blocks. -/
def out1 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover1 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out1 x`. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1 x0 x1 x2 x3)) -∗ K ⟨⟩))
      ⊢ wp frame (wpE (defs₀ (F := F)) Variants.none c none) E (cc1__dense_add_kernel i arg1 harg1 arg2 harg2 arg3 harg3 arg4 harg4 arg5 harg5) K := by
  simp only [cc1__dense_add_kernel_eq_skeleton]; unfold cc1__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The launch's bookkeeping on core `c`: the arrays as the region finds them; after the body at point `t` each input
    buffer at its block and the output buffer at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program: message-passing round 1: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether the point fetches it or the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of the array at every point, whether the point fetches it or the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of the array at every point, whether the point fetches it or the
    block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block of the array at every point, whether the point fetches it or the
    block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: its one store, over the whole block, of the body's value of the input blocks. -/
def out2 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out2 x`. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2 x0 x1 x2 x3)) -∗ K ⟨⟩))
      ⊢ wp frame (wpE (defs₀ (F := F)) Variants.none c none) E (cc2__dense_add_kernel i arg1 harg1 arg2 harg2 arg3 harg3 arg4 harg4 arg5 harg5) K := by
  simp only [cc2__dense_add_kernel_eq_skeleton]; unfold cc2__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The launch's bookkeeping on core `c`: the arrays as the region finds them; after the body at point `t` each input
    buffer at its block and the output buffer at the body's value of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program: message-passing round 2: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the array at every point, whether the point fetches it or the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block of the array at every point, whether the point fetches it or the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block of the array at every point, whether the point fetches it or the
    block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block of the array at every point, whether the point fetches it or the
    block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output block: its one store, over the whole block, of the body's value of the input blocks. -/
def out3 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out3 x`. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__dense_add_kernel i arg1 harg1 arg2 harg2 arg3 harg3 arg4 harg4 arg5 harg5) K := by
  simp only [cc3__dense_add_kernel_eq_skeleton]; unfold cc3__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The launch's bookkeeping on core `c`: the arrays as the region finds them; after the body at point `t` each input
    buffer at its block and the output buffer at the body's value of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program: message-passing round 3: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of the array at every point, whether the point fetches it or the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block of the array at every point, whether the point fetches it or the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block of the array at every point, whether the point fetches it or the
    block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block of the array at every point, whether the point fetches it or the
    block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in the output block: its one store, over the whole block, of the body's value of the input blocks. -/
def out4 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k4_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out4 x`. -/
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4__dense_add_kernel i arg1 harg1 arg2 harg2 arg3 harg3 arg4 harg4 arg5 harg5) K := by
  simp only [cc4__dense_add_kernel_eq_skeleton]; unfold cc4__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The launch's bookkeeping on core `c`: the arrays as the region finds them; after the body at point `t` each input
    buffer at its block and the output buffer at the body's value of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the input buffers hold their blocks, so the body's triple applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 of the program: message-passing round 4: one block of 5000 nodes. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block of the array at every point, whether the point fetches it or the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block of the array at every point, whether the point fetches it or the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block of the array at every point, whether the point fetches it or the
    block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block of the array at every point, whether the point fetches it or the
    block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in the output block: its one store, over the whole block, of the body's value of the input blocks. -/
def out5 (x0 : Vec F S5000x64 .f32) (x1 : Vec F S64x64 .f32) (x2 : Vec F S1x64 .f32) (x3 : Vec F S5000x64 .f32) : Vec F S5000x64 .f32 :=
  View.canon [⟨(Rect.unit (s := S5000x64) ![0, 0] S5000x64.size inb_S5000x64_S5000x64_0_0), k5_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S5000x64) ![0, 0] S5000x64.size inb_S5000x64_S5000x64_0_0))⟩]

/-- The one store covers the output block. -/
theorem cover5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: from the inputs at `x` and the output at anything it ends with the inputs as they
    were and the output at `out5 x`. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5 x0 x1 x2 x3)) -∗ K ⟨⟩))
      ⊢ wp frame (wpE (defs₀ (F := F)) Variants.none c none) E (cc5__dense_add_kernel i arg1 harg1 arg2 harg2 arg3 harg3 arg4 harg4 arg5 harg5) K := by
  simp only [cc5__dense_add_kernel_eq_skeleton]; unfold cc5__dense_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5 _)

/-- The launch's bookkeeping on core `c`: the arrays as the region finds them; after the body at point `t` each input
    buffer at its block and the output buffer at the body's value of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so the body's triple applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 of the program: the classifier head on all 1024 graphs at once. Stated for any contents `V` of the core's buffers on entry.

  The body reads its input blocks whole, computes one pure value from them and writes it over the whole output
  block; so after the body each input buffer still holds its block and the output buffer holds that value of the
  input blocks. From this the step-by-step obligation of the pipelined launch follows at every grid point.
-/
import proofs.«134920_j90091234001037_2_alg».proof.Proof.Gen.KernelIdeal.Launch
import proofs.«134920_j90091234001037_2_alg».proof.Proof.Gen.KernelIdeal.Skeleton
import proofs.«134920_j90091234001037_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block of the array at every point, whether the point fetches it or the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block of the array at every point, whether the point fetches it or the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block of the array at every point, whether the point fetches it or the
    block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block of the array at every point, whether the point fetches it or the
    block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block of the array at every point, whether the point fetches it or the
    block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the output block: its one store, over the whole block, of the body's value of the input blocks. -/
def out6 (x0 : Vec F S1024x64 .f32) (x1 : Vec F S64x64 .f32) (x2 : Vec F S1x64 .f32) (x3 : Vec F S64x1 .f32) (x4 : Vec F S1x1 .f32) : Vec F S1024x1 .f32 :=
  View.canon [⟨(Rect.unit (s := S1024x1) ![0, 0] S1024x1.size inb_S1024x1_S1024x1_0_0), k6_pay1 (View.ld x0 (Rect.unit (s := S1024x64) ![0, 0] S1024x64.size inb_S1024x64_S1024x64_0_0)) (View.ld x1 (Rect.unit (s := S64x64) ![0, 0] S64x64.size inb_S64x64_S64x64_0_0)) (View.ld x2 (Rect.unit (s := S1x64) ![0, 0] S1x64.size inb_S1x64_S1x64_0_0)) (View.ld x3 (Rect.unit (s := S64x1) ![0, 0] S64x1.size inb_S64x1_S64x1_0_0)) (View.ld x4 (Rect.unit (s := S1x1) ![0, 0] S1x1.size inb_S1x1_S1x1_0_0))⟩]

/-- The one store covers the output block. -/
theorem cover6 (p0 : Vec F S1024x1 .f32) (y : S1024x1.Idx) :
    ∃ pc ∈ ([⟨(Rect.unit (s := S1024x1) ![0, 0] S1024x1.size inb_S1024x1_S1024x1_0_0), p0⟩] : List (View.Piece (Elt F) S1024x1 .f32)), y ∈ pc.1.set :=
  View.cover_of_tiled [⟨(Rect.unit (s := S1024x1) ![0, 0] S1024x1.size inb_S1024x1_S1024x1_0_0), p0⟩] S1024x1.size (by rfl) y

set_option maxHeartbeats 1000000 in
/-- The body on whole staging buffers: from the inputs at `x` and the output at anything it ends with the inputs as they
    were and the output at `out6 x`. -/
theorem sound_kernel6 (c : Dev nD) (E : Set ℕ) (i : grid6.Coords) (arg1 : Memref sig .tc .vmem S1024x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1024x1 .f32) (harg6 : arg6.IsWhole)
    (x0 : Vec F S1024x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-- The launch's bookkeeping on core `c`: the arrays as the region finds them; after the body at point `t` each input
    buffer at its block and the output buffer at the body's value of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the input buffers hold their blocks, so the body's triple applies; the rest passes through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Chain.lean ====
/-
  The whole program as a chain of host stretches and kernel launches, with the contents of every buffer named
  between any two items.

  `U (2k+1)` is what the core's buffers hold when launch `k` begins (the previous contents after the host stretch in
  between), and `U (2k+2)` what they hold when it ends: the same, except that the launch's output array now holds the
  blocks its grid points wrote back. Each launch is entered from the first and left at the second; its own arrays are
  taken out of the buffers on entry and put back on exit, and everything else rides along untouched. No item writes an
  argument array, so the arguments end as they began; and the last launch's output array is the program's result.
-/
import proofs.«134920_j90091234001037_2_alg».proof.Proof.KI.Reg0
import proofs.«134920_j90091234001037_2_alg».proof.Proof.KI.Reg1
import proofs.«134920_j90091234001037_2_alg».proof.Proof.KI.Reg2
import proofs.«134920_j90091234001037_2_alg».proof.Proof.KI.Reg3
import proofs.«134920_j90091234001037_2_alg».proof.Proof.KI.Reg4
import proofs.«134920_j90091234001037_2_alg».proof.Proof.KI.Reg5
import proofs.«134920_j90091234001037_2_alg».proof.Proof.KI.Reg6
import proofs.«134920_j90091234001037_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch 0's entry: the launch memory after the first host stretch. -/
def U1 (c : Dev nD) : Valuation τ sig (Elt F) := StableHlo.after hostOps0 (fun b => m (c, b))
/-- Launch 0's output array after its last grid point. -/
def a0 (c : Dev nD) : Buf (Elt F) ((c : Thread nD τ).loc main_v5) := (dat0 (fun c b => U1 m c b) c).arrAt 3 cfg0.N
/-- At launch 0's exit: as at its entry, its output array at what the grid points wrote back. -/
def U2 (c : Dev nD) : Valuation τ sig (Elt F) := Function.update (U1 m c) main_v5 (a0 m c)
/-- At launch 1's entry: after the host stretch that follows launch 0. -/
def U3 (c : Dev nD) : Valuation τ sig (Elt F) := StableHlo.after hostOps1 (U2 m c)
/-- Launch 1's output array after its last grid point. -/
def a1 (c : Dev nD) : Buf (Elt F) ((c : Thread nD τ).loc main_v23) := (dat1 (fun c b => U3 m c b) c).arrAt 4 cfg1.N
/-- At launch 1's exit: as at its entry, its output array at what the grid points wrote back. -/
def U4 (c : Dev nD) : Valuation τ sig (Elt F) := Function.update (U3 m c) main_v23 (a1 m c)
/-- At launch 2's entry: after the host stretch that follows launch 1. -/
def U5 (c : Dev nD) : Valuation τ sig (Elt F) := StableHlo.after hostOps2 (U4 m c)
/-- Launch 2's output array after its last grid point. -/
def a2 (c : Dev nD) : Buf (Elt F) ((c : Thread nD τ).loc main_v35) := (dat2 (fun c b => U5 m c b) c).arrAt 4 cfg2.N
/-- At launch 2's exit: as at its entry, its output array at what the grid points wrote back. -/
def U6 (c : Dev nD) : Valuation τ sig (Elt F) := Function.update (U5 m c) main_v35 (a2 m c)
/-- At launch 3's entry: after the host stretch that follows launch 2. -/
def U7 (c : Dev nD) : Valuation τ sig (Elt F) := StableHlo.after hostOps3 (U6 m c)
/-- Launch 3's output array after its last grid point. -/
def a3 (c : Dev nD) : Buf (Elt F) ((c : Thread nD τ).loc main_v46) := (dat3 (fun c b => U7 m c b) c).arrAt 4 cfg3.N
/-- At launch 3's exit: as at its entry, its output array at what the grid points wrote back. -/
def U8 (c : Dev nD) : Valuation τ sig (Elt F) := Function.update (U7 m c) main_v46 (a3 m c)
/-- At launch 4's entry: after the host stretch that follows launch 3. -/
def U9 (c : Dev nD) : Valuation τ sig (Elt F) := StableHlo.after hostOps4 (U8 m c)
/-- Launch 4's output array after its last grid point. -/
def a4 (c : Dev nD) : Buf (Elt F) ((c : Thread nD τ).loc main_v57) := (dat4 (fun c b => U9 m c b) c).arrAt 4 cfg4.N
/-- At launch 4's exit: as at its entry, its output array at what the grid points wrote back. -/
def U10 (c : Dev nD) : Valuation τ sig (Elt F) := Function.update (U9 m c) main_v57 (a4 m c)
/-- At launch 5's entry: after the host stretch that follows launch 4. -/
def U11 (c : Dev nD) : Valuation τ sig (Elt F) := StableHlo.after hostOps5 (U10 m c)
/-- Launch 5's output array after its last grid point. -/
def a5 (c : Dev nD) : Buf (Elt F) ((c : Thread nD τ).loc main_v68) := (dat5 (fun c b => U11 m c b) c).arrAt 4 cfg5.N
/-- At launch 5's exit: as at its entry, its output array at what the grid points wrote back. -/
def U12 (c : Dev nD) : Valuation τ sig (Elt F) := Function.update (U11 m c) main_v68 (a5 m c)
/-- At launch 6's entry: after the host stretch that follows launch 5. -/
def U13 (c : Dev nD) : Valuation τ sig (Elt F) := StableHlo.after hostOps6 (U12 m c)
/-- Launch 6's output array after its last grid point. -/
def a6 (c : Dev nD) : Buf (Elt F) ((c : Thread nD τ).loc main_v82) := (dat6 (fun c b => U13 m c b) c).arrAt 5 cfg6.N
/-- At launch 6's exit: as at its entry, its output array at what the grid points wrote back. -/
def U14 (c : Dev nD) : Valuation τ sig (Elt F) := Function.update (U13 m c) main_v82 (a6 m c)

/-- The regions' results, as the generated valuations read them: after item `J-1` the buffer `r` holds `U J`'s. -/
def outsH : Outs (F := F) := fun J r c =>
  match J with
  | 2 => U2 m c r | 4 => U4 m c r | 6 => U6 m c r | 8 => U8 m c r | 10 => U10 m c r | 12 => U12 m c r | 14 => U14 m c r
  | _ => m (c, r)

theorem V1_eq (c : Dev nD) : V1 m c = U1 m c := rfl
theorem V2_eq (c : Dev nD) : V2 m (outsH m) c = U2 m c := by
  show Function.update (V1 m c) main_v5 (U2 m c main_v5) = U2 m c
  rw [V1_eq]
  unfold U2
  simp only [Function.update_self]
theorem V3_eq (c : Dev nD) : V3 m (outsH m) c = U3 m c := by
  show StableHlo.after hostOps1 (V2 m (outsH m) c) = U3 m c
  rw [V2_eq]; rfl
theorem V4_eq (c : Dev nD) : V4 m (outsH m) c = U4 m c := by
  show Function.update (V3 m (outsH m) c) main_v23 (U4 m c main_v23) = U4 m c
  rw [V3_eq]
  unfold U4
  simp only [Function.update_self]
theorem V5_eq (c : Dev nD) : V5 m (outsH m) c = U5 m c := by
  show StableHlo.after hostOps2 (V4 m (outsH m) c) = U5 m c
  rw [V4_eq]; rfl
theorem V6_eq (c : Dev nD) : V6 m (outsH m) c = U6 m c := by
  show Function.update (V5 m (outsH m) c) main_v35 (U6 m c main_v35) = U6 m c
  rw [V5_eq]
  unfold U6
  simp only [Function.update_self]
theorem V7_eq (c : Dev nD) : V7 m (outsH m) c = U7 m c := by
  show StableHlo.after hostOps3 (V6 m (outsH m) c) = U7 m c
  rw [V6_eq]; rfl
theorem V8_eq (c : Dev nD) : V8 m (outsH m) c = U8 m c := by
  show Function.update (V7 m (outsH m) c) main_v46 (U8 m c main_v46) = U8 m c
  rw [V7_eq]
  unfold U8
  simp only [Function.update_self]
theorem V9_eq (c : Dev nD) : V9 m (outsH m) c = U9 m c := by
  show StableHlo.after hostOps4 (V8 m (outsH m) c) = U9 m c
  rw [V8_eq]; rfl
theorem V10_eq (c : Dev nD) : V10 m (outsH m) c = U10 m c := by
  show Function.update (V9 m (outsH m) c) main_v57 (U10 m c main_v57) = U10 m c
  rw [V9_eq]
  unfold U10
  simp only [Function.update_self]
theorem V11_eq (c : Dev nD) : V11 m (outsH m) c = U11 m c := by
  show StableHlo.after hostOps5 (V10 m (outsH m) c) = U11 m c
  rw [V10_eq]; rfl
theorem V12_eq (c : Dev nD) : V12 m (outsH m) c = U12 m c := by
  show Function.update (V11 m (outsH m) c) main_v68 (U12 m c main_v68) = U12 m c
  rw [V11_eq]
  unfold U12
  simp only [Function.update_self]
theorem V13_eq (c : Dev nD) : V13 m (outsH m) c = U13 m c := by
  show StableHlo.after hostOps6 (V12 m (outsH m) c) = U13 m c
  rw [V12_eq]; rfl
theorem V14_eq (c : Dev nD) : V14 m (outsH m) c = U14 m c := by
  show Function.update (V13 m (outsH m) c) main_v82 (U14 m c main_v82) = U14 m c
  rw [V13_eq]
  unfold U14
  simp only [Function.update_self]

/-! ## Each launch's arrays at its exit -/
/-- At launch 0's exit its output array holds what the grid points wrote back, -/
theorem U2_out (c : Dev nD) : U2 m c main_v5 = a0 m c := by
  unfold U2; simp only [Function.update_self]
/-- and every other buffer what it held at entry. -/
theorem U2_of_ne (c : Dev nD) (r : Ref sig .tc) (h : r ≠ main_v5) : U2 m c r = U1 m c r := by
  unfold U2
  simp only [Function.update_of_ne (StableHlo.devRef_ne_of_ne h : (Proc.devRef .tc r : DevRef τ sig) ≠ Proc.devRef .tc main_v5)]
set_option maxHeartbeats 1000000 in
/-- So each of launch 0's arrays holds at the exit what the launch leaves: an input as entered, the output at `a0`. -/
theorem hF0 (c : Dev nD) (w : Fin cfg0.W) : (dat0 (fun c b => U1 m c b) c).arrAt w cfg0.N = U2 m c (Pipeline.arrRef spec0 w) :=
  match w with
  | ⟨0, _⟩ => (((dat0 (fun c b => U1 m c b) c).arrAt_in 0 rfl _).trans (A_eq0 (fun c b => U1 m c b) c 0)).trans
      (U2_of_ne m c _ (by decide)).symm
  | ⟨1, _⟩ => (((dat0 (fun c b => U1 m c b) c).arrAt_in 1 rfl _).trans (A_eq0 (fun c b => U1 m c b) c 1)).trans
      (U2_of_ne m c _ (by decide)).symm
  | ⟨2, _⟩ => (((dat0 (fun c b => U1 m c b) c).arrAt_in 2 rfl _).trans (A_eq0 (fun c b => U1 m c b) c 2)).trans
      (U2_of_ne m c _ (by decide)).symm
  | ⟨3, _⟩ => (U2_out m c).symm
theorem hrest0 (c : Dev nD) : ∀ b : Ref sig .tc, b ∉ Finset.univ.image (Pipeline.arrRef spec0) → U2 m c b = U1 m c b := fun b hb =>
  U2_of_ne m c b fun e => hb (Finset.mem_image.mpr ⟨(3 : Fin cfg0.W), Finset.mem_univ _, (show Pipeline.arrRef spec0 3 = b from e.symm)⟩)
/-- At launch 1's exit its output array holds what the grid points wrote back, -/
theorem U4_out (c : Dev nD) : U4 m c main_v23 = a1 m c := by
  unfold U4; simp only [Function.update_self]
/-- and every other buffer what it held at entry. -/
theorem U4_of_ne (c : Dev nD) (r : Ref sig .tc) (h : r ≠ main_v23) : U4 m c r = U3 m c r := by
  unfold U4
  simp only [Function.update_of_ne (StableHlo.devRef_ne_of_ne h : (Proc.devRef .tc r : DevRef τ sig) ≠ Proc.devRef .tc main_v23)]
set_option maxHeartbeats 1000000 in
/-- So each of launch 1's arrays holds at the exit what the launch leaves: an input as entered, the output at `a1`. -/
theorem hF1 (c : Dev nD) (w : Fin cfg1.W) : (dat1 (fun c b => U3 m c b) c).arrAt w cfg1.N = U4 m c (Pipeline.arrRef spec1 w) :=
  match w with
  | ⟨0, _⟩ => (((dat1 (fun c b => U3 m c b) c).arrAt_in 0 rfl _).trans (A_eq1 (fun c b => U3 m c b) c 0)).trans
      (U4_of_ne m c _ (by decide)).symm
  | ⟨1, _⟩ => (((dat1 (fun c b => U3 m c b) c).arrAt_in 1 rfl _).trans (A_eq1 (fun c b => U3 m c b) c 1)).trans
      (U4_of_ne m c _ (by decide)).symm
  | ⟨2, _⟩ => (((dat1 (fun c b => U3 m c b) c).arrAt_in 2 rfl _).trans (A_eq1 (fun c b => U3 m c b) c 2)).trans
      (U4_of_ne m c _ (by decide)).symm
  | ⟨3, _⟩ => (((dat1 (fun c b => U3 m c b) c).arrAt_in 3 rfl _).trans (A_eq1 (fun c b => U3 m c b) c 3)).trans
      (U4_of_ne m c _ (by decide)).symm
  | ⟨4, _⟩ => (U4_out m c).symm
theorem hrest1 (c : Dev nD) : ∀ b : Ref sig .tc, b ∉ Finset.univ.image (Pipeline.arrRef spec1) → U4 m c b = U3 m c b := fun b hb =>
  U4_of_ne m c b fun e => hb (Finset.mem_image.mpr ⟨(4 : Fin cfg1.W), Finset.mem_univ _, (show Pipeline.arrRef spec1 4 = b from e.symm)⟩)
/-- At launch 2's exit its output array holds what the grid points wrote back, -/
theorem U6_out (c : Dev nD) : U6 m c main_v35 = a2 m c := by
  unfold U6; simp only [Function.update_self]
/-- and every other buffer what it held at entry. -/
theorem U6_of_ne (c : Dev nD) (r : Ref sig .tc) (h : r ≠ main_v35) : U6 m c r = U5 m c r := by
  unfold U6
  simp only [Function.update_of_ne (StableHlo.devRef_ne_of_ne h : (Proc.devRef .tc r : DevRef τ sig) ≠ Proc.devRef .tc main_v35)]
set_option maxHeartbeats 1000000 in
/-- So each of launch 2's arrays holds at the exit what the launch leaves: an input as entered, the output at `a2`. -/
theorem hF2 (c : Dev nD) (w : Fin cfg2.W) : (dat2 (fun c b => U5 m c b) c).arrAt w cfg2.N = U6 m c (Pipeline.arrRef spec2 w) :=
  match w with
  | ⟨0, _⟩ => (((dat2 (fun c b => U5 m c b) c).arrAt_in 0 rfl _).trans (A_eq2 (fun c b => U5 m c b) c 0)).trans
      (U6_of_ne m c _ (by decide)).symm
  | ⟨1, _⟩ => (((dat2 (fun c b => U5 m c b) c).arrAt_in 1 rfl _).trans (A_eq2 (fun c b => U5 m c b) c 1)).trans
      (U6_of_ne m c _ (by decide)).symm
  | ⟨2, _⟩ => (((dat2 (fun c b => U5 m c b) c).arrAt_in 2 rfl _).trans (A_eq2 (fun c b => U5 m c b) c 2)).trans
      (U6_of_ne m c _ (by decide)).symm
  | ⟨3, _⟩ => (((dat2 (fun c b => U5 m c b) c).arrAt_in 3 rfl _).trans (A_eq2 (fun c b => U5 m c b) c 3)).trans
      (U6_of_ne m c _ (by decide)).symm
  | ⟨4, _⟩ => (U6_out m c).symm
theorem hrest2 (c : Dev nD) : ∀ b : Ref sig .tc, b ∉ Finset.univ.image (Pipeline.arrRef spec2) → U6 m c b = U5 m c b := fun b hb =>
  U6_of_ne m c b fun e => hb (Finset.mem_image.mpr ⟨(4 : Fin cfg2.W), Finset.mem_univ _, (show Pipeline.arrRef spec2 4 = b from e.symm)⟩)
/-- At launch 3's exit its output array holds what the grid points wrote back, -/
theorem U8_out (c : Dev nD) : U8 m c main_v46 = a3 m c := by
  unfold U8; simp only [Function.update_self]
/-- and every other buffer what it held at entry. -/
theorem U8_of_ne (c : Dev nD) (r : Ref sig .tc) (h : r ≠ main_v46) : U8 m c r = U7 m c r := by
  unfold U8
  simp only [Function.update_of_ne (StableHlo.devRef_ne_of_ne h : (Proc.devRef .tc r : DevRef τ sig) ≠ Proc.devRef .tc main_v46)]
set_option maxHeartbeats 1000000 in
/-- So each of launch 3's arrays holds at the exit what the launch leaves: an input as entered, the output at `a3`. -/
theorem hF3 (c : Dev nD) (w : Fin cfg3.W) : (dat3 (fun c b => U7 m c b) c).arrAt w cfg3.N = U8 m c (Pipeline.arrRef spec3 w) :=
  match w with
  | ⟨0, _⟩ => (((dat3 (fun c b => U7 m c b) c).arrAt_in 0 rfl _).trans (A_eq3 (fun c b => U7 m c b) c 0)).trans
      (U8_of_ne m c _ (by decide)).symm
  | ⟨1, _⟩ => (((dat3 (fun c b => U7 m c b) c).arrAt_in 1 rfl _).trans (A_eq3 (fun c b => U7 m c b) c 1)).trans
      (U8_of_ne m c _ (by decide)).symm
  | ⟨2, _⟩ => (((dat3 (fun c b => U7 m c b) c).arrAt_in 2 rfl _).trans (A_eq3 (fun c b => U7 m c b) c 2)).trans
      (U8_of_ne m c _ (by decide)).symm
  | ⟨3, _⟩ => (((dat3 (fun c b => U7 m c b) c).arrAt_in 3 rfl _).trans (A_eq3 (fun c b => U7 m c b) c 3)).trans
      (U8_of_ne m c _ (by decide)).symm
  | ⟨4, _⟩ => (U8_out m c).symm
theorem hrest3 (c : Dev nD) : ∀ b : Ref sig .tc, b ∉ Finset.univ.image (Pipeline.arrRef spec3) → U8 m c b = U7 m c b := fun b hb =>
  U8_of_ne m c b fun e => hb (Finset.mem_image.mpr ⟨(4 : Fin cfg3.W), Finset.mem_univ _, (show Pipeline.arrRef spec3 4 = b from e.symm)⟩)
/-- At launch 4's exit its output array holds what the grid points wrote back, -/
theorem U10_out (c : Dev nD) : U10 m c main_v57 = a4 m c := by
  unfold U10; simp only [Function.update_self]
/-- and every other buffer what it held at entry. -/
theorem U10_of_ne (c : Dev nD) (r : Ref sig .tc) (h : r ≠ main_v57) : U10 m c r = U9 m c r := by
  unfold U10
  simp only [Function.update_of_ne (StableHlo.devRef_ne_of_ne h : (Proc.devRef .tc r : DevRef τ sig) ≠ Proc.devRef .tc main_v57)]
set_option maxHeartbeats 1000000 in
/-- So each of launch 4's arrays holds at the exit what the launch leaves: an input as entered, the output at `a4`. -/
theorem hF4 (c : Dev nD) (w : Fin cfg4.W) : (dat4 (fun c b => U9 m c b) c).arrAt w cfg4.N = U10 m c (Pipeline.arrRef spec4 w) :=
  match w with
  | ⟨0, _⟩ => (((dat4 (fun c b => U9 m c b) c).arrAt_in 0 rfl _).trans (A_eq4 (fun c b => U9 m c b) c 0)).trans
      (U10_of_ne m c _ (by decide)).symm
  | ⟨1, _⟩ => (((dat4 (fun c b => U9 m c b) c).arrAt_in 1 rfl _).trans (A_eq4 (fun c b => U9 m c b) c 1)).trans
      (U10_of_ne m c _ (by decide)).symm
  | ⟨2, _⟩ => (((dat4 (fun c b => U9 m c b) c).arrAt_in 2 rfl _).trans (A_eq4 (fun c b => U9 m c b) c 2)).trans
      (U10_of_ne m c _ (by decide)).symm
  | ⟨3, _⟩ => (((dat4 (fun c b => U9 m c b) c).arrAt_in 3 rfl _).trans (A_eq4 (fun c b => U9 m c b) c 3)).trans
      (U10_of_ne m c _ (by decide)).symm
  | ⟨4, _⟩ => (U10_out m c).symm
theorem hrest4 (c : Dev nD) : ∀ b : Ref sig .tc, b ∉ Finset.univ.image (Pipeline.arrRef spec4) → U10 m c b = U9 m c b := fun b hb =>
  U10_of_ne m c b fun e => hb (Finset.mem_image.mpr ⟨(4 : Fin cfg4.W), Finset.mem_univ _, (show Pipeline.arrRef spec4 4 = b from e.symm)⟩)
/-- At launch 5's exit its output array holds what the grid points wrote back, -/
theorem U12_out (c : Dev nD) : U12 m c main_v68 = a5 m c := by
  unfold U12; simp only [Function.update_self]
/-- and every other buffer what it held at entry. -/
theorem U12_of_ne (c : Dev nD) (r : Ref sig .tc) (h : r ≠ main_v68) : U12 m c r = U11 m c r := by
  unfold U12
  simp only [Function.update_of_ne (StableHlo.devRef_ne_of_ne h : (Proc.devRef .tc r : DevRef τ sig) ≠ Proc.devRef .tc main_v68)]
set_option maxHeartbeats 1000000 in
/-- So each of launch 5's arrays holds at the exit what the launch leaves: an input as entered, the output at `a5`. -/
theorem hF5 (c : Dev nD) (w : Fin cfg5.W) : (dat5 (fun c b => U11 m c b) c).arrAt w cfg5.N = U12 m c (Pipeline.arrRef spec5 w) :=
  match w with
  | ⟨0, _⟩ => (((dat5 (fun c b => U11 m c b) c).arrAt_in 0 rfl _).trans (A_eq5 (fun c b => U11 m c b) c 0)).trans
      (U12_of_ne m c _ (by decide)).symm
  | ⟨1, _⟩ => (((dat5 (fun c b => U11 m c b) c).arrAt_in 1 rfl _).trans (A_eq5 (fun c b => U11 m c b) c 1)).trans
      (U12_of_ne m c _ (by decide)).symm
  | ⟨2, _⟩ => (((dat5 (fun c b => U11 m c b) c).arrAt_in 2 rfl _).trans (A_eq5 (fun c b => U11 m c b) c 2)).trans
      (U12_of_ne m c _ (by decide)).symm
  | ⟨3, _⟩ => (((dat5 (fun c b => U11 m c b) c).arrAt_in 3 rfl _).trans (A_eq5 (fun c b => U11 m c b) c 3)).trans
      (U12_of_ne m c _ (by decide)).symm
  | ⟨4, _⟩ => (U12_out m c).symm
theorem hrest5 (c : Dev nD) : ∀ b : Ref sig .tc, b ∉ Finset.univ.image (Pipeline.arrRef spec5) → U12 m c b = U11 m c b := fun b hb =>
  U12_of_ne m c b fun e => hb (Finset.mem_image.mpr ⟨(4 : Fin cfg5.W), Finset.mem_univ _, (show Pipeline.arrRef spec5 4 = b from e.symm)⟩)
/-- At launch 6's exit its output array holds what the grid points wrote back, -/
theorem U14_out (c : Dev nD) : U14 m c main_v82 = a6 m c := by
  unfold U14; simp only [Function.update_self]
/-- and every other buffer what it held at entry. -/
theorem U14_of_ne (c : Dev nD) (r : Ref sig .tc) (h : r ≠ main_v82) : U14 m c r = U13 m c r := by
  unfold U14
  simp only [Function.update_of_ne (StableHlo.devRef_ne_of_ne h : (Proc.devRef .tc r : DevRef τ sig) ≠ Proc.devRef .tc main_v82)]
set_option maxHeartbeats 1000000 in
/-- So each of launch 6's arrays holds at the exit what the launch leaves: an input as entered, the output at `a6`. -/
theorem hF6 (c : Dev nD) (w : Fin cfg6.W) : (dat6 (fun c b => U13 m c b) c).arrAt w cfg6.N = U14 m c (Pipeline.arrRef spec6 w) :=
  match w with
  | ⟨0, _⟩ => (((dat6 (fun c b => U13 m c b) c).arrAt_in 0 rfl _).trans (A_eq6 (fun c b => U13 m c b) c 0)).trans
      (U14_of_ne m c _ (by decide)).symm
  | ⟨1, _⟩ => (((dat6 (fun c b => U13 m c b) c).arrAt_in 1 rfl _).trans (A_eq6 (fun c b => U13 m c b) c 1)).trans
      (U14_of_ne m c _ (by decide)).symm
  | ⟨2, _⟩ => (((dat6 (fun c b => U13 m c b) c).arrAt_in 2 rfl _).trans (A_eq6 (fun c b => U13 m c b) c 2)).trans
      (U14_of_ne m c _ (by decide)).symm
  | ⟨3, _⟩ => (((dat6 (fun c b => U13 m c b) c).arrAt_in 3 rfl _).trans (A_eq6 (fun c b => U13 m c b) c 3)).trans
      (U14_of_ne m c _ (by decide)).symm
  | ⟨4, _⟩ => (((dat6 (fun c b => U13 m c b) c).arrAt_in 4 rfl _).trans (A_eq6 (fun c b => U13 m c b) c 4)).trans
      (U14_of_ne m c _ (by decide)).symm
  | ⟨5, _⟩ => (U14_out m c).symm
theorem hrest6 (c : Dev nD) : ∀ b : Ref sig .tc, b ∉ Finset.univ.image (Pipeline.arrRef spec6) → U14 m c b = U13 m c b := fun b hb =>
  U14_of_ne m c b fun e => hb (Finset.mem_image.mpr ⟨(5 : Fin cfg6.W), Finset.mem_univ _, (show Pipeline.arrRef spec6 5 = b from e.symm)⟩)

/-! The entry contents unfolded once: the previous contents after the host stretch in between. -/
theorem U1_def (c : Dev nD) : U1 m c = StableHlo.after hostOps0 (fun b => m (c, b)) := by unfold U1; rfl
theorem U3_def (c : Dev nD) : U3 m c = StableHlo.after hostOps1 (U2 m c) := by unfold U3; rfl
theorem U5_def (c : Dev nD) : U5 m c = StableHlo.after hostOps2 (U4 m c) := by unfold U5; rfl
theorem U7_def (c : Dev nD) : U7 m c = StableHlo.after hostOps3 (U6 m c) := by unfold U7; rfl
theorem U9_def (c : Dev nD) : U9 m c = StableHlo.after hostOps4 (U8 m c) := by unfold U9; rfl
theorem U11_def (c : Dev nD) : U11 m c = StableHlo.after hostOps5 (U10 m c) := by unfold U11; rfl
theorem U13_def (c : Dev nD) : U13 m c = StableHlo.after hostOps6 (U12 m c) := by unfold U13; rfl

attribute [irreducible] a0 a1 a2 a3 a4 a5 a6 U1 U2 U3 U4 U5 U6 U7 U8 U9 U10 U11 U12 U13 U14

/-! ## The launches' bookkeeping as one family, and what rides beside the buffers -/

abbrev admH : (p : Fin 7) → (pcfgs (F := F) p).Adm := fun p => (cfgs p).toPCfg_adm
def pdatsH : (p : Fin 7) → (c : Dev nD) → Dat τ (Elt F) Unit ℕ (UR sig nD τ) ℕ (Pipeline.pin (pcfgs (F := F)) admH p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
abbrev 𝒱H : Variants := Variants.none
abbrev LH : GSem nD τ sig → Finset Unit := fun _ => ∅
abbrev lvH : GSem nD τ sig → Unit → ℕ := fun _ _ => 0
/-- Beside the buffers every item carries the core's generator register at some state and the core owing nothing. -/
abbrev RH (c : Dev nD) : sProp 𝕄 := iprop((∃ r, prngReg c r) ∗ ∃ W, owes (c : Thread nD τ) (0 : CellTallies nD τ sig Unit) W)

/-! ## The launches as segments -/

set_option backward.isDefEq.respectTransparency.types false in
/-- Launch 0: entered from every unscoped buffer at `U1`, left at `U2`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (fun c b => U1 m c b) c).loose
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (fun b => U1 m c b)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (fun b => U1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (fun b => U1 m c b) (fun b => U2 m c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `U3`, left at `U4`. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (fun c b => U3 m c b) c).loose
  hwaits := Pipeline.hwaits_of_owed_zero _ _ _ _ LH lvH 1 fun _ _ => rfl
  pre c := iprop(StableHlo.held (c : Thread nD τ) (Pipeline.ucRefs τ sig) (U3 m c) ∗ RH c)
  post c := iprop(StableHlo.held (c : Thread nD τ) (Pipeline.ucRefs τ sig) (U4 m c) ∗ RH c)
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (fun b => U3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (fun b => U3 m c b) (fun b => U4 m c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `U5`, left at `U6`. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (fun c b => U5 m c b) c).loose
  hwaits := Pipeline.hwaits_of_owed_zero _ _ _ _ LH lvH 2 fun _ _ => rfl
  pre c := iprop(StableHlo.held (c : Thread nD τ) (Pipeline.ucRefs τ sig) (U5 m c) ∗ RH c)
  post c := iprop(StableHlo.held (c : Thread nD τ) (Pipeline.ucRefs τ sig) (U6 m c) ∗ RH c)
  X c := iprop(∃ r, prngReg c r)
  Y c := iprop(∃ r, prngReg c r)
  Z c := Pipeline.unscopedRest (Ix := Unit) (Name := ℕ) (U := UR sig nD τ) (Lvl := ℕ) spec2 c (fun b => U5 m c b)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (fun b => U5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (fun b => U5 m c b) (fun b => U6 m c b) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `U7`, left at `U8`. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (fun c b => U7 m c b) c).loose
  hwaits := Pipeline.hwaits_of_owed_zero _ _ _ _ LH lvH 3 fun _ _ => rfl
  pre c := iprop(StableHlo.held (c : Thread nD τ) (Pipeline.ucRefs τ sig) (U7 m c) ∗ RH c)
  post c := iprop(StableHlo.held (c : Thread nD τ) (Pipeline.ucRefs τ sig) (U8 m c) ∗ RH c)
  X c := iprop(∃ r, prngReg c r)
  Y c := iprop(∃ r, prngReg c r)
  Z c := Pipeline.unscopedRest (Ix := Unit) (Name := ℕ) (U := UR sig nD τ) (Lvl := ℕ) spec3 c (fun b => U7 m c b)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (fun b => U7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (fun b => U7 m c b) (fun b => U8 m c b) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `U9`, left at `U10`. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (fun c b => U9 m c b) c).loose
  hwaits := Pipeline.hwaits_of_owed_zero _ _ _ _ LH lvH 4 fun _ _ => rfl
  pre c := iprop(StableHlo.held (c : Thread nD τ) (Pipeline.ucRefs τ sig) (U9 m c) ∗ RH c)
  post c := iprop(StableHlo.held (c : Thread nD τ) (Pipeline.ucRefs τ sig) (U10 m c) ∗ RH c)
  X c := iprop(∃ r, prngReg c r)
  Y c := iprop(∃ r, prngReg c r)
  Z c := Pipeline.unscopedRest (Ix := Unit) (Name := ℕ) (U := UR sig nD τ) (Lvl := ℕ) spec4 c (fun b => U9 m c b)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (fun b => U9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (fun b => U9 m c b) (fun b => U10 m c b) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `U11`, left at `U12`. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (fun c b => U11 m c b) c).loose
  hwaits := Pipeline.hwaits_of_owed_zero _ _ _ _ LH lvH 5 fun _ _ => rfl
  pre c := iprop(StableHlo.held (c : Thread nD τ) (Pipeline.ucRefs τ sig) (U11 m c) ∗ RH c)
  post c := iprop(StableHlo.held (c : Thread nD τ) (Pipeline.ucRefs τ sig) (U12 m c) ∗ RH c)
  X c := iprop(∃ r, prngReg c r)
  Y c := iprop(∃ r, prngReg c r)
  Z c := Pipeline.unscopedRest (Ix := Unit) (Name := ℕ) (U := UR sig nD τ) (Lvl := ℕ) spec5 c (fun b => U11 m c b)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (fun b => U11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (fun b => U11 m c b) (fun b => U12 m c b) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 6: entered from every unscoped buffer at `U13`, left at `U14`. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (fun c b => U13 m c b) c).loose
  hwaits := Pipeline.hwaits_of_owed_zero _ _ _ _ LH lvH 6 fun _ _ => rfl
  pre c := iprop(StableHlo.held (c : Thread nD τ) (Pipeline.ucRefs τ sig) (U13 m c) ∗ RH c)
  post c := iprop(StableHlo.held (c : Thread nD τ) (Pipeline.ucRefs τ sig) (U14 m c) ∗ RH c)
  X c := iprop(∃ r, prngReg c r)
  Y c := iprop(∃ r, prngReg c r)
  Z c := Pipeline.unscopedRest (Ix := Unit) (Name := ℕ) (U := UR sig nD τ) (Lvl := ℕ) spec6 c (fun b => U13 m c b)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (fun b => U13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (fun b => U13 m c b) (fun b => U14 m c b) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frames.lean ====
/-
  The frame of the program at any float instance: every weakly fair execution ends, nothing faults, and every
  argument array ends as it began. The chain of items is the generated one; each launch's record is the one proved for
  it, entered from and left at the named buffer contents.
-/
import proofs.«134920_j90091234001037_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch makes, on every core, the generator register at its launch state and nothing owed. -/
theorem restInit : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts LH lvH)
    ⊢ (|={Set.univ}=> bigSep Finset.univ (fun c : Dev nD => RH (F := F) c) : sProp 𝕄) := by
  refine Pipeline.initEach LH lvH fun c => ?_
  iintro ⟨⟨-, HO, -, Hp, -⟩, -⟩
  imodintro
  isplitl [Hp]; · iexists _; iexact Hp
  iexists ∅; iexact HO

/-- The last item ends owing nothing. -/
theorem restOwes (c : Dev nD) : RH (F := F) c ⊢ (iprop(∃ W, owes (c : Thread nD τ) (0 : CellTallies nD τ sig Unit) W) : sProp 𝕄) := by
  iintro ⟨-, HO⟩; iexact HO

/-! Each launch's record is entered from, and left at, the generated thread state with the named contents. -/
theorem hpre0 (c : Dev nD) : iprop(StableHlo.held (c : Thread nD τ) (Pipeline.ucRefs τ sig) (V1 m c) ∗ RH (F := F) c) ⊢ (reg0 m).pre c := by
  rw [V1_eq]; exact .rfl
theorem hpost0 (c : Dev nD) : (reg0 m).post c ⊢ iprop(StableHlo.held (c : Thread nD τ) (Pipeline.ucRefs τ sig) (V2 m (outsH m) c) ∗ RH (F := F) c) := by
  rw [V2_eq]; exact .rfl
theorem hpre1 (c : Dev nD) : iprop(StableHlo.held (c : Thread nD τ) (Pipeline.ucRefs τ sig) (V3 m (outsH m) c) ∗ RH (F := F) c) ⊢ (reg1 m).pre c := by
  rw [V3_eq]; exact .rfl
theorem hpost1 (c : Dev nD) : (reg1 m).post c ⊢ iprop(StableHlo.held (c : Thread nD τ) (Pipeline.ucRefs τ sig) (V4 m (outsH m) c) ∗ RH (F := F) c) := by
  rw [V4_eq]; exact .rfl
theorem hpre2 (c : Dev nD) : iprop(StableHlo.held (c : Thread nD τ) (Pipeline.ucRefs τ sig) (V5 m (outsH m) c) ∗ RH (F := F) c) ⊢ (reg2 m).pre c := by
  rw [V5_eq]; exact .rfl
theorem hpost2 (c : Dev nD) : (reg2 m).post c ⊢ iprop(StableHlo.held (c : Thread nD τ) (Pipeline.ucRefs τ sig) (V6 m (outsH m) c) ∗ RH (F := F) c) := by
  rw [V6_eq]; exact .rfl
theorem hpre3 (c : Dev nD) : iprop(StableHlo.held (c : Thread nD τ) (Pipeline.ucRefs τ sig) (V7 m (outsH m) c) ∗ RH (F := F) c) ⊢ (reg3 m).pre c := by
  rw [V7_eq]; exact .rfl
theorem hpost3 (c : Dev nD) : (reg3 m).post c ⊢ iprop(StableHlo.held (c : Thread nD τ) (Pipeline.ucRefs τ sig) (V8 m (outsH m) c) ∗ RH (F := F) c) := by
  rw [V8_eq]; exact .rfl
theorem hpre4 (c : Dev nD) : iprop(StableHlo.held (c : Thread nD τ) (Pipeline.ucRefs τ sig) (V9 m (outsH m) c) ∗ RH (F := F) c) ⊢ (reg4 m).pre c := by
  rw [V9_eq]; exact .rfl
theorem hpost4 (c : Dev nD) : (reg4 m).post c ⊢ iprop(StableHlo.held (c : Thread nD τ) (Pipeline.ucRefs τ sig) (V10 m (outsH m) c) ∗ RH (F := F) c) := by
  rw [V10_eq]; exact .rfl
theorem hpre5 (c : Dev nD) : iprop(StableHlo.held (c : Thread nD τ) (Pipeline.ucRefs τ sig) (V11 m (outsH m) c) ∗ RH (F := F) c) ⊢ (reg5 m).pre c := by
  rw [V11_eq]; exact .rfl
theorem hpost5 (c : Dev nD) : (reg5 m).post c ⊢ iprop(StableHlo.held (c : Thread nD τ) (Pipeline.ucRefs τ sig) (V12 m (outsH m) c) ∗ RH (F := F) c) := by
  rw [V12_eq]; exact .rfl
theorem hpre6 (c : Dev nD) : iprop(StableHlo.held (c : Thread nD τ) (Pipeline.ucRefs τ sig) (V13 m (outsH m) c) ∗ RH (F := F) c) ⊢ (reg6 m).pre c := by
  rw [V13_eq]; exact .rfl
theorem hpost6 (c : Dev nD) : (reg6 m).post c ⊢ iprop(StableHlo.held (c : Thread nD τ) (Pipeline.ucRefs τ sig) (V14 m (outsH m) c) ∗ RH (F := F) c) := by
  rw [V14_eq]; exact .rfl

set_option backward.isDefEq.respectTransparency.types false in
/-- The frame, at any float instance. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond (F := F) m emb₁ () 𝒱H LH lvH (fun _ _ => rfl) ρ (outsH m) (pdatsH m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RH c)
    (restInit ρ)
    (restOwes)
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)

end Cert.KernelIdeal.Hand

end
-- ==== Proof.KI.Result.lean ====
/-
  The program's run with its result named: every weakly fair execution ends, nothing faults, the result array holds
  what the last launch's grid points wrote back (`a6`), and every argument array ends as it began.
-/
import proofs.«134920_j90091234001037_2_alg».proof.Proof.KI.Frames

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is no argument and is last written by the last launch: at the end it holds `a6`. -/
theorem U14_result (c : Dev nD) : U14 m c main_v82 = a6 m c := by
  unfold U14; exact Function.update_self _ _ _

set_option backward.isDefEq.respectTransparency.types false in
theorem runH : θ_run defs (onTc (τ := τ) (main (F := F))) ⟨m, fun _ => 0, ρ⟩ (fun r => ∀ c : Dev nD,
      r.2.mem ((c.tc : Thread nD τ).loc main_v82) = a6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm (pdatsH m) () cellOf_inj emb₁ defs₀ 𝒱H LH lvH m ρ main
    (segs m (outsH m) 𝒱H LH lvH (fun _ c => RH c) () (pdatsH m) (reg0 m) (reg1 m) (reg2 m) (reg3 m) (reg4 m) (reg5 m) (reg6 m))
    (fun c Q => by
      rewrite [main_chain c, Seg.run_eq_chain,
        show (segs m (outsH m) 𝒱H LH lvH (fun _ c => RH c) () (pdatsH m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RH c))
    (Tₙ := fun c => StableHlo.held (c : Thread nD τ) (Pipeline.ucRefs τ sig) (V14 m (outsH m) c))
    (hch := fun c => ⟨.rfl, hpre0 m c, hpost0 m c, hpre1 m c, hpost1 m c, hpre2 m c, hpost2 m c, hpre3 m c, hpost3 m c, hpre4 m c, hpost4 m c, hpre5 m c, hpost5 m c, hpre6 m c, (hpost6 m c).trans (sep_mono .rfl (restOwes c))⟩)
    (hinit := ?_) (QY := fun c s => s.mem ((c.tc : Thread nD τ).loc main_v82) = a6 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23))
    (hfin := fun c s' => ?_) (hQ := fun _ h => h)
  · refine Pipeline.initEach LH lvH fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V14 m (outsH m) c) s') $$ [Hh HSI]
    · isplitl [Hh] <;> iassumption
    icases Hr with ⟨%h, HSI⟩
    imodintro
    isplitr
    · ipureintro
      exact ⟨((h (Proc.devRef .tc main_v82) (Finset.mem_filter.mpr ⟨StableHlo.devRef_mem_tcRefs main_v82, by decide⟩)).trans (congrFun (V14_eq m c) _)).trans (U14_result m c),
        (h (Proc.devRef .tc main_arg0) (Finset.mem_filter.mpr ⟨StableHlo.devRef_mem_tcRefs main_arg0, by decide⟩)).trans (V14_main_arg0 m (outsH m) c),
        (h (Proc.devRef .tc main_arg1) (Finset.mem_filter.mpr ⟨StableHlo.devRef_mem_tcRefs main_arg1, by decide⟩)).trans (V14_main_arg1 m (outsH m) c),
        (h (Proc.devRef .tc main_arg2) (Finset.mem_filter.mpr ⟨StableHlo.devRef_mem_tcRefs main_arg2, by decide⟩)).trans (V14_main_arg2 m (outsH m) c),
        (h (Proc.devRef .tc main_arg3) (Finset.mem_filter.mpr ⟨StableHlo.devRef_mem_tcRefs main_arg3, by decide⟩)).trans (V14_main_arg3 m (outsH m) c),
        (h (Proc.devRef .tc main_arg4) (Finset.mem_filter.mpr ⟨StableHlo.devRef_mem_tcRefs main_arg4, by decide⟩)).trans (V14_main_arg4 m (outsH m) c),
        (h (Proc.devRef .tc main_arg5) (Finset.mem_filter.mpr ⟨StableHlo.devRef_mem_tcRefs main_arg5, by decide⟩)).trans (V14_main_arg5 m (outsH m) c),
        (h (Proc.devRef .tc main_arg6) (Finset.mem_filter.mpr ⟨StableHlo.devRef_mem_tcRefs main_arg6, by decide⟩)).trans (V14_main_arg6 m (outsH m) c),
        (h (Proc.devRef .tc main_arg7) (Finset.mem_filter.mpr ⟨StableHlo.devRef_mem_tcRefs main_arg7, by decide⟩)).trans (V14_main_arg7 m (outsH m) c),
        (h (Proc.devRef .tc main_arg8) (Finset.mem_filter.mpr ⟨StableHlo.devRef_mem_tcRefs main_arg8, by decide⟩)).trans (V14_main_arg8 m (outsH m) c),
        (h (Proc.devRef .tc main_arg9) (Finset.mem_filter.mpr ⟨StableHlo.devRef_mem_tcRefs main_arg9, by decide⟩)).trans (V14_main_arg9 m (outsH m) c),
        (h (Proc.devRef .tc main_arg10) (Finset.mem_filter.mpr ⟨StableHlo.devRef_mem_tcRefs main_arg10, by decide⟩)).trans (V14_main_arg10 m (outsH m) c),
        (h (Proc.devRef .tc main_arg11) (Finset.mem_filter.mpr ⟨StableHlo.devRef_mem_tcRefs main_arg11, by decide⟩)).trans (V14_main_arg11 m (outsH m) c),
        (h (Proc.devRef .tc main_arg12) (Finset.mem_filter.mpr ⟨StableHlo.devRef_mem_tcRefs main_arg12, by decide⟩)).trans (V14_main_arg12 m (outsH m) c),
        (h (Proc.devRef .tc main_arg13) (Finset.mem_filter.mpr ⟨StableHlo.devRef_mem_tcRefs main_arg13, by decide⟩)).trans (V14_main_arg13 m (outsH m) c),
        (h (Proc.devRef .tc main_arg14) (Finset.mem_filter.mpr ⟨StableHlo.devRef_mem_tcRefs main_arg14, by decide⟩)).trans (V14_main_arg14 m (outsH m) c),
        (h (Proc.devRef .tc main_arg15) (Finset.mem_filter.mpr ⟨StableHlo.devRef_mem_tcRefs main_arg15, by decide⟩)).trans (V14_main_arg15 m (outsH m) c),
        (h (Proc.devRef .tc main_arg16) (Finset.mem_filter.mpr ⟨StableHlo.devRef_mem_tcRefs main_arg16, by decide⟩)).trans (V14_main_arg16 m (outsH m) c),
        (h (Proc.devRef .tc main_arg17) (Finset.mem_filter.mpr ⟨StableHlo.devRef_mem_tcRefs main_arg17, by decide⟩)).trans (V14_main_arg17 m (outsH m) c),
        (h (Proc.devRef .tc main_arg18) (Finset.mem_filter.mpr ⟨StableHlo.devRef_mem_tcRefs main_arg18, by decide⟩)).trans (V14_main_arg18 m (outsH m) c),
        (h (Proc.devRef .tc main_arg19) (Finset.mem_filter.mpr ⟨StableHlo.devRef_mem_tcRefs main_arg19, by decide⟩)).trans (V14_main_arg19 m (outsH m) c),
        (h (Proc.devRef .tc main_arg20) (Finset.mem_filter.mpr ⟨StableHlo.devRef_mem_tcRefs main_arg20, by decide⟩)).trans (V14_main_arg20 m (outsH m) c),
        (h (Proc.devRef .tc main_arg21) (Finset.mem_filter.mpr ⟨StableHlo.devRef_mem_tcRefs main_arg21, by decide⟩)).trans (V14_main_arg21 m (outsH m) c),
        (h (Proc.devRef .tc main_arg22) (Finset.mem_filter.mpr ⟨StableHlo.devRef_mem_tcRefs main_arg22, by decide⟩)).trans (V14_main_arg22 m (outsH m) c),
        (h (Proc.devRef .tc main_arg23) (Finset.mem_filter.mpr ⟨StableHlo.devRef_mem_tcRefs main_arg23, by decide⟩)).trans (V14_main_arg23 m (outsH m) c)⟩
    · iexact HSI

end Cert.KernelIdeal.Hand

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibFoldCut.lean ====
/-
  Reading a long straight line of host operations back when it concatenates.

  * The contents after a list of operations are the contents after its tail, taken from the contents after its first `n`
    operations (`after_cut`), for any `n`: a line is cut where the reading needs it, without restating the list
    (`List.take` / `List.drop` of a literal list compute to literal lists by `List.take_succ_cons`, `List.take_zero`,
    `List.drop_succ_cons`, `List.drop_zero`).
  * Why one cuts at a concatenation: the operands of a `concatenate` sit in a list of (shape, array) pairs, and the proof
    that the pieces fit the result depends on that list, so a read-back by rewriting does not rewrite under it. What is left
    there is the fold through the operations BEFORE the concatenation. Closing that by computation is cheap when the
    concatenation is among the first operations of the piece being read and out of reach when dozens precede it; and a
    read-back that meets a concatenation below other operations can exhaust the recursion depth outright. So: cut the line
    right after its concatenations, name their results, and read the rest of the line with those buffers as inputs.
-/
import proofs.«134920_j90091234001037_2_alg».proof.Proof.LibTypedRefs

noncomputable section

namespace Idealize.ShloMosaic.StableHlo

variable {τ : Topo} {sig : RefSig} {Val : EltTy → Type}

/-- A fold over a list is the fold over its tail from the fold over its first `n` operations. -/
theorem after_cut (n : Nat) (l : List (HloOp τ sig Val)) (V : Valuation τ sig Val) :
    after l V = after (l.drop n) (after (l.take n) V) := by
  rw [← after_append, List.take_append_drop]

end Idealize.ShloMosaic.StableHlo

end
-- ==== Proof.KI.Entry.lean ====
/-
  What each launch finds in its arrays on entry, read off the host operations that run before it.

  Between two launches the host runs a straight line of array operations. An argument array is never written, so every
  launch finds it as the program was given it. A bias vector reaches its launch as a one-row matrix. The aggregated
  array each dense launch reads is a scatter-add, by the destination node of every edge, of the previous launch's output
  (the first time) or of the rows gathered from it by source node; the head's input is the per-graph mean of the last
  dense output. Each of these is, operation for operation, the same expression the reference program computes, so it is
  stated against the reference's own staged values, given that the previous launch's output is the reference's.
-/
import proofs.«134920_j90091234001037_2_alg».proof.Proof.KI.Chain
import proofs.«134920_j90091234001037_2_alg».proof.Proof.Gen.KernelIdeal.Regions
import proofs.«134920_j90091234001037_2_alg».proof.Proof.LibFoldCut
import proofs.«134920_j90091234001037_2_alg».proof.Proof.RefRead
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-! ## Buffers that ride through -/

theorem U1_keep (r : Ref sig .tc) (h : r ∉ hostOps0_W) : U1 m c r = m ((c : Thread nD τ).loc r) := by
  have e := V1_of m c r h
  rw [V1_eq] at e
  exact e

theorem U3_keep (r : Ref sig .tc) (h : r ∉ hostOps1_W) : U3 m c r = U2 m c r := by
  have e := V3_of m (outsH m) c r h
  rw [V3_eq, V2_eq] at e
  exact e

theorem U5_keep (r : Ref sig .tc) (h : r ∉ hostOps2_W) : U5 m c r = U4 m c r := by
  have e := V5_of m (outsH m) c r h
  rw [V5_eq, V4_eq] at e
  exact e

theorem U7_keep (r : Ref sig .tc) (h : r ∉ hostOps3_W) : U7 m c r = U6 m c r := by
  have e := V7_of m (outsH m) c r h
  rw [V7_eq, V6_eq] at e
  exact e

theorem U9_keep (r : Ref sig .tc) (h : r ∉ hostOps4_W) : U9 m c r = U8 m c r := by
  have e := V9_of m (outsH m) c r h
  rw [V9_eq, V8_eq] at e
  exact e

theorem U11_keep (r : Ref sig .tc) (h : r ∉ hostOps5_W) : U11 m c r = U10 m c r := by
  have e := V11_of m (outsH m) c r h
  rw [V11_eq, V10_eq] at e
  exact e

theorem U13_keep (r : Ref sig .tc) (h : r ∉ hostOps6_W) : U13 m c r = U12 m c r := by
  have e := V13_of m (outsH m) c r h
  rw [V13_eq, V12_eq] at e
  exact e

/-! ## Launch 0: the edge transform's arrays -/

theorem ent0_ea : U1 m c main_arg3 = (m ((c : Thread nD τ).loc main_arg3)) := U1_keep m c main_arg3 (by decide)
theorem ent0_w : U1 m c main_arg9 = (m ((c : Thread nD τ).loc main_arg9)) := U1_keep m c main_arg9 (by decide)

theorem ent0_b (q : Fin 64) : U1 m c main_v4 (ix2 (0 : Fin 1) q) = (m ((c : Thread nD τ).loc main_arg10)) (ix1 q) := by
  have e : (U1 m c main_v4 : S1x64.Idx → Elt Ideal .f32)
      = shapeCast S1x64 ((m ((c : Thread nD τ).loc main_arg10)) : S64.Idx → Elt Ideal .f32) shapeCasts_S64_S1x64 := by
    rw [U1_def]; after_results; rfl
  rw [e]
  exact shapeCast_a_1a_apply _ _ 0 q

/-- The destination and source node rows of the edge list, as the reference reads them off the same argument. -/
theorem U1_v3 : U1 m c main_v3 = Cert.ReferenceIdeal.Read.val_main_v3 (F := Ideal) (m ((c : Thread nD τ).loc main_arg21)) := by
  rw [U1_def]; after_results; rfl
theorem U1_v1 : U1 m c main_v1 = Cert.ReferenceIdeal.Read.val_main_v1 (F := Ideal) (m ((c : Thread nD τ).loc main_arg21)) := by
  rw [U1_def]; after_results; rfl

/-! ## Launch 1: the first dense layer's arrays -/

theorem U2_v3 : U2 m c main_v3 = Cert.ReferenceIdeal.Read.val_main_v3 (F := Ideal) (m ((c : Thread nD τ).loc main_arg21)) :=
  (U2_of_ne m c main_v3 (by decide)).trans (U1_v3 m c)
theorem U2_v1 : U2 m c main_v1 = Cert.ReferenceIdeal.Read.val_main_v1 (F := Ideal) (m ((c : Thread nD τ).loc main_arg21)) :=
  (U2_of_ne m c main_v1 (by decide)).trans (U1_v1 m c)

/-- The aggregated array of the first layer: the edge transform's output scatter-added by destination node. -/
theorem ent1_agg (h0 : a0 m c = Cert.ReferenceIdeal.Read.val_main_v12 (F := Ideal) (m ((c : Thread nD τ).loc main_arg3)) (m ((c : Thread nD τ).loc main_arg9)) (m ((c : Thread nD τ).loc main_arg10))) :
    U3 m c main_v8 = Cert.ReferenceIdeal.Read.val_main_v15 (F := Ideal) (m ((c : Thread nD τ).loc main_arg3)) (m ((c : Thread nD τ).loc main_arg9)) (m ((c : Thread nD τ).loc main_arg10)) (m ((c : Thread nD τ).loc main_arg21)) := by
  rw [U3_def]
  after_results
  rw [U2_out, U2_v3, h0]
  rfl

theorem ent1_w : U3 m c main_arg7 = (m ((c : Thread nD τ).loc main_arg7)) := (U3_keep m c main_arg7 (by decide)).trans <| (U2_of_ne m c main_arg7 (by decide)).trans <| (U1_keep m c main_arg7 (by decide))

theorem ent1_b (q : Fin 64) : U3 m c main_v22 (ix2 (0 : Fin 1) q) = (m ((c : Thread nD τ).loc main_arg8)) (ix1 q) := by
  have e : (U3 m c main_v22 : S1x64.Idx → Elt Ideal .f32)
      = shapeCast S1x64 ((m ((c : Thread nD τ).loc main_arg8)) : S64.Idx → Elt Ideal .f32) shapeCasts_S64_S1x64 := by
    rw [U3_def]; after_results
    rw [show U2 m c main_arg8 = (m ((c : Thread nD τ).loc main_arg8)) from (U2_of_ne m c main_arg8 (by decide)).trans <| (U1_keep m c main_arg8 (by decide))]
    rfl
  rw [e]
  exact shapeCast_a_1a_apply _ _ 0 q

/-- The buffers after the first sixteen operations of the stretch before launch 1: everything up to the joining of
    the three node kinds' maps. -/
def X1 : Valuation τ sig (Elt Ideal) := after (List.take 16 hostOps1) (U2 m c)

set_option maxHeartbeats 1000000 in
theorem X1_v12 : X1 m c main_v12 = Cert.ReferenceIdeal.Read.val_main_v23 (F := Ideal) (m ((c : Thread nD τ).loc main_arg0)) (m ((c : Thread nD τ).loc main_arg11)) (m ((c : Thread nD τ).loc main_arg12)) := by
  unfold X1
  simp only [List.take_succ_cons, List.take_zero]
  after_results
  rw [show U2 m c main_arg0 = (m ((c : Thread nD τ).loc main_arg0)) from (U2_of_ne m c main_arg0 (by decide)).trans <| (U1_keep m c main_arg0 (by decide)),
    show U2 m c main_arg11 = (m ((c : Thread nD τ).loc main_arg11)) from (U2_of_ne m c main_arg11 (by decide)).trans <| (U1_keep m c main_arg11 (by decide)),
    show U2 m c main_arg12 = (m ((c : Thread nD τ).loc main_arg12)) from (U2_of_ne m c main_arg12 (by decide)).trans <| (U1_keep m c main_arg12 (by decide))]
  rfl

set_option maxHeartbeats 1000000 in
theorem X1_v16 : X1 m c main_v16 = Cert.ReferenceIdeal.Read.val_main_v27 (F := Ideal) (m ((c : Thread nD τ).loc main_arg1)) (m ((c : Thread nD τ).loc main_arg13)) (m ((c : Thread nD τ).loc main_arg14)) := by
  unfold X1
  simp only [List.take_succ_cons, List.take_zero]
  after_results
  rw [show U2 m c main_arg1 = (m ((c : Thread nD τ).loc main_arg1)) from (U2_of_ne m c main_arg1 (by decide)).trans <| (U1_keep m c main_arg1 (by decide)),
    show U2 m c main_arg13 = (m ((c : Thread nD τ).loc main_arg13)) from (U2_of_ne m c main_arg13 (by decide)).trans <| (U1_keep m c main_arg13 (by decide)),
    show U2 m c main_arg14 = (m ((c : Thread nD τ).loc main_arg14)) from (U2_of_ne m c main_arg14 (by decide)).trans <| (U1_keep m c main_arg14 (by decide))]
  rfl

set_option maxHeartbeats 1000000 in
theorem X1_v20 : X1 m c main_v20 = Cert.ReferenceIdeal.Read.val_main_v31 (F := Ideal) (m ((c : Thread nD τ).loc main_arg2)) (m ((c : Thread nD τ).loc main_arg15)) (m ((c : Thread nD τ).loc main_arg16)) := by
  unfold X1
  simp only [List.take_succ_cons, List.take_zero]
  after_results
  rw [show U2 m c main_arg2 = (m ((c : Thread nD τ).loc main_arg2)) from (U2_of_ne m c main_arg2 (by decide)).trans <| (U1_keep m c main_arg2 (by decide)),
    show U2 m c main_arg15 = (m ((c : Thread nD τ).loc main_arg15)) from (U2_of_ne m c main_arg15 (by decide)).trans <| (U1_keep m c main_arg15 (by decide)),
    show U2 m c main_arg16 = (m ((c : Thread nD τ).loc main_arg16)) from (U2_of_ne m c main_arg16 (by decide)).trans <| (U1_keep m c main_arg16 (by decide))]
  rfl

/-- Joining three arrays along the rows respects equality of the pieces. -/
theorem concat3_congr (u0 u0' : Vec Ideal S20000x64 .f32) (u1 u1' u2 u2' : Vec Ideal S40000x64 .f32)
    (h0 : u0 = u0') (h1 : u1 = u1') (h2 : u2 = u2') :
    concatenate S100000x64 0 [⟨S20000x64, u0⟩, ⟨S40000x64, u1⟩, ⟨S40000x64, u2⟩] concatenates_S20000x64_S40000x64_S40000x64_S100000x64_d0
      = concatenate S100000x64 0 [⟨S20000x64, u0'⟩, ⟨S40000x64, u1'⟩, ⟨S40000x64, u2'⟩] concatenates_S20000x64_S40000x64_S40000x64_S100000x64_d0 := by
  subst h0 h1 h2; rfl

/-- The additive array of the first layer: the three node kinds' input maps, one after the other. -/
theorem ent1_add : U3 m c main_v21 = Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [U3_def, after_cut 16 hostOps1]
  show after (List.drop 16 hostOps1) (X1 m c) main_v21 = _
  simp only [List.drop_succ_cons, List.drop_zero]
  after_results
  exact (concat3_congr _ _ _ _ _ _ (X1_v12 m c) (X1_v16 m c) (X1_v20 m c)).trans rfl

/-! ## The edge list's node rows ride through every later item -/

theorem U3_v1 : U3 m c main_v1 = Cert.ReferenceIdeal.Read.val_main_v1 (F := Ideal) (m ((c : Thread nD τ).loc main_arg21)) :=
  (U3_keep m c main_v1 (by decide)).trans (U2_v1 m c)
theorem U4_v1 : U4 m c main_v1 = Cert.ReferenceIdeal.Read.val_main_v1 (F := Ideal) (m ((c : Thread nD τ).loc main_arg21)) :=
  (U4_of_ne m c main_v1 (by decide)).trans (U3_v1 m c)
theorem U5_v1 : U5 m c main_v1 = Cert.ReferenceIdeal.Read.val_main_v1 (F := Ideal) (m ((c : Thread nD τ).loc main_arg21)) :=
  (U5_keep m c main_v1 (by decide)).trans (U4_v1 m c)
theorem U6_v1 : U6 m c main_v1 = Cert.ReferenceIdeal.Read.val_main_v1 (F := Ideal) (m ((c : Thread nD τ).loc main_arg21)) :=
  (U6_of_ne m c main_v1 (by decide)).trans (U5_v1 m c)
theorem U7_v1 : U7 m c main_v1 = Cert.ReferenceIdeal.Read.val_main_v1 (F := Ideal) (m ((c : Thread nD τ).loc main_arg21)) :=
  (U7_keep m c main_v1 (by decide)).trans (U6_v1 m c)
theorem U8_v1 : U8 m c main_v1 = Cert.ReferenceIdeal.Read.val_main_v1 (F := Ideal) (m ((c : Thread nD τ).loc main_arg21)) :=
  (U8_of_ne m c main_v1 (by decide)).trans (U7_v1 m c)
theorem U9_v1 : U9 m c main_v1 = Cert.ReferenceIdeal.Read.val_main_v1 (F := Ideal) (m ((c : Thread nD τ).loc main_arg21)) :=
  (U9_keep m c main_v1 (by decide)).trans (U8_v1 m c)
theorem U10_v1 : U10 m c main_v1 = Cert.ReferenceIdeal.Read.val_main_v1 (F := Ideal) (m ((c : Thread nD τ).loc main_arg21)) :=
  (U10_of_ne m c main_v1 (by decide)).trans (U9_v1 m c)
theorem U11_v1 : U11 m c main_v1 = Cert.ReferenceIdeal.Read.val_main_v1 (F := Ideal) (m ((c : Thread nD τ).loc main_arg21)) :=
  (U11_keep m c main_v1 (by decide)).trans (U10_v1 m c)
theorem U12_v1 : U12 m c main_v1 = Cert.ReferenceIdeal.Read.val_main_v1 (F := Ideal) (m ((c : Thread nD τ).loc main_arg21)) :=
  (U12_of_ne m c main_v1 (by decide)).trans (U11_v1 m c)
theorem U3_v3 : U3 m c main_v3 = Cert.ReferenceIdeal.Read.val_main_v3 (F := Ideal) (m ((c : Thread nD τ).loc main_arg21)) :=
  (U3_keep m c main_v3 (by decide)).trans (U2_v3 m c)
theorem U4_v3 : U4 m c main_v3 = Cert.ReferenceIdeal.Read.val_main_v3 (F := Ideal) (m ((c : Thread nD τ).loc main_arg21)) :=
  (U4_of_ne m c main_v3 (by decide)).trans (U3_v3 m c)
theorem U5_v3 : U5 m c main_v3 = Cert.ReferenceIdeal.Read.val_main_v3 (F := Ideal) (m ((c : Thread nD τ).loc main_arg21)) :=
  (U5_keep m c main_v3 (by decide)).trans (U4_v3 m c)
theorem U6_v3 : U6 m c main_v3 = Cert.ReferenceIdeal.Read.val_main_v3 (F := Ideal) (m ((c : Thread nD τ).loc main_arg21)) :=
  (U6_of_ne m c main_v3 (by decide)).trans (U5_v3 m c)
theorem U7_v3 : U7 m c main_v3 = Cert.ReferenceIdeal.Read.val_main_v3 (F := Ideal) (m ((c : Thread nD τ).loc main_arg21)) :=
  (U7_keep m c main_v3 (by decide)).trans (U6_v3 m c)
theorem U8_v3 : U8 m c main_v3 = Cert.ReferenceIdeal.Read.val_main_v3 (F := Ideal) (m ((c : Thread nD τ).loc main_arg21)) :=
  (U8_of_ne m c main_v3 (by decide)).trans (U7_v3 m c)
theorem U9_v3 : U9 m c main_v3 = Cert.ReferenceIdeal.Read.val_main_v3 (F := Ideal) (m ((c : Thread nD τ).loc main_arg21)) :=
  (U9_keep m c main_v3 (by decide)).trans (U8_v3 m c)
theorem U10_v3 : U10 m c main_v3 = Cert.ReferenceIdeal.Read.val_main_v3 (F := Ideal) (m ((c : Thread nD τ).loc main_arg21)) :=
  (U10_of_ne m c main_v3 (by decide)).trans (U9_v3 m c)
theorem U11_v3 : U11 m c main_v3 = Cert.ReferenceIdeal.Read.val_main_v3 (F := Ideal) (m ((c : Thread nD τ).loc main_arg21)) :=
  (U11_keep m c main_v3 (by decide)).trans (U10_v3 m c)
theorem U12_v3 : U12 m c main_v3 = Cert.ReferenceIdeal.Read.val_main_v3 (F := Ideal) (m ((c : Thread nD τ).loc main_arg21)) :=
  (U12_of_ne m c main_v3 (by decide)).trans (U11_v3 m c)

/-! ## Launch 2: the first rectified dense layer's arrays -/

set_option maxHeartbeats 1000000 in
/-- The aggregated array: the rows of the node features gathered by source node, scatter-added by destination node. -/
theorem ent2_agg : U5 m c main_v34 = Cert.ReferenceIdeal.Read.val_main_v42 (F := Ideal) (m ((c : Thread nD τ).loc main_arg4)) (m ((c : Thread nD τ).loc main_arg21)) := by
  rw [U5_def]
  after_results_simp
  rw [U4_v1, U4_v3, show U4 m c main_arg4 = (m ((c : Thread nD τ).loc main_arg4)) from (U4_of_ne m c main_arg4 (by decide)).trans <| (U3_keep m c main_arg4 (by decide)).trans <| (U2_of_ne m c main_arg4 (by decide)).trans <| (U1_keep m c main_arg4 (by decide))]
  rfl

theorem ent2_w : U5 m c main_arg5 = (m ((c : Thread nD τ).loc main_arg5)) := (U5_keep m c main_arg5 (by decide)).trans <| (U4_of_ne m c main_arg5 (by decide)).trans <| (U3_keep m c main_arg5 (by decide)).trans <| (U2_of_ne m c main_arg5 (by decide)).trans <| (U1_keep m c main_arg5 (by decide))

theorem ent2_b (q : Fin 64) : U5 m c main_v24 (ix2 (0 : Fin 1) q) = (m ((c : Thread nD τ).loc main_arg6)) (ix1 q) := by
  have e : (U5 m c main_v24 : S1x64.Idx → Elt Ideal .f32)
      = shapeCast S1x64 ((m ((c : Thread nD τ).loc main_arg6)) : S64.Idx → Elt Ideal .f32) shapeCasts_S64_S1x64 := by
    rw [U5_def]; after_results
    rw [show U4 m c main_arg6 = (m ((c : Thread nD τ).loc main_arg6)) from (U4_of_ne m c main_arg6 (by decide)).trans <| (U3_keep m c main_arg6 (by decide)).trans <| (U2_of_ne m c main_arg6 (by decide)).trans <| (U1_keep m c main_arg6 (by decide))]
    rfl
  rw [e]
  exact shapeCast_a_1a_apply _ _ 0 q

theorem ent2_add : U5 m c main_v23 = a1 m c := (U5_keep m c main_v23 (by decide)).trans (U4_out m c)

/-! ## Launch 3: a rectified dense layer's arrays -/

set_option maxHeartbeats 1000000 in
/-- The aggregated array: the rows of the previous layer's output gathered by source node, scatter-added by
    destination node. -/
theorem ent3_agg (h2 : a2 m c = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21))) :
    U7 m c main_v45 = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  rw [U7_def]
  after_results_simp
  rw [U6_out, U6_v1, U6_v3, h2]
  rfl

theorem ent3_w : U7 m c main_arg5 = (m ((c : Thread nD τ).loc main_arg5)) := (U7_keep m c main_arg5 (by decide)).trans <| (U6_of_ne m c main_arg5 (by decide)).trans <| (U5_keep m c main_arg5 (by decide)).trans <| (U4_of_ne m c main_arg5 (by decide)).trans <| (U3_keep m c main_arg5 (by decide)).trans <| (U2_of_ne m c main_arg5 (by decide)).trans <| (U1_keep m c main_arg5 (by decide))

theorem ent3_b (q : Fin 64) : U7 m c main_v24 (ix2 (0 : Fin 1) q) = (m ((c : Thread nD τ).loc main_arg6)) (ix1 q) := by
  rw [show U7 m c main_v24 = U5 m c main_v24 from (U7_keep m c main_v24 (by decide)).trans (U6_of_ne m c main_v24 (by decide))]
  exact ent2_b m c q

theorem ent3_add : U7 m c main_v23 = a1 m c :=
  (U7_keep m c main_v23 (by decide)).trans <| (U6_of_ne m c main_v23 (by decide)).trans <| ent2_add m c

/-! ## Launch 4: a rectified dense layer's arrays -/

set_option maxHeartbeats 1000000 in
/-- The aggregated array: the rows of the previous layer's output gathered by source node, scatter-added by
    destination node. -/
theorem ent4_agg (h3 : a3 m c = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21))) :
    U9 m c main_v56 = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  rw [U9_def]
  after_results_simp
  rw [U8_out, U8_v1, U8_v3, h3]
  rfl

theorem ent4_w : U9 m c main_arg5 = (m ((c : Thread nD τ).loc main_arg5)) := (U9_keep m c main_arg5 (by decide)).trans <| (U8_of_ne m c main_arg5 (by decide)).trans <| (U7_keep m c main_arg5 (by decide)).trans <| (U6_of_ne m c main_arg5 (by decide)).trans <| (U5_keep m c main_arg5 (by decide)).trans <| (U4_of_ne m c main_arg5 (by decide)).trans <| (U3_keep m c main_arg5 (by decide)).trans <| (U2_of_ne m c main_arg5 (by decide)).trans <| (U1_keep m c main_arg5 (by decide))

theorem ent4_b (q : Fin 64) : U9 m c main_v24 (ix2 (0 : Fin 1) q) = (m ((c : Thread nD τ).loc main_arg6)) (ix1 q) := by
  rw [show U9 m c main_v24 = U7 m c main_v24 from (U9_keep m c main_v24 (by decide)).trans (U8_of_ne m c main_v24 (by decide))]
  exact ent3_b m c q

theorem ent4_add : U9 m c main_v23 = a1 m c :=
  (U9_keep m c main_v23 (by decide)).trans <| (U8_of_ne m c main_v23 (by decide)).trans <| ent3_add m c

/-! ## Launch 5: a rectified dense layer's arrays -/

set_option maxHeartbeats 1000000 in
/-- The aggregated array: the rows of the previous layer's output gathered by source node, scatter-added by
    destination node. -/
theorem ent5_agg (h4 : a4 m c = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21))) :
    U11 m c main_v67 = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  rw [U11_def]
  after_results_simp
  rw [U10_out, U10_v1, U10_v3, h4]
  rfl

theorem ent5_w : U11 m c main_arg5 = (m ((c : Thread nD τ).loc main_arg5)) := (U11_keep m c main_arg5 (by decide)).trans <| (U10_of_ne m c main_arg5 (by decide)).trans <| (U9_keep m c main_arg5 (by decide)).trans <| (U8_of_ne m c main_arg5 (by decide)).trans <| (U7_keep m c main_arg5 (by decide)).trans <| (U6_of_ne m c main_arg5 (by decide)).trans <| (U5_keep m c main_arg5 (by decide)).trans <| (U4_of_ne m c main_arg5 (by decide)).trans <| (U3_keep m c main_arg5 (by decide)).trans <| (U2_of_ne m c main_arg5 (by decide)).trans <| (U1_keep m c main_arg5 (by decide))

theorem ent5_b (q : Fin 64) : U11 m c main_v24 (ix2 (0 : Fin 1) q) = (m ((c : Thread nD τ).loc main_arg6)) (ix1 q) := by
  rw [show U11 m c main_v24 = U9 m c main_v24 from (U11_keep m c main_v24 (by decide)).trans (U10_of_ne m c main_v24 (by decide))]
  exact ent4_b m c q

theorem ent5_add : U11 m c main_v23 = a1 m c :=
  (U11_keep m c main_v23 (by decide)).trans <| (U10_of_ne m c main_v23 (by decide)).trans <| ent4_add m c

/-! ## Launch 6: the classifier head's arrays -/

set_option maxHeartbeats 1000000 in
/-- The pooled features: the last layer's output summed per graph, over the per-graph node count (at least one). -/
theorem ent6_ge (h5 : a5 m c = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21))) :
    U13 m c main_v79 = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg23)) := by
  rw [U13_def]
  after_results_simp
  rw [U12_out, show U12 m c main_arg23 = (m ((c : Thread nD τ).loc main_arg23)) from (U12_of_ne m c main_arg23 (by decide)).trans <| (U11_keep m c main_arg23 (by decide)).trans <| (U10_of_ne m c main_arg23 (by decide)).trans <| (U9_keep m c main_arg23 (by decide)).trans <| (U8_of_ne m c main_arg23 (by decide)).trans <| (U7_keep m c main_arg23 (by decide)).trans <| (U6_of_ne m c main_arg23 (by decide)).trans <| (U5_keep m c main_arg23 (by decide)).trans <| (U4_of_ne m c main_arg23 (by decide)).trans <| (U3_keep m c main_arg23 (by decide)).trans <| (U2_of_ne m c main_arg23 (by decide)).trans <| (U1_keep m c main_arg23 (by decide)), h5]
  rfl

theorem ent6_w1 : U13 m c main_arg17 = (m ((c : Thread nD τ).loc main_arg17)) := (U13_keep m c main_arg17 (by decide)).trans <| (U12_of_ne m c main_arg17 (by decide)).trans <| (U11_keep m c main_arg17 (by decide)).trans <| (U10_of_ne m c main_arg17 (by decide)).trans <| (U9_keep m c main_arg17 (by decide)).trans <| (U8_of_ne m c main_arg17 (by decide)).trans <| (U7_keep m c main_arg17 (by decide)).trans <| (U6_of_ne m c main_arg17 (by decide)).trans <| (U5_keep m c main_arg17 (by decide)).trans <| (U4_of_ne m c main_arg17 (by decide)).trans <| (U3_keep m c main_arg17 (by decide)).trans <| (U2_of_ne m c main_arg17 (by decide)).trans <| (U1_keep m c main_arg17 (by decide))

theorem ent6_b1 (k : Fin 64) : U13 m c main_v80 (ix2 (0 : Fin 1) k) = (m ((c : Thread nD τ).loc main_arg18)) (ix1 k) := by
  have e : (U13 m c main_v80 : S1x64.Idx → Elt Ideal .f32)
      = shapeCast S1x64 ((m ((c : Thread nD τ).loc main_arg18)) : S64.Idx → Elt Ideal .f32) shapeCasts_S64_S1x64 := by
    rw [U13_def]; after_results
    rw [show U12 m c main_arg18 = (m ((c : Thread nD τ).loc main_arg18)) from (U12_of_ne m c main_arg18 (by decide)).trans <| (U11_keep m c main_arg18 (by decide)).trans <| (U10_of_ne m c main_arg18 (by decide)).trans <| (U9_keep m c main_arg18 (by decide)).trans <| (U8_of_ne m c main_arg18 (by decide)).trans <| (U7_keep m c main_arg18 (by decide)).trans <| (U6_of_ne m c main_arg18 (by decide)).trans <| (U5_keep m c main_arg18 (by decide)).trans <| (U4_of_ne m c main_arg18 (by decide)).trans <| (U3_keep m c main_arg18 (by decide)).trans <| (U2_of_ne m c main_arg18 (by decide)).trans <| (U1_keep m c main_arg18 (by decide))]
    rfl
  rw [e]
  exact shapeCast_a_1a_apply _ _ 0 k

theorem ent6_w2 : U13 m c main_arg19 = (m ((c : Thread nD τ).loc main_arg19)) := (U13_keep m c main_arg19 (by decide)).trans <| (U12_of_ne m c main_arg19 (by decide)).trans <| (U11_keep m c main_arg19 (by decide)).trans <| (U10_of_ne m c main_arg19 (by decide)).trans <| (U9_keep m c main_arg19 (by decide)).trans <| (U8_of_ne m c main_arg19 (by decide)).trans <| (U7_keep m c main_arg19 (by decide)).trans <| (U6_of_ne m c main_arg19 (by decide)).trans <| (U5_keep m c main_arg19 (by decide)).trans <| (U4_of_ne m c main_arg19 (by decide)).trans <| (U3_keep m c main_arg19 (by decide)).trans <| (U2_of_ne m c main_arg19 (by decide)).trans <| (U1_keep m c main_arg19 (by decide))

theorem ent6_b2 : U13 m c main_v81 (ix2 (0 : Fin 1) (0 : Fin 1)) = (m ((c : Thread nD τ).loc main_arg20)) (ix1 (0 : Fin 1)) := by
  have e : (U13 m c main_v81 : S1x1.Idx → Elt Ideal .f32)
      = shapeCast S1x1 ((m ((c : Thread nD τ).loc main_arg20)) : S1.Idx → Elt Ideal .f32) shapeCasts_S1_S1x1 := by
    rw [U13_def]; after_results
    rw [show U12 m c main_arg20 = (m ((c : Thread nD τ).loc main_arg20)) from (U12_of_ne m c main_arg20 (by decide)).trans <| (U11_keep m c main_arg20 (by decide)).trans <| (U10_of_ne m c main_arg20 (by decide)).trans <| (U9_keep m c main_arg20 (by decide)).trans <| (U8_of_ne m c main_arg20 (by decide)).trans <| (U7_keep m c main_arg20 (by decide)).trans <| (U6_of_ne m c main_arg20 (by decide)).trans <| (U5_keep m c main_arg20 (by decide)).trans <| (U4_of_ne m c main_arg20 (by decide)).trans <| (U3_keep m c main_arg20 (by decide)).trans <| (U2_of_ne m c main_arg20 (by decide)).trans <| (U1_keep m c main_arg20 (by decide))]
    rfl
  rw [e]
  exact shapeCast_a_1a_apply _ _ 0 0

end Cert.KernelIdeal.Hand

end
-- ==== Proof.Spec.lean ====
/-
  The scalar pieces both programs are written over, on the extended reals.

  Every dense layer of the network is an affine map of a row followed (in the message-passing rounds and the edge
  transform) by the leaky rectifier `x ↦ x` for `0 ≤ x`, `slope · x` below zero, where `slope` is the one
  32-bit float literal (the float nearest 0.01) that both programs carry. It is kept as the literal's own value:
  the two sides hold the same word, so it is never evaluated.
-/
import Idealize.ShloMosaic.PureOps.Ideal
import Idealize.ShloMosaic.Lib.ValueIdx

noncomputable section

namespace Cert.Spec

open Idealize.ShloMosaic

/-- The rectifier's slope below zero: the shared 32-bit literal read as an extended real. -/
def slope : EReal := (FloatOps.ofBits (F := Ideal) .f32 0x3C23D70A#32 : Ideal .f32)

/-- The leaky rectifier on the extended reals. -/
def leaky (x : EReal) : EReal := if (0 : EReal) ≤ x then x else slope * x

end Cert.Spec

end
-- ==== Proof.Payloads.lean ====
/-
  The idealized kernel bodies' arithmetic, read at one index of what each body stores.

  Every body is a composition of pointwise operations, row and column broadcasts, and matrix products into a zero
  accumulator. At the extended reals a change of format is the identity, a product into zero is the plain sum over the
  shared axis, and the comparison-and-select pair each rectifying body ends with is the leaky rectifier of the
  specification. So each stored element is a closed expression in the loaded operands:
  the edge transform is the rectifier of an outer product plus a bias row; a dense layer is a row-by-column sum plus
  a bias row plus the residual element (rectified in four of the five layers); the classifier head is the logistic
  function of a second row-by-column sum over the first layer's affine output, plus a scalar bias.
-/
import proofs.«134920_j90091234001037_2_alg».proof.Proof.Gen.KernelIdeal.Skeleton
import proofs.«134920_j90091234001037_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## One column broadcast over many -/

/-- An `[a, 1]` column broadcast to `[a, b]` reads, at `(p, c)`, the column's element at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The rectifier as the bodies write it -/

/-- On one element, "select `x` where `x ≥ 0`, else the slope literal times `x`" is the specification's leaky
    rectifier: the zero word denotes `0`, and the slope word is the specification's slope itself. -/
theorem leaky_select (x : Ideal .f32) :
    Scalar.select (FloatOps.cmpf (F := Ideal) .oge x (FloatOps.ofBits (F := Ideal) .f32 0x00000000#32)) x
        (FloatOps.mulf (F := Ideal) (FloatOps.ofBits (F := Ideal) .f32 0x3C23D70A#32) x) = Spec.leaky x := by
  have hc : FloatOps.cmpf (F := Ideal) .oge x (FloatOps.ofBits (F := Ideal) .f32 0x00000000#32) = 1 ↔ (0 : EReal) ≤ x := by
    show Ideal.cmp .oge x (Ideal.ofBits .f32 0x00000000#32) = 1 ↔ _
    rw [Ideal.ofBits_zero_f32]
    unfold Ideal.cmp
    by_cases h : (0 : EReal) ≤ x <;> simp [h]
  unfold Spec.leaky Scalar.select
  by_cases h : (0 : EReal) ≤ x
  · rw [if_pos h, if_pos (hc.mpr h)]
  · rw [if_neg h, if_neg (fun h' => h (hc.mp h'))]
    rfl

/-! ## The matrix products -/

/-! ### The product `[5000, 64] · [64, 64]` of the dense layers -/

theorem lhs5000_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs5000_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs5000_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs5000_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into the zero accumulator the product reads, at `(p, q)`, the sum over the shared axis of the left operand's row `p`
    times the right operand's column `q`. -/
theorem matmul5000_at (a : FVec Ideal S5000x64 .bf16) (b : FVec Ideal S64x64 .bf16) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs5000_0 _ _
    | ⟨1, _⟩ => exact (lhs5000_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs5000_0 _ _).trans hk
    | ⟨1, _⟩ => exact rhs5000_1 _ _)
  rw [el, er]

/-! ### The product `[1024, 64] · [64, 64]` of the head's first layer -/

theorem lhs1024_0 (i : S1024x64.Idx) (c : dot_S1024x64_S64x64_S1024x64_1_0_0_1_n_n.contr.Idx) :
    (dot_S1024x64_S64x64_S1024x64_1_0_0_1_n_n.lhsIdx i c 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs1024_1 (i : S1024x64.Idx) (c : dot_S1024x64_S64x64_S1024x64_1_0_0_1_n_n.contr.Idx) :
    (dot_S1024x64_S64x64_S1024x64_1_0_0_1_n_n.lhsIdx i c 1).val = (c ⟨0, by decide⟩).val :=
  dot_S1024x64_S64x64_S1024x64_1_0_0_1_n_n.lhsIdx_val_of_single rfl i c
theorem rhs1024_0 (i : S1024x64.Idx) (c : dot_S1024x64_S64x64_S1024x64_1_0_0_1_n_n.contr.Idx) :
    (dot_S1024x64_S64x64_S1024x64_1_0_0_1_n_n.rhsIdx i c 0).val = (c ⟨0, by decide⟩).val :=
  dot_S1024x64_S64x64_S1024x64_1_0_0_1_n_n.rhsIdx_val_of_single rfl i c
theorem rhs1024_1 (i : S1024x64.Idx) (c : dot_S1024x64_S64x64_S1024x64_1_0_0_1_n_n.contr.Idx) :
    (dot_S1024x64_S64x64_S1024x64_1_0_0_1_n_n.rhsIdx i c 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- Into the zero accumulator the product reads, at `(p, q)`, the sum over the shared axis of the left operand's row `p`
    times the right operand's column `q`. -/
theorem matmul1024_at (a : FVec Ideal S1024x64 .bf16) (b : FVec Ideal S64x64 .bf16) (p : Fin 1024) (q : Fin 64) :
    matmul (F := Ideal) dot_S1024x64_S64x64_S1024x64_1_0_0_1_n_n none a b (constant (F := Ideal) S1024x64 .f32 0x00000000#32) (ix2 p q)
      = ∑ k : Fin 64, a (ix2 p k) * b (ix2 k q) := by
  refine (Ideal.matmul_constant_zero_apply dot_S1024x64_S64x64_S1024x64_1_0_0_1_n_n none a b (ix2 p q)).trans ?_
  rw [← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p q) ((contrEquiv1 dot_S1024x64_S64x64_S1024x64_1_0_0_1_n_n 64 rfl rfl).symm k) = ix2 p k := funext fun ax => Fin.ext (by
    match ax with
    | ⟨0, _⟩ => exact lhs1024_0 _ _
    | ⟨1, _⟩ => exact (lhs1024_1 _ _).trans hk)
  have er : dot_S1024x64_S64x64_S1024x64_1_0_0_1_n_n.rhsIdx (ix2 p q) ((contrEquiv1 dot_S1024x64_S64x64_S1024x64_1_0_0_1_n_n 64 rfl rfl).symm k) = ix2 k q := funext fun ax => Fin.ext (by
    match ax with
    | ⟨0, _⟩ => exact (rhs1024_0 _ _).trans hk
    | ⟨1, _⟩ => exact rhs1024_1 _ _)
  rw [el, er]

/-! ### The product `[1024, 64] · [64, 1]` of the head's output layer -/

theorem lhs1024c_0 (i : S1024x1.Idx) (c : dot_S1024x64_S64x1_S1024x1_1_0_0_1_n_n.contr.Idx) :
    (dot_S1024x64_S64x1_S1024x1_1_0_0_1_n_n.lhsIdx i c 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhs1024c_1 (i : S1024x1.Idx) (c : dot_S1024x64_S64x1_S1024x1_1_0_0_1_n_n.contr.Idx) :
    (dot_S1024x64_S64x1_S1024x1_1_0_0_1_n_n.lhsIdx i c 1).val = (c ⟨0, by decide⟩).val :=
  dot_S1024x64_S64x1_S1024x1_1_0_0_1_n_n.lhsIdx_val_of_single rfl i c
theorem rhs1024c_0 (i : S1024x1.Idx) (c : dot_S1024x64_S64x1_S1024x1_1_0_0_1_n_n.contr.Idx) :
    (dot_S1024x64_S64x1_S1024x1_1_0_0_1_n_n.rhsIdx i c 0).val = (c ⟨0, by decide⟩).val :=
  dot_S1024x64_S64x1_S1024x1_1_0_0_1_n_n.rhsIdx_val_of_single rfl i c
theorem rhs1024c_1 (i : S1024x1.Idx) (c : dot_S1024x64_S64x1_S1024x1_1_0_0_1_n_n.contr.Idx) :
    (dot_S1024x64_S64x1_S1024x1_1_0_0_1_n_n.rhsIdx i c 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- Into the zero accumulator the product reads, at `(p, q)`, the sum over the shared axis of the left operand's row `p`
    times the right operand's column `q`. -/
theorem matmul1024c_at (a : FVec Ideal S1024x64 .bf16) (b : FVec Ideal S64x1 .bf16) (p : Fin 1024) (q : Fin 1) :
    matmul (F := Ideal) dot_S1024x64_S64x1_S1024x1_1_0_0_1_n_n none a b (constant (F := Ideal) S1024x1 .f32 0x00000000#32) (ix2 p q)
      = ∑ k : Fin 64, a (ix2 p k) * b (ix2 k q) := by
  refine (Ideal.matmul_constant_zero_apply dot_S1024x64_S64x1_S1024x1_1_0_0_1_n_n none a b (ix2 p q)).trans ?_
  rw [← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 p q) ((contrEquiv1 dot_S1024x64_S64x1_S1024x1_1_0_0_1_n_n 64 rfl rfl).symm k) = ix2 p k := funext fun ax => Fin.ext (by
    match ax with
    | ⟨0, _⟩ => exact lhs1024c_0 _ _
    | ⟨1, _⟩ => exact (lhs1024c_1 _ _).trans hk)
  have er : dot_S1024x64_S64x1_S1024x1_1_0_0_1_n_n.rhsIdx (ix2 p q) ((contrEquiv1 dot_S1024x64_S64x1_S1024x1_1_0_0_1_n_n 64 rfl rfl).symm k) = ix2 k q := funext fun ax => Fin.ext (by
    match ax with
    | ⟨0, _⟩ => exact (rhs1024c_0 _ _).trans hk
    | ⟨1, _⟩ => exact rhs1024c_1 _ _)
  rw [el, er]

/-! ## The bodies at an index -/

/-- The dense layer without rectifier: row `p` of the activations against column `q` of the weights, plus the bias at
    `q`, plus the residual element. -/
theorem dense_at (v0 : Vec Ideal S5000x64 .f32) (v3 : Vec Ideal S64x64 .f32) (v6 : Vec Ideal S1x64 .f32)
    (v10 : Vec Ideal S5000x64 .f32) (p : Fin 5000) (q : Fin 64) :
    k1_pay1 (F := Ideal) v0 v3 v6 v10 (ix2 p q)
      = ((∑ k : Fin 64, v0 (ix2 p k) * v3 (ix2 k q)) + v6 (ix2 0 q)) + v10 (ix2 p q) := by
  have h : k1_pay1 (F := Ideal) v0 v3 v6 v10 (ix2 p q)
      = matmul (F := Ideal) dot_S5000x64_S64x64_S5000x64_1_0_0_1_n_n none
            (truncf .bf16 (shapeCast S5000x64 v0 shapeCasts_S5000x64_S5000x64) bitsLt_bf16_f32)
            (truncf .bf16 v3 bitsLt_bf16_f32) (constant (F := Ideal) S5000x64 .f32 0x00000000#32) (ix2 p q)
          + broadcastTo S5000x64 (shapeCast S1x64 v6 shapeCasts_S1x64_S1x64) broadcasts_S1x64_S5000x64 (ix2 p q)
          + shapeCast S5000x64 v10 shapeCasts_S5000x64_S5000x64 (ix2 p q) := rfl
  rw [h, matmul5000_at, shapeCast_self, shapeCast_self, shapeCast_self, broadcastTo_1b_ab_apply]
  rfl

/-- A rectified dense layer is the rectifier of the plain one: the four rectified bodies share the plain body's text
    up to the last sum. -/
theorem denseAct2_at (v0 : Vec Ideal S5000x64 .f32) (v3 : Vec Ideal S64x64 .f32) (v6 : Vec Ideal S1x64 .f32)
    (v10 : Vec Ideal S5000x64 .f32) (p : Fin 5000) (q : Fin 64) :
    k2_pay1 (F := Ideal) v0 v3 v6 v10 (ix2 p q)
      = Spec.leaky (((∑ k : Fin 64, v0 (ix2 p k) * v3 (ix2 k q)) + v6 (ix2 0 q)) + v10 (ix2 p q)) := by
  refine (leaky_select (k1_pay1 (F := Ideal) v0 v3 v6 v10 (ix2 p q))).trans ?_
  rw [dense_at]

theorem denseAct3_at (v0 : Vec Ideal S5000x64 .f32) (v3 : Vec Ideal S64x64 .f32) (v6 : Vec Ideal S1x64 .f32)
    (v10 : Vec Ideal S5000x64 .f32) (p : Fin 5000) (q : Fin 64) :
    k3_pay1 (F := Ideal) v0 v3 v6 v10 (ix2 p q)
      = Spec.leaky (((∑ k : Fin 64, v0 (ix2 p k) * v3 (ix2 k q)) + v6 (ix2 0 q)) + v10 (ix2 p q)) := by
  refine (leaky_select (k1_pay1 (F := Ideal) v0 v3 v6 v10 (ix2 p q))).trans ?_
  rw [dense_at]

theorem denseAct4_at (v0 : Vec Ideal S5000x64 .f32) (v3 : Vec Ideal S64x64 .f32) (v6 : Vec Ideal S1x64 .f32)
    (v10 : Vec Ideal S5000x64 .f32) (p : Fin 5000) (q : Fin 64) :
    k4_pay1 (F := Ideal) v0 v3 v6 v10 (ix2 p q)
      = Spec.leaky (((∑ k : Fin 64, v0 (ix2 p k) * v3 (ix2 k q)) + v6 (ix2 0 q)) + v10 (ix2 p q)) := by
  refine (leaky_select (k1_pay1 (F := Ideal) v0 v3 v6 v10 (ix2 p q))).trans ?_
  rw [dense_at]

theorem denseAct5_at (v0 : Vec Ideal S5000x64 .f32) (v3 : Vec Ideal S64x64 .f32) (v6 : Vec Ideal S1x64 .f32)
    (v10 : Vec Ideal S5000x64 .f32) (p : Fin 5000) (q : Fin 64) :
    k5_pay1 (F := Ideal) v0 v3 v6 v10 (ix2 p q)
      = Spec.leaky (((∑ k : Fin 64, v0 (ix2 p k) * v3 (ix2 k q)) + v6 (ix2 0 q)) + v10 (ix2 p q)) := by
  refine (leaky_select (k1_pay1 (F := Ideal) v0 v3 v6 v10 (ix2 p q))).trans ?_
  rw [dense_at]

/-- The edge transform: the rectifier of the edge scalar at row `p` times the weight row at `q`, plus the bias at `q`. -/
theorem edge_at (v0 : Vec Ideal S5000x1 .f32) (v1 v5 : Vec Ideal S1x64 .f32) (p : Fin 5000) (q : Fin 64) :
    k0_pay1 (F := Ideal) v0 v1 v5 (ix2 p q) = Spec.leaky (v0 (ix2 p 0) * v1 (ix2 0 q) + v5 (ix2 0 q)) := by
  refine (leaky_select
    (broadcastTo S5000x64 v0 broadcasts_S5000x1_S5000x64 (ix2 p q) * broadcastTo S5000x64 v1 broadcasts_S1x64_S5000x64 (ix2 p q)
      + broadcastTo S5000x64 (shapeCast S1x64 v5 shapeCasts_S1x64_S1x64) broadcasts_S1x64_S5000x64 (ix2 p q))).trans ?_
  rw [shapeCast_self, broadcastTo_a1_ab_apply, broadcastTo_1b_ab_apply, broadcastTo_1b_ab_apply]

/-- The classifier head's hidden layer as its body computes it: the first product plus the bias row. -/
def hidden (v0 : Vec Ideal S1024x64 .f32) (v3 : Vec Ideal S64x64 .f32) (v6 : Vec Ideal S1x64 .f32) :
    FVec Ideal S1024x64 .f32 :=
  addf (matmul (F := Ideal) dot_S1024x64_S64x64_S1024x64_1_0_0_1_n_n none
      (truncf .bf16 (shapeCast S1024x64 v0 shapeCasts_S1024x64_S1024x64) bitsLt_bf16_f32)
      (truncf .bf16 v3 bitsLt_bf16_f32) (constant (F := Ideal) S1024x64 .f32 0x00000000#32))
    (broadcastTo S1024x64 (shapeCast S1x64 v6 shapeCasts_S1x64_S1x64) broadcasts_S1x64_S1024x64)

/-- The hidden layer at `(p, k)`: row `p` of the pooled features against column `k` of the first weights, plus the
    first bias at `k`. -/
theorem hidden_at (v0 : Vec Ideal S1024x64 .f32) (v3 : Vec Ideal S64x64 .f32) (v6 : Vec Ideal S1x64 .f32)
    (p : Fin 1024) (k : Fin 64) :
    hidden v0 v3 v6 (ix2 p k) = (∑ j : Fin 64, v0 (ix2 p j) * v3 (ix2 j k)) + v6 (ix2 0 k) := by
  have h : hidden v0 v3 v6 (ix2 p k)
      = matmul (F := Ideal) dot_S1024x64_S64x64_S1024x64_1_0_0_1_n_n none
            (truncf .bf16 (shapeCast S1024x64 v0 shapeCasts_S1024x64_S1024x64) bitsLt_bf16_f32)
            (truncf .bf16 v3 bitsLt_bf16_f32) (constant (F := Ideal) S1024x64 .f32 0x00000000#32) (ix2 p k)
          + broadcastTo S1024x64 (shapeCast S1x64 v6 shapeCasts_S1x64_S1x64) broadcasts_S1x64_S1024x64 (ix2 p k) := rfl
  rw [h, matmul1024_at, shapeCast_self, shapeCast_self, broadcastTo_1b_ab_apply]
  rfl

/-- The classifier head: the logistic function of the hidden row `p` against the output weights, plus the output bias. -/
theorem head_at (v0 : Vec Ideal S1024x64 .f32) (v3 : Vec Ideal S64x64 .f32) (v6 : Vec Ideal S1x64 .f32)
    (v11 : Vec Ideal S64x1 .f32) (v14 : Vec Ideal S1x1 .f32) (p : Fin 1024) :
    k6_pay1 (F := Ideal) v0 v3 v6 v11 v14 (ix2 p 0)
      = Ideal.logistic ((∑ k : Fin 64, ((∑ j : Fin 64, v0 (ix2 p j) * v3 (ix2 j k)) + v6 (ix2 0 k)) * v11 (ix2 k 0))
          + v14 (ix2 0 0)) := by
  have h : k6_pay1 (F := Ideal) v0 v3 v6 v11 v14 (ix2 p 0)
      = Ideal.logistic (matmul (F := Ideal) dot_S1024x64_S64x1_S1024x1_1_0_0_1_n_n none
            (truncf .bf16 (hidden v0 v3 v6) bitsLt_bf16_f32) (truncf .bf16 v11 bitsLt_bf16_f32)
            (constant (F := Ideal) S1024x1 .f32 0x00000000#32) (ix2 p 0)
          + broadcastTo S1024x1 (shapeCast S1x1 v14 shapeCasts_S1x1_S1x1) broadcasts_S1x1_S1024x1 (ix2 p 0)) := rfl
  rw [h, matmul1024c_at, shapeCast_self, broadcastTo_1b_ab_apply]
  refine congrArg (fun s => Ideal.logistic (s + v14 (ix2 0 0))) (Finset.sum_congr rfl fun k _ => ?_)
  show hidden v0 v3 v6 (ix2 p k) * v11 (ix2 k 0) = _
  rw [hidden_at]

end Cert.KernelIdeal.Pay

end
-- ==== Proof.KI.BlocksEdge.lean ====
/-
  From blocks to the array, for the edge transform.

  The launch walks the 1250000 edge rows in 250 blocks of 5000. At grid point `t` the body reads rows
  `5000 t … 5000 t + 4999` of the edge-scalar column, the whole weight row and the whole bias row, and writes the same
  rows of the result. Read at one element, what it writes is the rectified outer product plus bias at that row and
  column of the whole arrays; the 250 blocks tile the result, so after the launch the result array is that expression
  at every index.
-/
import proofs.«134920_j90091234001037_2_alg».proof.Proof.KI.Reg0
import proofs.«134920_j90091234001037_2_alg».proof.Proof.Payloads
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as a constant function. -/
theorem zeros2_edge : (![0, 0] : Fin 2 → Nat) = fun _ => 0 := funext fun a => by fin_cases a <;> rfl

/-- The edge transform on whole arrays: the rectifier of the edge scalar of row `i 0` times the weight at column
    `i 1`, plus the bias there. -/
def edgeG (ea : Vec Ideal S1250000x1 .f32) (w b : Vec Ideal S1x64 .f32) : Vec Ideal S1250000x64 .f32 :=
  fun i => Spec.leaky (ea (ix2 (i 0) 0) * w (ix2 0 (i 1)) + b (ix2 0 (i 1)))

/-- One element of one block, over plain variables: if block row `p` of the column `x0` is array row `r` of `ea`, the
    body at `(p, q)` is the whole-array transform at `(r, q)`. -/
theorem edge_point (ea : Vec Ideal S1250000x1 .f32) (w b : Vec Ideal S1x64 .f32) (x0 : Vec Ideal S5000x1 .f32)
    (x1 x2 : Vec Ideal S1x64 .f32) (p : Fin 5000) (q : Fin 64) (r : Fin 1250000)
    (h0 : x0 (ix2 p 0) = ea (ix2 r 0)) (h1 : x1 = w) (h2 : x2 = b) :
    k0_pay1 (F := Ideal) x0 x1 x2 (ix2 p q) = edgeG ea w b (ix2 r q) := by
  subst h1 h2
  rw [Pay.edge_at, h0]
  rfl

/-- The index maps over the grid: the edge column and the result sit at block `(t, 0)`, the weight and bias rows at
    `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The edge column's block at point `t` is rows `5000 t …` of the column: block row `p` is array row `5000 t + p`. -/
theorem rows0_0 (c : Dev nD) (t : Fin cfg0.N) (p : Fin 5000) (hr : t.val * 5000 + p.val < 1250000) :
    iblk0 V c 0 t (ix2 p (0 : Fin 1)) = V c main_arg3 (ix2 (⟨t.val * 5000 + p.val, hr⟩ : Fin 1250000) (0 : Fin 1)) := by
  obtain ⟨e00, e01, e10, e11, e20, e21, e30, e31⟩ := idx_facts0 t
  show V c main_arg3 (((cfg0.win 0).blk t).view.emb (ix2 p (0 : Fin 1)))
      = V c main_arg3 (ix2 (⟨t.val * 5000 + p.val, hr⟩ : Fin 1250000) (0 : Fin 1))
  refine congrArg (V c main_arg3) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 1 + 1 * 0 = 0; rw [e01]

/-- The weight row's block at every point is the whole row. -/
theorem whole0_1 (c : Dev nD) (t : Fin cfg0.N) : iblk0 V c 1 t = V c main_arg9 := by
  obtain ⟨e00, e01, e10, e11, e20, e21, e30, e31⟩ := idx_facts0 t
  funext y
  show V c main_arg9 (((cfg0.win 1).blk t).view.emb y) = V c main_arg9 y
  refine congrArg (V c main_arg9) (funext fun a => Fin.ext ?_)
  match a with
  | ⟨0, _⟩ => show win0_1.index t (0 : Fin 2) * 1 + 1 * (y 0).val = (y 0).val; rw [e10]; omega
  | ⟨1, _⟩ => show win0_1.index t (1 : Fin 2) * 64 + 1 * (y 1).val = (y 1).val; rw [e11]; omega

/-- The bias row's block at every point is the whole row. -/
theorem whole0_2 (c : Dev nD) (t : Fin cfg0.N) : iblk0 V c 2 t = V c main_v4 := by
  obtain ⟨e00, e01, e10, e11, e20, e21, e30, e31⟩ := idx_facts0 t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; rw [e20]; omega
  | ⟨1, _⟩ => show win0_2.index t (1 : Fin 2) * 64 + 1 * (y 1).val = (y 1).val; rw [e21]; omega

/-- The result window's block at point `t` sits at the same rows. -/
theorem rows0_3 (c : Dev nD) (t : Fin cfg0.N) (p : Fin 5000) (q : Fin 64) (hr : t.val * 5000 + p.val < 1250000) :
    ((cfg0.win 3).blk t).view.emb (ix2 p q) = ix2 (⟨t.val * 5000 + p.val, hr⟩ : Fin 1250000) q := by
  obtain ⟨e00, e01, e10, e11, e20, e21, e30, e31⟩ := idx_facts0 t
  funext a; apply Fin.ext
  match a with
  | ⟨0, _⟩ => show win0_3.index t (0 : Fin 2) * 5000 + 1 * p.val = t.val * 5000 + p.val; rw [e30]; omega
  | ⟨1, _⟩ => show win0_3.index t (1 : Fin 2) * 64 + 1 * q.val = q.val; rw [e31]; omega

/-- What grid point `t` writes back is block `t` of the transform of the whole arrays as the launch finds them. -/
theorem flushed_eq0 (c : Dev nD) (t : Fin cfg0.N) :
    (dat0 V c).flushed 3 t
      = ((cfg0.win 3).blk t).view.read (Elt Ideal) (edgeG (V c main_arg3) (V c main_arg9) (V c main_v4)) := by
  show (cfg0.win 3).cut (grid0.coords t) ((dat0 V c).after 3 t) = _
  rw [after0_3]
  unfold out0
  rw [View.canon_unit_zero zeros2_edge]
  simp only [View.ld_unit_zero (S := S5000x1) zeros2_edge, View.ld_unit_zero (S := S1x64) zeros2_edge]
  have hN : t.val < 250 := Nat.lt_of_lt_of_eq t.isLt (show cfg0.N = 250 from N_0)
  funext j
  obtain ⟨p, q, rfl⟩ : ∃ (p : Fin 5000) (q : Fin 64), j = ix2 p q := ⟨j 0, j 1, eq_ix2 j⟩
  have hr : t.val * 5000 + p.val < 1250000 := by have := p.isLt; omega
  show k0_pay1 (F := Ideal) (iblk0 V c 0 t) (iblk0 V c 1 t) (iblk0 V c 2 t) (ix2 p q)
      = edgeG (V c main_arg3) (V c main_arg9) (V c main_v4) (((cfg0.win 3).blk t).view.emb (ix2 p q))
  rw [rows0_3 c t p q hr]
  exact edge_point (V c main_arg3) (V c main_arg9) (V c main_v4) _ _ _ p q ⟨t.val * 5000 + p.val, hr⟩
    (rows0_0 V c t p hr) (whole0_1 V c t) (whole0_2 V c t)

/-- An index of the result array is in point `t`'s block iff each coordinate is in the block's range on its axis. -/
theorem mem_blk0 (t : Fin cfg0.N) (i : S1250000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every index of the result array is in some point's block: row `r` in block `r / 5000`. -/
theorem tiles0 (i : S1250000x64.Idx) :
    ∃ t : Fin cfg0.N, (cfg0.win 3).flush t = true ∧ i ∈ ((cfg0.win 3).blk t).view.set := by
  have hi0 : (i 0).val < 1250000 := (i 0).isLt
  have hi1 : (i 1).val < 64 := (i 1).isLt
  have ht : (i 0).val / 5000 < cfg0.N := by rw [show cfg0.N = 250 from N_0]; omega
  refine ⟨⟨(i 0).val / 5000, ht⟩, flush0_3 _, ?_⟩
  obtain ⟨e00, e01, e10, e11, e20, e21, e30, e31⟩ := idx_facts0 ⟨(i 0).val / 5000, ht⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e31]; omega

/-- After the launch the result array is the transform of the whole arrays as the launch found them. -/
theorem final0 (c : Dev nD) :
    (dat0 V c).arrAt 3 cfg0.N = edgeG (V c main_arg3) (V c main_arg9) (V c main_v4) :=
  (dat0 V c).arrAt_eq_of_cover 3 (edgeG (V c main_arg3) (V c main_arg9) (V c main_v4)) (fun t _ => flushed_eq0 V c t) (tiles0)

end Cert.KernelIdeal.Hand

end
-- ==== Proof.KI.BlocksDense.lean ====
/-
  From blocks to the array, for the five dense layers.

  Each dense launch walks the 100000 node rows in 20 blocks of 5000. At grid point `t` the body reads rows
  `5000 t … 5000 t + 4999` of the aggregated array and of the additive array, the whole weight matrix and the whole
  bias row, and writes the same rows of the result. Read at one element, what it writes is the dense layer's closed
  expression at that row and column of the whole arrays; the 20 blocks tile the result, so after the launch the
  result array is that expression at every index.
-/
import proofs.«134920_j90091234001037_2_alg».proof.Proof.KI.Reg1
import proofs.«134920_j90091234001037_2_alg».proof.Proof.KI.Reg2
import proofs.«134920_j90091234001037_2_alg».proof.Proof.KI.Reg3
import proofs.«134920_j90091234001037_2_alg».proof.Proof.KI.Reg4
import proofs.«134920_j90091234001037_2_alg».proof.Proof.KI.Reg5
import proofs.«134920_j90091234001037_2_alg».proof.Proof.Payloads
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as a constant function. -/
theorem zeros2 : (![0, 0] : Fin 2 → Nat) = fun _ => 0 := funext fun a => by fin_cases a <;> rfl

/-! ## The layers as functions of whole arrays -/

/-- The dense layer without rectifier: row `i 0` of `A` against column `i 1` of `W`, plus the bias, plus `C` there. -/
def denseG (A : Vec Ideal S100000x64 .f32) (W : Vec Ideal S64x64 .f32) (B : Vec Ideal S1x64 .f32)
    (C : Vec Ideal S100000x64 .f32) : Vec Ideal S100000x64 .f32 :=
  fun i => ((∑ k : Fin 64, A (ix2 (i 0) k) * W (ix2 k (i 1))) + B (ix2 0 (i 1))) + C i

/-- The rectified dense layer. -/
def denseActG (A : Vec Ideal S100000x64 .f32) (W : Vec Ideal S64x64 .f32) (B : Vec Ideal S1x64 .f32)
    (C : Vec Ideal S100000x64 .f32) : Vec Ideal S100000x64 .f32 :=
  fun i => Spec.leaky (denseG A W B C i)

/-! ## One element of one block, over plain variables -/

/-- If the row block `x0` is rows of `A` and `x3` rows of `C` (block row `p` is array row `r`), the plain dense body
    at `(p, q)` is the whole-array layer at `(r, q)`. -/
theorem dense_point (A : Vec Ideal S100000x64 .f32) (W : Vec Ideal S64x64 .f32) (B : Vec Ideal S1x64 .f32)
    (C : Vec Ideal S100000x64 .f32) (x0 : Vec Ideal S5000x64 .f32) (x1 : Vec Ideal S64x64 .f32)
    (x2 : Vec Ideal S1x64 .f32) (x3 : Vec Ideal S5000x64 .f32) (p : Fin 5000) (q : Fin 64) (r : Fin 100000)
    (h0 : ∀ k : Fin 64, x0 (ix2 p k) = A (ix2 r k)) (h1 : x1 = W) (h2 : x2 = B) (h3 : x3 (ix2 p q) = C (ix2 r q)) :
    k1_pay1 (F := Ideal) x0 x1 x2 x3 (ix2 p q) = denseG A W B C (ix2 r q) := by
  subst h1 h2
  have hs : (∑ k : Fin 64, x0 (ix2 p k) * x1 (ix2 k q)) = ∑ k : Fin 64, A (ix2 r k) * x1 (ix2 k q) :=
    Finset.sum_congr rfl fun k _ => by rw [h0 k]
  rw [Pay.dense_at, hs, h3]
  rfl

/-- The same for a rectified dense body (`pay` is any of the four, known to be the rectifier of the closed expression). -/
theorem denseAct_point (pay : Vec Ideal S5000x64 .f32 → Vec Ideal S64x64 .f32 → Vec Ideal S1x64 .f32 → Vec Ideal S5000x64 .f32 → FVec Ideal S5000x64 .f32)
    (hpay : ∀ (v0 : Vec Ideal S5000x64 .f32) (v3 : Vec Ideal S64x64 .f32) (v6 : Vec Ideal S1x64 .f32) (v10 : Vec Ideal S5000x64 .f32)
      (p : Fin 5000) (q : Fin 64), pay v0 v3 v6 v10 (ix2 p q)
        = Spec.leaky (((∑ k : Fin 64, v0 (ix2 p k) * v3 (ix2 k q)) + v6 (ix2 0 q)) + v10 (ix2 p q)))
    (A : Vec Ideal S100000x64 .f32) (W : Vec Ideal S64x64 .f32) (B : Vec Ideal S1x64 .f32)
    (C : Vec Ideal S100000x64 .f32) (x0 : Vec Ideal S5000x64 .f32) (x1 : Vec Ideal S64x64 .f32)
    (x2 : Vec Ideal S1x64 .f32) (x3 : Vec Ideal S5000x64 .f32) (p : Fin 5000) (q : Fin 64) (r : Fin 100000)
    (h0 : ∀ k : Fin 64, x0 (ix2 p k) = A (ix2 r k)) (h1 : x1 = W) (h2 : x2 = B) (h3 : x3 (ix2 p q) = C (ix2 r q)) :
    pay x0 x1 x2 x3 (ix2 p q) = denseActG A W B C (ix2 r q) := by
  rw [hpay, ← Pay.dense_at, dense_point A W B C x0 x1 x2 x3 p q r h0 h1 h2 h3]
  rfl

/-! ## Launch 1 -/

/-- The index maps over the grid: the three row-blocked windows sit at block `(t, 0)`, the weight and the bias at `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `5000 t …` of its array: block row `p` is array row `5000 t + p`. -/
theorem rows1_0 (c : Dev nD) (t : Fin cfg1.N) (p : Fin 5000) (q : Fin 64) (hr : t.val * 5000 + p.val < 100000) :
    iblk1 V c 0 t (ix2 p q) = V c main_v8 (ix2 (⟨t.val * 5000 + p.val, hr⟩ : Fin 100000) q) := by
  obtain ⟨e00, e01, e10, e11, e20, e21, e30, e31, e40, e41⟩ := idx_facts1 t
  show V c main_v8 (((cfg1.win 0).blk t).view.emb (ix2 p q)) = V c main_v8 (ix2 (⟨t.val * 5000 + p.val, hr⟩ : Fin 100000) q)
  refine congrArg (V c main_v8) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 64 + 1 * q.val = q.val; rw [e01]; omega

/-- Window 1's block at every point is its whole array. -/
theorem whole1_1 (c : Dev nD) (t : Fin cfg1.N) : iblk1 V c 1 t = V c main_arg7 := by
  obtain ⟨e00, e01, e10, e11, e20, e21, e30, e31, e40, e41⟩ := idx_facts1 t
  funext y
  show V c main_arg7 (((cfg1.win 1).blk t).view.emb y) = V c main_arg7 y
  refine congrArg (V c main_arg7) (funext fun a => Fin.ext ?_)
  match a with
  | ⟨0, _⟩ => show win1_1.index t (0 : Fin 2) * 64 + 1 * (y 0).val = (y 0).val; rw [e10]; omega
  | ⟨1, _⟩ => show win1_1.index t (1 : Fin 2) * 64 + 1 * (y 1).val = (y 1).val; rw [e11]; omega

/-- Window 2's block at every point is its whole array. -/
theorem whole1_2 (c : Dev nD) (t : Fin cfg1.N) : iblk1 V c 2 t = V c main_v22 := by
  obtain ⟨e00, e01, e10, e11, e20, e21, e30, e31, e40, e41⟩ := idx_facts1 t
  funext y
  show V c main_v22 (((cfg1.win 2).blk t).view.emb y) = V c main_v22 y
  refine congrArg (V c main_v22) (funext fun a => Fin.ext ?_)
  match a with
  | ⟨0, _⟩ => show win1_2.index t (0 : Fin 2) * 1 + 1 * (y 0).val = (y 0).val; rw [e20]; omega
  | ⟨1, _⟩ => show win1_2.index t (1 : Fin 2) * 64 + 1 * (y 1).val = (y 1).val; rw [e21]; omega

/-- Window 3's block at point `t` is rows `5000 t …` of its array: block row `p` is array row `5000 t + p`. -/
theorem rows1_3 (c : Dev nD) (t : Fin cfg1.N) (p : Fin 5000) (q : Fin 64) (hr : t.val * 5000 + p.val < 100000) :
    iblk1 V c 3 t (ix2 p q) = V c main_v21 (ix2 (⟨t.val * 5000 + p.val, hr⟩ : Fin 100000) q) := by
  obtain ⟨e00, e01, e10, e11, e20, e21, e30, e31, e40, e41⟩ := idx_facts1 t
  show V c main_v21 (((cfg1.win 3).blk t).view.emb (ix2 p q)) = V c main_v21 (ix2 (⟨t.val * 5000 + p.val, hr⟩ : Fin 100000) q)
  refine congrArg (V c main_v21) (funext fun a => Fin.ext ?_)
  match a with
  | ⟨0, _⟩ => show win1_3.index t (0 : Fin 2) * 5000 + 1 * p.val = t.val * 5000 + p.val; rw [e30]; omega
  | ⟨1, _⟩ => show win1_3.index t (1 : Fin 2) * 64 + 1 * q.val = q.val; rw [e31]; omega

/-- The result window's block at point `t` sits at the same rows. -/
theorem rows1_4 (c : Dev nD) (t : Fin cfg1.N) (p : Fin 5000) (q : Fin 64) (hr : t.val * 5000 + p.val < 100000) :
    ((cfg1.win 4).blk t).view.emb (ix2 p q) = ix2 (⟨t.val * 5000 + p.val, hr⟩ : Fin 100000) q := by
  obtain ⟨e00, e01, e10, e11, e20, e21, e30, e31, e40, e41⟩ := idx_facts1 t
  funext a; apply Fin.ext
  match a with
  | ⟨0, _⟩ => show win1_4.index t (0 : Fin 2) * 5000 + 1 * p.val = t.val * 5000 + p.val; rw [e40]; omega
  | ⟨1, _⟩ => show win1_4.index t (1 : Fin 2) * 64 + 1 * q.val = q.val; rw [e41]; omega

/-- What grid point `t` writes back is block `t` of the layer of the whole arrays as the launch finds them. -/
theorem flushed_eq1 (c : Dev nD) (t : Fin cfg1.N) :
    (dat1 V c).flushed 4 t
      = ((cfg1.win 4).blk t).view.read (Elt Ideal) (denseG (V c main_v8) (V c main_arg7) (V c main_v22) (V c main_v21)) := by
  show (cfg1.win 4).cut (grid1.coords t) ((dat1 V c).after 4 t) = _
  rw [after1_4]
  unfold out1
  rw [View.canon_unit_zero zeros2]
  simp only [View.ld_unit_zero (S := S5000x64) zeros2, View.ld_unit_zero (S := S64x64) zeros2,
    View.ld_unit_zero (S := S1x64) zeros2]
  have hN : t.val < 20 := Nat.lt_of_lt_of_eq t.isLt (show cfg1.N = 20 from N_1)
  funext j
  obtain ⟨p, q, rfl⟩ : ∃ (p : Fin 5000) (q : Fin 64), j = ix2 p q := ⟨j 0, j 1, eq_ix2 j⟩
  have hr : t.val * 5000 + p.val < 100000 := by have := p.isLt; omega
  show k1_pay1 (F := Ideal) (iblk1 V c 0 t) (iblk1 V c 1 t) (iblk1 V c 2 t) (iblk1 V c 3 t) (ix2 p q)
      = denseG (V c main_v8) (V c main_arg7) (V c main_v22) (V c main_v21) (((cfg1.win 4).blk t).view.emb (ix2 p q))
  rw [rows1_4 c t p q hr]
  exact dense_point (V c main_v8) (V c main_arg7) (V c main_v22) (V c main_v21) _ _ _ _ p q ⟨t.val * 5000 + p.val, hr⟩
    (fun k => rows1_0 V c t p k hr) (whole1_1 V c t) (whole1_2 V c t) (rows1_3 V c t p q hr)

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v23).slice (win1_4.rect t)).set ↔ _
  rw [View.set_slice_whole, Rect.mem_set_unit]
  exact Iff.rfl

/-- Every index of the result array is in some point's block: row `r` in block `r / 5000`. -/
theorem tiles1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 5000 < cfg1.N := by rw [show cfg1.N = 20 from N_1]; omega
  refine ⟨⟨(i 0).val / 5000, ht⟩, flush1_4 _, ?_⟩
  obtain ⟨e00, e01, e10, e11, e20, e21, e30, e31, e40, e41⟩ := idx_facts1 ⟨(i 0).val / 5000, ht⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val ∧ (i 1).val < win1_4.index ⟨(i 0).val / 5000, ht⟩ (1 : Fin 2) * 64 + 64
    rw [e41]; omega

/-- After the launch the result array is the layer of the whole arrays as the launch found them. -/
theorem final1 (c : Dev nD) :
    (dat1 V c).arrAt 4 cfg1.N = denseG (V c main_v8) (V c main_arg7) (V c main_v22) (V c main_v21) :=
  (dat1 V c).arrAt_eq_of_cover 4 (denseG (V c main_v8) (V c main_arg7) (V c main_v22) (V c main_v21)) (fun t _ => flushed_eq1 V c t) (tiles1)

/-! ## Launch 2 -/

/-- The index maps over the grid: the three row-blocked windows sit at block `(t, 0)`, the weight and the bias at `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `5000 t …` of its array: block row `p` is array row `5000 t + p`. -/
theorem rows2_0 (c : Dev nD) (t : Fin cfg2.N) (p : Fin 5000) (q : Fin 64) (hr : t.val * 5000 + p.val < 100000) :
    iblk2 V c 0 t (ix2 p q) = V c main_v34 (ix2 (⟨t.val * 5000 + p.val, hr⟩ : Fin 100000) q) := by
  obtain ⟨e00, e01, e10, e11, e20, e21, e30, e31, e40, e41⟩ := idx_facts2 t
  show V c main_v34 (((cfg2.win 0).blk t).view.emb (ix2 p q)) = V c main_v34 (ix2 (⟨t.val * 5000 + p.val, hr⟩ : Fin 100000) q)
  refine congrArg (V c main_v34) (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 64 + 1 * q.val = q.val; rw [e01]; omega

/-- Window 1's block at every point is its whole array. -/
theorem whole2_1 (c : Dev nD) (t : Fin cfg2.N) : iblk2 V c 1 t = V c main_arg5 := by
  obtain ⟨e00, e01, e10, e11, e20, e21, e30, e31, e40, e41⟩ := idx_facts2 t
  funext y
  show V c main_arg5 (((cfg2.win 1).blk t).view.emb y) = V c main_arg5 y
  refine congrArg (V c main_arg5) (funext fun a => Fin.ext ?_)
  match a with
  | ⟨0, _⟩ => show win2_1.index t (0 : Fin 2) * 64 + 1 * (y 0).val = (y 0).val; rw [e10]; omega
  | ⟨1, _⟩ => show win2_1.index t (1 : Fin 2) * 64 + 1 * (y 1).val = (y 1).val; rw [e11]; omega

/-- Window 2's block at every point is its whole array. -/
theorem whole2_2 (c : Dev nD) (t : Fin cfg2.N) : iblk2 V c 2 t = V c main_v24 := by
  obtain ⟨e00, e01, e10, e11, e20, e21, e30, e31, e40, e41⟩ := idx_facts2 t
  funext y
  show V c main_v24 (((cfg2.win 2).blk t).view.emb y) = V c main_v24 y
  refine congrArg (V c main_v24) (funext fun a => Fin.ext ?_)
  match a with
  | ⟨0, _⟩ => show win2_2.index t (0 : Fin 2) * 1 + 1 * (y 0).val = (y 0).val; rw [e20]; omega
  | ⟨1, _⟩ => show win2_2.index t (1 : Fin 2) * 64 + 1 * (y 1).val = (y 1).val; rw [e21]; omega

/-- Window 3's block at point `t` is rows `5000 t …` of its array: block row `p` is array row `5000 t + p`. -/
theorem rows2_3 (c : Dev nD) (t : Fin cfg2.N) (p : Fin 5000) (q : Fin 64) (hr : t.val * 5000 + p.val < 100000) :
    iblk2 V c 3 t (ix2 p q) = V c main_v23 (ix2 (⟨t.val * 5000 + p.val, hr⟩ : Fin 100000) q) := by
  obtain ⟨e00, e01, e10, e11, e20, e21, e30, e31, e40, e41⟩ := idx_facts2 t
  show V c main_v23 (((cfg2.win 3).blk t).view.emb (ix2 p q)) = V c main_v23 (ix2 (⟨t.val * 5000 + p.val, hr⟩ : Fin 100000) q)
  refine congrArg (V c main_v23) (funext fun a => Fin.ext ?_)
  match a with
  | ⟨0, _⟩ => show win2_3.index t (0 : Fin 2) * 5000 + 1 * p.val = t.val * 5000 + p.val; rw [e30]; omega
  | ⟨1, _⟩ => show win2_3.index t (1 : Fin 2) * 64 + 1 * q.val = q.val; rw [e31]; omega

/-- The result window's block at point `t` sits at the same rows. -/
theorem rows2_4 (c : Dev nD) (t : Fin cfg2.N) (p : Fin 5000) (q : Fin 64) (hr : t.val * 5000 + p.val < 100000) :
    ((cfg2.win 4).blk t).view.emb (ix2 p q) = ix2 (⟨t.val * 5000 + p.val, hr⟩ : Fin 100000) q := by
  obtain ⟨e00, e01, e10, e11, e20, e21, e30, e31, e40, e41⟩ := idx_facts2 t
  funext a; apply Fin.ext
  match a with
  | ⟨0, _⟩ => show win2_4.index t (0 : Fin 2) * 5000 + 1 * p.val = t.val * 5000 + p.val; rw [e40]; omega
  | ⟨1, _⟩ => show win2_4.index t (1 : Fin 2) * 64 + 1 * q.val = q.val; rw [e41]; omega

/-- What grid point `t` writes back is block `t` of the layer of the whole arrays as the launch finds them. -/
theorem flushed_eq2 (c : Dev nD) (t : Fin cfg2.N) :
    (dat2 V c).flushed 4 t
      = ((cfg2.win 4).blk t).view.read (Elt Ideal) (denseActG (V c main_v34) (V c main_arg5) (V c main_v24) (V c main_v23)) := by
  show (cfg2.win 4).cut (grid2.coords t) ((dat2 V c).after 4 t) = _
  rw [after2_4]
  unfold out2
  rw [View.canon_unit_zero zeros2]
  simp only [View.ld_unit_zero (S := S5000x64) zeros2, View.ld_unit_zero (S := S64x64) zeros2,
    View.ld_unit_zero (S := S1x64) zeros2]
  have hN : t.val < 20 := Nat.lt_of_lt_of_eq t.isLt (show cfg2.N = 20 from N_2)
  funext j
  obtain ⟨p, q, rfl⟩ : ∃ (p : Fin 5000) (q : Fin 64), j = ix2 p q := ⟨j 0, j 1, eq_ix2 j⟩
  have hr : t.val * 5000 + p.val < 100000 := by have := p.isLt; omega
  show k2_pay1 (F := Ideal) (iblk2 V c 0 t) (iblk2 V c 1 t) (iblk2 V c 2 t) (iblk2 V c 3 t) (ix2 p q)
      = denseActG (V c main_v34) (V c main_arg5) (V c main_v24) (V c main_v23) (((cfg2.win 4).blk t).view.emb (ix2 p q))
  rw [rows2_4 c t p q hr]
  exact denseAct_point (k2_pay1 (F := Ideal)) Pay.denseAct2_at (V c main_v34) (V c main_arg5) (V c main_v24) (V c main_v23) _ _ _ _ p q ⟨t.val * 5000 + p.val, hr⟩
    (fun k => rows2_0 V c t p k hr) (whole2_1 V c t) (whole2_2 V c t) (rows2_3 V c t p q hr)

/-- An index of the result array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v35).slice (win2_4.rect t)).set ↔ _
  rw [View.set_slice_whole, Rect.mem_set_unit]
  exact Iff.rfl

/-- Every index of the result array is in some point's block: row `r` in block `r / 5000`. -/
theorem tiles2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 5000 < cfg2.N := by rw [show cfg2.N = 20 from N_2]; omega
  refine ⟨⟨(i 0).val / 5000, ht⟩, flush2_4 _, ?_⟩
  obtain ⟨e00, e01, e10, e11, e20, e21, e30, e31, e40, e41⟩ := idx_facts2 ⟨(i 0).val / 5000, ht⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e41]; omega

/-- After the launch the result array is the layer of the whole arrays as the launch found them. -/
theorem final2 (c : Dev nD) :
    (dat2 V c).arrAt 4 cfg2.N = denseActG (V c main_v34) (V c main_arg5) (V c main_v24) (V c main_v23) :=
  (dat2 V c).arrAt_eq_of_cover 4 (denseActG (V c main_v34) (V c main_arg5) (V c main_v24) (V c main_v23)) (fun t _ => flushed_eq2 V c t) (tiles2)

/-! ## Launch 3 -/

/-- The index maps over the grid: the three row-blocked windows sit at block `(t, 0)`, the weight and the bias at `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `5000 t …` of its array: block row `p` is array row `5000 t + p`. -/
theorem rows3_0 (c : Dev nD) (t : Fin cfg3.N) (p : Fin 5000) (q : Fin 64) (hr : t.val * 5000 + p.val < 100000) :
    iblk3 V c 0 t (ix2 p q) = V c main_v45 (ix2 (⟨t.val * 5000 + p.val, hr⟩ : Fin 100000) q) := by
  obtain ⟨e00, e01, e10, e11, e20, e21, e30, e31, e40, e41⟩ := idx_facts3 t
  show V c main_v45 (((cfg3.win 0).blk t).view.emb (ix2 p q)) = V c main_v45 (ix2 (⟨t.val * 5000 + p.val, hr⟩ : Fin 100000) q)
  refine congrArg (V c main_v45) (funext fun a => Fin.ext ?_)
  match a with
  | ⟨0, _⟩ => show win3_0.index t (0 : Fin 2) * 5000 + 1 * p.val = t.val * 5000 + p.val; rw [e00]; omega
  | ⟨1, _⟩ => show win3_0.index t (1 : Fin 2) * 64 + 1 * q.val = q.val; rw [e01]; omega

/-- Window 1's block at every point is its whole array. -/
theorem whole3_1 (c : Dev nD) (t : Fin cfg3.N) : iblk3 V c 1 t = V c main_arg5 := by
  obtain ⟨e00, e01, e10, e11, e20, e21, e30, e31, e40, e41⟩ := idx_facts3 t
  funext y
  show V c main_arg5 (((cfg3.win 1).blk t).view.emb y) = V c main_arg5 y
  refine congrArg (V c main_arg5) (funext fun a => Fin.ext ?_)
  match a with
  | ⟨0, _⟩ => show win3_1.index t (0 : Fin 2) * 64 + 1 * (y 0).val = (y 0).val; rw [e10]; omega
  | ⟨1, _⟩ => show win3_1.index t (1 : Fin 2) * 64 + 1 * (y 1).val = (y 1).val; rw [e11]; omega

/-- Window 2's block at every point is its whole array. -/
theorem whole3_2 (c : Dev nD) (t : Fin cfg3.N) : iblk3 V c 2 t = V c main_v24 := by
  obtain ⟨e00, e01, e10, e11, e20, e21, e30, e31, e40, e41⟩ := idx_facts3 t
  funext y
  show V c main_v24 (((cfg3.win 2).blk t).view.emb y) = V c main_v24 y
  refine congrArg (V c main_v24) (funext fun a => Fin.ext ?_)
  match a with
  | ⟨0, _⟩ => show win3_2.index t (0 : Fin 2) * 1 + 1 * (y 0).val = (y 0).val; rw [e20]; omega
  | ⟨1, _⟩ => show win3_2.index t (1 : Fin 2) * 64 + 1 * (y 1).val = (y 1).val; rw [e21]; omega

/-- Window 3's block at point `t` is rows `5000 t …` of its array: block row `p` is array row `5000 t + p`. -/
theorem rows3_3 (c : Dev nD) (t : Fin cfg3.N) (p : Fin 5000) (q : Fin 64) (hr : t.val * 5000 + p.val < 100000) :
    iblk3 V c 3 t (ix2 p q) = V c main_v23 (ix2 (⟨t.val * 5000 + p.val, hr⟩ : Fin 100000) q) := by
  obtain ⟨e00, e01, e10, e11, e20, e21, e30, e31, e40, e41⟩ := idx_facts3 t
  show V c main_v23 (((cfg3.win 3).blk t).view.emb (ix2 p q)) = V c main_v23 (ix2 (⟨t.val * 5000 + p.val, hr⟩ : Fin 100000) q)
  refine congrArg (V c main_v23) (funext fun a => Fin.ext ?_)
  match a with
  | ⟨0, _⟩ => show win3_3.index t (0 : Fin 2) * 5000 + 1 * p.val = t.val * 5000 + p.val; rw [e30]; omega
  | ⟨1, _⟩ => show win3_3.index t (1 : Fin 2) * 64 + 1 * q.val = q.val; rw [e31]; omega

/-- The result window's block at point `t` sits at the same rows. -/
theorem rows3_4 (c : Dev nD) (t : Fin cfg3.N) (p : Fin 5000) (q : Fin 64) (hr : t.val * 5000 + p.val < 100000) :
    ((cfg3.win 4).blk t).view.emb (ix2 p q) = ix2 (⟨t.val * 5000 + p.val, hr⟩ : Fin 100000) q := by
  obtain ⟨e00, e01, e10, e11, e20, e21, e30, e31, e40, e41⟩ := idx_facts3 t
  funext a; apply Fin.ext
  match a with
  | ⟨0, _⟩ => show win3_4.index t (0 : Fin 2) * 5000 + 1 * p.val = t.val * 5000 + p.val; rw [e40]; omega
  | ⟨1, _⟩ => show win3_4.index t (1 : Fin 2) * 64 + 1 * q.val = q.val; rw [e41]; omega

/-- What grid point `t` writes back is block `t` of the layer of the whole arrays as the launch finds them. -/
theorem flushed_eq3 (c : Dev nD) (t : Fin cfg3.N) :
    (dat3 V c).flushed 4 t
      = ((cfg3.win 4).blk t).view.read (Elt Ideal) (denseActG (V c main_v45) (V c main_arg5) (V c main_v24) (V c main_v23)) := by
  show (cfg3.win 4).cut (grid3.coords t) ((dat3 V c).after 4 t) = _
  rw [after3_4]
  unfold out3
  rw [View.canon_unit_zero zeros2]
  simp only [View.ld_unit_zero (S := S5000x64) zeros2, View.ld_unit_zero (S := S64x64) zeros2,
    View.ld_unit_zero (S := S1x64) zeros2]
  have hN : t.val < 20 := Nat.lt_of_lt_of_eq t.isLt (show cfg3.N = 20 from N_3)
  funext j
  obtain ⟨p, q, rfl⟩ : ∃ (p : Fin 5000) (q : Fin 64), j = ix2 p q := ⟨j 0, j 1, eq_ix2 j⟩
  have hr : t.val * 5000 + p.val < 100000 := by have := p.isLt; omega
  show k3_pay1 (F := Ideal) (iblk3 V c 0 t) (iblk3 V c 1 t) (iblk3 V c 2 t) (iblk3 V c 3 t) (ix2 p q)
      = denseActG (V c main_v45) (V c main_arg5) (V c main_v24) (V c main_v23) (((cfg3.win 4).blk t).view.emb (ix2 p q))
  rw [rows3_4 c t p q hr]
  exact denseAct_point (k3_pay1 (F := Ideal)) Pay.denseAct3_at (V c main_v45) (V c main_arg5) (V c main_v24) (V c main_v23) _ _ _ _ p q ⟨t.val * 5000 + p.val, hr⟩
    (fun k => rows3_0 V c t p k hr) (whole3_1 V c t) (whole3_2 V c t) (rows3_3 V c t p q hr)

/-- An index of the result array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v46).slice (win3_4.rect t)).set ↔ _
  rw [View.set_slice_whole, Rect.mem_set_unit]
  exact Iff.rfl

/-- Every index of the result array is in some point's block: row `r` in block `r / 5000`. -/
theorem tiles3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have ht : (i 0).val / 5000 < cfg3.N := by rw [show cfg3.N = 20 from N_3]; omega
  refine ⟨⟨(i 0).val / 5000, ht⟩, flush3_4 _, ?_⟩
  obtain ⟨e00, e01, e10, e11, e20, e21, e30, e31, e40, e41⟩ := idx_facts3 ⟨(i 0).val / 5000, ht⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val ∧ (i 1).val < win3_4.index ⟨(i 0).val / 5000, ht⟩ (1 : Fin 2) * 64 + 64
    rw [e41]; omega

/-- After the launch the result array is the layer of the whole arrays as the launch found them. -/
theorem final3 (c : Dev nD) :
    (dat3 V c).arrAt 4 cfg3.N = denseActG (V c main_v45) (V c main_arg5) (V c main_v24) (V c main_v23) :=
  (dat3 V c).arrAt_eq_of_cover 4 (denseActG (V c main_v45) (V c main_arg5) (V c main_v24) (V c main_v23)) (fun t _ => flushed_eq3 V c t) (tiles3)

/-! ## Launch 4 -/

/-- The index maps over the grid: the three row-blocked windows sit at block `(t, 0)`, the weight and the bias at `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `5000 t …` of its array: block row `p` is array row `5000 t + p`. -/
theorem rows4_0 (c : Dev nD) (t : Fin cfg4.N) (p : Fin 5000) (q : Fin 64) (hr : t.val * 5000 + p.val < 100000) :
    iblk4 V c 0 t (ix2 p q) = V c main_v56 (ix2 (⟨t.val * 5000 + p.val, hr⟩ : Fin 100000) q) := by
  obtain ⟨e00, e01, e10, e11, e20, e21, e30, e31, e40, e41⟩ := idx_facts4 t
  show V c main_v56 (((cfg4.win 0).blk t).view.emb (ix2 p q)) = V c main_v56 (ix2 (⟨t.val * 5000 + p.val, hr⟩ : Fin 100000) q)
  refine congrArg (V c main_v56) (funext fun a => Fin.ext ?_)
  match a with
  | ⟨0, _⟩ => show win4_0.index t (0 : Fin 2) * 5000 + 1 * p.val = t.val * 5000 + p.val; rw [e00]; omega
  | ⟨1, _⟩ => show win4_0.index t (1 : Fin 2) * 64 + 1 * q.val = q.val; rw [e01]; omega

/-- Window 1's block at every point is its whole array. -/
theorem whole4_1 (c : Dev nD) (t : Fin cfg4.N) : iblk4 V c 1 t = V c main_arg5 := by
  obtain ⟨e00, e01, e10, e11, e20, e21, e30, e31, e40, e41⟩ := idx_facts4 t
  funext y
  show V c main_arg5 (((cfg4.win 1).blk t).view.emb y) = V c main_arg5 y
  refine congrArg (V c main_arg5) (funext fun a => Fin.ext ?_)
  match a with
  | ⟨0, _⟩ => show win4_1.index t (0 : Fin 2) * 64 + 1 * (y 0).val = (y 0).val; rw [e10]; omega
  | ⟨1, _⟩ => show win4_1.index t (1 : Fin 2) * 64 + 1 * (y 1).val = (y 1).val; rw [e11]; omega

/-- Window 2's block at every point is its whole array. -/
theorem whole4_2 (c : Dev nD) (t : Fin cfg4.N) : iblk4 V c 2 t = V c main_v24 := by
  obtain ⟨e00, e01, e10, e11, e20, e21, e30, e31, e40, e41⟩ := idx_facts4 t
  funext y
  show V c main_v24 (((cfg4.win 2).blk t).view.emb y) = V c main_v24 y
  refine congrArg (V c main_v24) (funext fun a => Fin.ext ?_)
  match a with
  | ⟨0, _⟩ => show win4_2.index t (0 : Fin 2) * 1 + 1 * (y 0).val = (y 0).val; rw [e20]; omega
  | ⟨1, _⟩ => show win4_2.index t (1 : Fin 2) * 64 + 1 * (y 1).val = (y 1).val; rw [e21]; omega

/-- Window 3's block at point `t` is rows `5000 t …` of its array: block row `p` is array row `5000 t + p`. -/
theorem rows4_3 (c : Dev nD) (t : Fin cfg4.N) (p : Fin 5000) (q : Fin 64) (hr : t.val * 5000 + p.val < 100000) :
    iblk4 V c 3 t (ix2 p q) = V c main_v23 (ix2 (⟨t.val * 5000 + p.val, hr⟩ : Fin 100000) q) := by
  obtain ⟨e00, e01, e10, e11, e20, e21, e30, e31, e40, e41⟩ := idx_facts4 t
  show V c main_v23 (((cfg4.win 3).blk t).view.emb (ix2 p q)) = V c main_v23 (ix2 (⟨t.val * 5000 + p.val, hr⟩ : Fin 100000) q)
  refine congrArg (V c main_v23) (funext fun a => Fin.ext ?_)
  match a with
  | ⟨0, _⟩ => show win4_3.index t (0 : Fin 2) * 5000 + 1 * p.val = t.val * 5000 + p.val; rw [e30]; omega
  | ⟨1, _⟩ => show win4_3.index t (1 : Fin 2) * 64 + 1 * q.val = q.val; rw [e31]; omega

/-- The result window's block at point `t` sits at the same rows. -/
theorem rows4_4 (c : Dev nD) (t : Fin cfg4.N) (p : Fin 5000) (q : Fin 64) (hr : t.val * 5000 + p.val < 100000) :
    ((cfg4.win 4).blk t).view.emb (ix2 p q) = ix2 (⟨t.val * 5000 + p.val, hr⟩ : Fin 100000) q := by
  obtain ⟨e00, e01, e10, e11, e20, e21, e30, e31, e40, e41⟩ := idx_facts4 t
  funext a; apply Fin.ext
  match a with
  | ⟨0, _⟩ => show win4_4.index t (0 : Fin 2) * 5000 + 1 * p.val = t.val * 5000 + p.val; rw [e40]; omega
  | ⟨1, _⟩ => show win4_4.index t (1 : Fin 2) * 64 + 1 * q.val = q.val; rw [e41]; omega

/-- What grid point `t` writes back is block `t` of the layer of the whole arrays as the launch finds them. -/
theorem flushed_eq4 (c : Dev nD) (t : Fin cfg4.N) :
    (dat4 V c).flushed 4 t
      = ((cfg4.win 4).blk t).view.read (Elt Ideal) (denseActG (V c main_v56) (V c main_arg5) (V c main_v24) (V c main_v23)) := by
  show (cfg4.win 4).cut (grid4.coords t) ((dat4 V c).after 4 t) = _
  rw [after4_4]
  unfold out4
  rw [View.canon_unit_zero zeros2]
  simp only [View.ld_unit_zero (S := S5000x64) zeros2, View.ld_unit_zero (S := S64x64) zeros2,
    View.ld_unit_zero (S := S1x64) zeros2]
  have hN : t.val < 20 := Nat.lt_of_lt_of_eq t.isLt (show cfg4.N = 20 from N_4)
  funext j
  obtain ⟨p, q, rfl⟩ : ∃ (p : Fin 5000) (q : Fin 64), j = ix2 p q := ⟨j 0, j 1, eq_ix2 j⟩
  have hr : t.val * 5000 + p.val < 100000 := by have := p.isLt; omega
  show k4_pay1 (F := Ideal) (iblk4 V c 0 t) (iblk4 V c 1 t) (iblk4 V c 2 t) (iblk4 V c 3 t) (ix2 p q)
      = denseActG (V c main_v56) (V c main_arg5) (V c main_v24) (V c main_v23) (((cfg4.win 4).blk t).view.emb (ix2 p q))
  rw [rows4_4 c t p q hr]
  exact denseAct_point (k4_pay1 (F := Ideal)) Pay.denseAct4_at (V c main_v56) (V c main_arg5) (V c main_v24) (V c main_v23) _ _ _ _ p q ⟨t.val * 5000 + p.val, hr⟩
    (fun k => rows4_0 V c t p k hr) (whole4_1 V c t) (whole4_2 V c t) (rows4_3 V c t p q hr)

/-- An index of the result array is in point `t`'s block iff each coordinate is in the block's range on its axis. -/
theorem mem_blk4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v57).slice (win4_4.rect t)).set ↔ _
  rw [View.set_slice_whole, Rect.mem_set_unit]
  exact Iff.rfl

/-- Every index of the result array is in some point's block: row `r` in block `r / 5000`. -/
theorem tiles4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have ht : (i 0).val / 5000 < cfg4.N := by rw [show cfg4.N = 20 from N_4]; omega
  refine ⟨⟨(i 0).val / 5000, ht⟩, flush4_4 _, ?_⟩
  obtain ⟨e00, e01, e10, e11, e20, e21, e30, e31, e40, e41⟩ := idx_facts4 ⟨(i 0).val / 5000, ht⟩
  rw [mem_blk4]
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win4_4.index ⟨(i 0).val / 5000, ht⟩ (1 : Fin 2) * 64 ≤ (i 1).val ∧ (i 1).val < win4_4.index ⟨(i 0).val / 5000, ht⟩ (1 : Fin 2) * 64 + 64
    rw [e41]; omega

/-- After the launch the result array is the layer of the whole arrays as the launch found them. -/
theorem final4 (c : Dev nD) :
    (dat4 V c).arrAt 4 cfg4.N = denseActG (V c main_v56) (V c main_arg5) (V c main_v24) (V c main_v23) :=
  (dat4 V c).arrAt_eq_of_cover 4 (denseActG (V c main_v56) (V c main_arg5) (V c main_v24) (V c main_v23)) (fun t _ => flushed_eq4 V c t) (tiles4)

/-! ## Launch 5 -/

/-- The index maps over the grid: the three row-blocked windows sit at block `(t, 0)`, the weight and the bias at `(0, 0)`. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Window 0's block at point `t` is rows `5000 t …` of its array: block row `p` is array row `5000 t + p`. -/
theorem rows5_0 (c : Dev nD) (t : Fin cfg5.N) (p : Fin 5000) (q : Fin 64) (hr : t.val * 5000 + p.val < 100000) :
    iblk5 V c 0 t (ix2 p q) = V c main_v67 (ix2 (⟨t.val * 5000 + p.val, hr⟩ : Fin 100000) q) := by
  obtain ⟨e00, e01, e10, e11, e20, e21, e30, e31, e40, e41⟩ := idx_facts5 t
  show V c main_v67 (((cfg5.win 0).blk t).view.emb (ix2 p q)) = V c main_v67 (ix2 (⟨t.val * 5000 + p.val, hr⟩ : Fin 100000) q)
  refine congrArg (V c main_v67) (funext fun a => Fin.ext ?_)
  match a with
  | ⟨0, _⟩ => show win5_0.index t (0 : Fin 2) * 5000 + 1 * p.val = t.val * 5000 + p.val; rw [e00]; omega
  | ⟨1, _⟩ => show win5_0.index t (1 : Fin 2) * 64 + 1 * q.val = q.val; rw [e01]; omega

/-- Window 1's block at every point is its whole array. -/
theorem whole5_1 (c : Dev nD) (t : Fin cfg5.N) : iblk5 V c 1 t = V c main_arg5 := by
  obtain ⟨e00, e01, e10, e11, e20, e21, e30, e31, e40, e41⟩ := idx_facts5 t
  funext y
  show V c main_arg5 (((cfg5.win 1).blk t).view.emb y) = V c main_arg5 y
  refine congrArg (V c main_arg5) (funext fun a => Fin.ext ?_)
  match a with
  | ⟨0, _⟩ => show win5_1.index t (0 : Fin 2) * 64 + 1 * (y 0).val = (y 0).val; rw [e10]; omega
  | ⟨1, _⟩ => show win5_1.index t (1 : Fin 2) * 64 + 1 * (y 1).val = (y 1).val; rw [e11]; omega

/-- Window 2's block at every point is its whole array. -/
theorem whole5_2 (c : Dev nD) (t : Fin cfg5.N) : iblk5 V c 2 t = V c main_v24 := by
  obtain ⟨e00, e01, e10, e11, e20, e21, e30, e31, e40, e41⟩ := idx_facts5 t
  funext y
  show V c main_v24 (((cfg5.win 2).blk t).view.emb y) = V c main_v24 y
  refine congrArg (V c main_v24) (funext fun a => Fin.ext ?_)
  match a with
  | ⟨0, _⟩ => show win5_2.index t (0 : Fin 2) * 1 + 1 * (y 0).val = (y 0).val; rw [e20]; omega
  | ⟨1, _⟩ => show win5_2.index t (1 : Fin 2) * 64 + 1 * (y 1).val = (y 1).val; rw [e21]; omega

/-- Window 3's block at point `t` is rows `5000 t …` of its array: block row `p` is array row `5000 t + p`. -/
theorem rows5_3 (c : Dev nD) (t : Fin cfg5.N) (p : Fin 5000) (q : Fin 64) (hr : t.val * 5000 + p.val < 100000) :
    iblk5 V c 3 t (ix2 p q) = V c main_v23 (ix2 (⟨t.val * 5000 + p.val, hr⟩ : Fin 100000) q) := by
  obtain ⟨e00, e01, e10, e11, e20, e21, e30, e31, e40, e41⟩ := idx_facts5 t
  show V c main_v23 (((cfg5.win 3).blk t).view.emb (ix2 p q)) = V c main_v23 (ix2 (⟨t.val * 5000 + p.val, hr⟩ : Fin 100000) q)
  refine congrArg (V c main_v23) (funext fun a => Fin.ext ?_)
  match a with
  | ⟨0, _⟩ => show win5_3.index t (0 : Fin 2) * 5000 + 1 * p.val = t.val * 5000 + p.val; rw [e30]; omega
  | ⟨1, _⟩ => show win5_3.index t (1 : Fin 2) * 64 + 1 * q.val = q.val; rw [e31]; omega

/-- The result window's block at point `t` sits at the same rows. -/
theorem rows5_4 (c : Dev nD) (t : Fin cfg5.N) (p : Fin 5000) (q : Fin 64) (hr : t.val * 5000 + p.val < 100000) :
    ((cfg5.win 4).blk t).view.emb (ix2 p q) = ix2 (⟨t.val * 5000 + p.val, hr⟩ : Fin 100000) q := by
  obtain ⟨e00, e01, e10, e11, e20, e21, e30, e31, e40, e41⟩ := idx_facts5 t
  funext a; apply Fin.ext
  match a with
  | ⟨0, _⟩ => show win5_4.index t (0 : Fin 2) * 5000 + 1 * p.val = t.val * 5000 + p.val; rw [e40]; omega
  | ⟨1, _⟩ => show win5_4.index t (1 : Fin 2) * 64 + 1 * q.val = q.val; rw [e41]; omega

/-- What grid point `t` writes back is block `t` of the layer of the whole arrays as the launch finds them. -/
theorem flushed_eq5 (c : Dev nD) (t : Fin cfg5.N) :
    (dat5 V c).flushed 4 t
      = ((cfg5.win 4).blk t).view.read (Elt Ideal) (denseActG (V c main_v67) (V c main_arg5) (V c main_v24) (V c main_v23)) := by
  show (cfg5.win 4).cut (grid5.coords t) ((dat5 V c).after 4 t) = _
  rw [after5_4]
  unfold out5
  rw [View.canon_unit_zero zeros2]
  simp only [View.ld_unit_zero (S := S5000x64) zeros2, View.ld_unit_zero (S := S64x64) zeros2,
    View.ld_unit_zero (S := S1x64) zeros2]
  have hN : t.val < 20 := Nat.lt_of_lt_of_eq t.isLt (show cfg5.N = 20 from N_5)
  funext j
  obtain ⟨p, q, rfl⟩ : ∃ (p : Fin 5000) (q : Fin 64), j = ix2 p q := ⟨j 0, j 1, eq_ix2 j⟩
  have hr : t.val * 5000 + p.val < 100000 := by have := p.isLt; omega
  show k5_pay1 (F := Ideal) (iblk5 V c 0 t) (iblk5 V c 1 t) (iblk5 V c 2 t) (iblk5 V c 3 t) (ix2 p q)
      = denseActG (V c main_v67) (V c main_arg5) (V c main_v24) (V c main_v23) (((cfg5.win 4).blk t).view.emb (ix2 p q))
  rw [rows5_4 c t p q hr]
  exact denseAct_point (k5_pay1 (F := Ideal)) Pay.denseAct5_at (V c main_v67) (V c main_arg5) (V c main_v24) (V c main_v23) _ _ _ _ p q ⟨t.val * 5000 + p.val, hr⟩
    (fun k => rows5_0 V c t p k hr) (whole5_1 V c t) (whole5_2 V c t) (rows5_3 V c t p q hr)

/-- An index of the result array is in point `t`'s block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v68).slice (win5_4.rect t)).set ↔ _
  rw [View.set_slice_whole, Rect.mem_set_unit]
  exact Iff.rfl

/-- Every index of the result array is in some point's block: row `r` in block `r / 5000`. -/
theorem tiles5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have ht : (i 0).val / 5000 < cfg5.N := by rw [show cfg5.N = 20 from N_5]; omega
  refine ⟨⟨(i 0).val / 5000, ht⟩, flush5_4 _, ?_⟩
  obtain ⟨e00, e01, e10, e11, e20, e21, e30, e31, e40, e41⟩ := idx_facts5 ⟨(i 0).val / 5000, ht⟩
  rw [mem_blk5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    rw [e41]; omega

/-- After the launch the result array is the layer of the whole arrays as the launch found them. -/
theorem final5 (c : Dev nD) :
    (dat5 V c).arrAt 4 cfg5.N = denseActG (V c main_v67) (V c main_arg5) (V c main_v24) (V c main_v23) :=
  (dat5 V c).arrAt_eq_of_cover 4 (denseActG (V c main_v67) (V c main_arg5) (V c main_v24) (V c main_v23)) (fun t _ => flushed_eq5 V c t) (tiles5)

end Cert.KernelIdeal.Hand

end
-- ==== Proof.KI.BlocksHead.lean ====
/-
  From blocks to the array, for the classifier head.

  The launch has one grid point and every window's block is its whole array: the body reads the pooled features,
  both weight matrices and both biases whole and writes the whole result column. Read at one element, what it writes
  is the logistic function of the two-layer affine expression at that row; the one block is the result array, so after
  the launch the result array is that expression at every index.
-/
import proofs.«134920_j90091234001037_2_alg».proof.Proof.KI.Reg6
import proofs.«134920_j90091234001037_2_alg».proof.Proof.Payloads
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as a constant function. -/
theorem zeros2_head : (![0, 0] : Fin 2 → Nat) = fun _ => 0 := funext fun a => by fin_cases a <;> rfl

/-- The classifier head on whole arrays: at row `i 0`, the logistic function of the hidden row against the output
    weights plus the output bias, the hidden row being the feature row against the first weights plus the first bias. -/
def headG (ge : Vec Ideal S1024x64 .f32) (w1 : Vec Ideal S64x64 .f32) (b1 : Vec Ideal S1x64 .f32)
    (w2 : Vec Ideal S64x1 .f32) (b2 : Vec Ideal S1x1 .f32) : Vec Ideal S1024x1 .f32 :=
  fun i => Ideal.logistic ((∑ k : Fin 64, ((∑ j : Fin 64, ge (ix2 (i 0) j) * w1 (ix2 j k)) + b1 (ix2 0 k)) * w2 (ix2 k 0))
    + b2 (ix2 0 0))

/-- One element of the one block, over plain variables: when every block is its whole array the body at `(p, 0)` is the
    whole-array head at `(p, 0)`. -/
theorem head_point (ge : Vec Ideal S1024x64 .f32) (w1 : Vec Ideal S64x64 .f32) (b1 : Vec Ideal S1x64 .f32)
    (w2 : Vec Ideal S64x1 .f32) (b2 : Vec Ideal S1x1 .f32) (x0 : Vec Ideal S1024x64 .f32) (x1 : Vec Ideal S64x64 .f32)
    (x2 : Vec Ideal S1x64 .f32) (x3 : Vec Ideal S64x1 .f32) (x4 : Vec Ideal S1x1 .f32) (p : Fin 1024)
    (h0 : x0 = ge) (h1 : x1 = w1) (h2 : x2 = b1) (h3 : x3 = w2) (h4 : x4 = b2) :
    k6_pay1 (F := Ideal) x0 x1 x2 x3 x4 (ix2 p 0) = headG ge w1 b1 w2 b2 (ix2 p 0) := by
  subst h0 h1 h2 h3 h4
  rw [Pay.head_at]
  rfl

/-- The index maps at the one grid point: every window sits at block `(0, 0)`. -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's one block is its whole array. -/
theorem blk6_0 (c : Dev nD) (t : Fin cfg6.N) : iblk6 V c 0 t = V c main_v79 := by
  obtain ⟨e00, e01, e10, e11, e20, e21, e30, e31, e40, e41, e50, e51⟩ := idx_facts6 t
  funext y
  show V c main_v79 (((cfg6.win 0).blk t).view.emb y) = V c main_v79 y
  refine congrArg (V c main_v79) (funext fun a => Fin.ext ?_)
  match a with
  | ⟨0, _⟩ => show win6_0.index t (0 : Fin 2) * 1024 + 1 * (y 0).val = (y 0).val; rw [e00]; omega
  | ⟨1, _⟩ => show win6_0.index t (1 : Fin 2) * 64 + 1 * (y 1).val = (y 1).val; rw [e01]; omega

/-- Window 1's one block is its whole array. -/
theorem blk6_1 (c : Dev nD) (t : Fin cfg6.N) : iblk6 V c 1 t = V c main_arg17 := by
  obtain ⟨e00, e01, e10, e11, e20, e21, e30, e31, e40, e41, e50, e51⟩ := idx_facts6 t
  funext y
  show V c main_arg17 (((cfg6.win 1).blk t).view.emb y) = V c main_arg17 y
  refine congrArg (V c main_arg17) (funext fun a => Fin.ext ?_)
  match a with
  | ⟨0, _⟩ => show win6_1.index t (0 : Fin 2) * 64 + 1 * (y 0).val = (y 0).val; rw [e10]; omega
  | ⟨1, _⟩ => show win6_1.index t (1 : Fin 2) * 64 + 1 * (y 1).val = (y 1).val; rw [e11]; omega

/-- Window 2's one block is its whole array. -/
theorem blk6_2 (c : Dev nD) (t : Fin cfg6.N) : iblk6 V c 2 t = V c main_v80 := by
  obtain ⟨e00, e01, e10, e11, e20, e21, e30, e31, e40, e41, e50, e51⟩ := idx_facts6 t
  funext y
  show V c main_v80 (((cfg6.win 2).blk t).view.emb y) = V c main_v80 y
  refine congrArg (V c main_v80) (funext fun a => Fin.ext ?_)
  match a with
  | ⟨0, _⟩ => show win6_2.index t (0 : Fin 2) * 1 + 1 * (y 0).val = (y 0).val; rw [e20]; omega
  | ⟨1, _⟩ => show win6_2.index t (1 : Fin 2) * 64 + 1 * (y 1).val = (y 1).val; rw [e21]; omega

/-- Window 3's one block is its whole array. -/
theorem blk6_3 (c : Dev nD) (t : Fin cfg6.N) : iblk6 V c 3 t = V c main_arg19 := by
  obtain ⟨e00, e01, e10, e11, e20, e21, e30, e31, e40, e41, e50, e51⟩ := idx_facts6 t
  funext y
  show V c main_arg19 (((cfg6.win 3).blk t).view.emb y) = V c main_arg19 y
  refine congrArg (V c main_arg19) (funext fun a => Fin.ext ?_)
  match a with
  | ⟨0, _⟩ => show win6_3.index t (0 : Fin 2) * 64 + 1 * (y 0).val = (y 0).val; rw [e30]; omega
  | ⟨1, _⟩ => show win6_3.index t (1 : Fin 2) * 1 + 1 * (y 1).val = (y 1).val; rw [e31]; omega

/-- Window 4's one block is its whole array. -/
theorem blk6_4 (c : Dev nD) (t : Fin cfg6.N) : iblk6 V c 4 t = V c main_v81 := by
  obtain ⟨e00, e01, e10, e11, e20, e21, e30, e31, e40, e41, e50, e51⟩ := idx_facts6 t
  funext y
  show V c main_v81 (((cfg6.win 4).blk t).view.emb y) = V c main_v81 y
  refine congrArg (V c main_v81) (funext fun a => Fin.ext ?_)
  match a with
  | ⟨0, _⟩ => show win6_4.index t (0 : Fin 2) * 1 + 1 * (y 0).val = (y 0).val; rw [e40]; omega
  | ⟨1, _⟩ => show win6_4.index t (1 : Fin 2) * 1 + 1 * (y 1).val = (y 1).val; rw [e41]; omega

/-- What the body leaves in the output block is its value of the blocks: the one store covers the block and every
    load reads a whole block. -/
theorem out6_eq (x0 : Vec Ideal S1024x64 .f32) (x1 : Vec Ideal S64x64 .f32) (x2 : Vec Ideal S1x64 .f32)
    (x3 : Vec Ideal S64x1 .f32) (x4 : Vec Ideal S1x1 .f32) :
    out6 x0 x1 x2 x3 x4 = k6_pay1 (F := Ideal) x0 x1 x2 x3 x4 := by
  unfold out6
  rw [View.canon_unit_zero zeros2_head]
  simp only [View.ld_unit_zero (S := S1024x64) zeros2_head, View.ld_unit_zero (S := S64x64) zeros2_head,
    View.ld_unit_zero (S := S1x64) zeros2_head, View.ld_unit_zero (S := S64x1) zeros2_head,
    View.ld_unit_zero (S := S1x1) zeros2_head]

/-- The result window's one block sits at the array's own indices. -/
theorem rows6_5 (t : Fin cfg6.N) (p : Fin 1024) :
    ((cfg6.win 5).blk t).view.emb (ix2 p (0 : Fin 1)) = ix2 p (0 : Fin 1) := by
  obtain ⟨e00, e01, e10, e11, e20, e21, e30, e31, e40, e41, e50, e51⟩ := idx_facts6 t
  funext a; apply Fin.ext
  match a with
  | ⟨0, _⟩ => show win6_5.index t (0 : Fin 2) * 1024 + 1 * p.val = p.val; rw [e50]; omega
  | ⟨1, _⟩ => show win6_5.index t (1 : Fin 2) * 1 + 1 * 0 = 0; rw [e51]

/-- What the grid point writes back is its block of the head of the whole arrays as the launch finds them. -/
theorem flushed_eq6 (c : Dev nD) (t : Fin cfg6.N) :
    (dat6 V c).flushed 5 t
      = ((cfg6.win 5).blk t).view.read (Elt Ideal)
          (headG (V c main_v79) (V c main_arg17) (V c main_v80) (V c main_arg19) (V c main_v81)) := by
  show (cfg6.win 5).cut (grid6.coords t) ((dat6 V c).after 5 t) = _
  rw [after6_5, out6_eq]
  funext j
  obtain ⟨p, q, rfl⟩ : ∃ (p : Fin 1024) (q : Fin 1), j = ix2 p q := ⟨j 0, j 1, eq_ix2 j⟩
  obtain rfl : q = 0 := Subsingleton.elim _ _
  show k6_pay1 (F := Ideal) (iblk6 V c 0 t) (iblk6 V c 1 t) (iblk6 V c 2 t) (iblk6 V c 3 t) (iblk6 V c 4 t) (ix2 p (0 : Fin 1))
      = headG (V c main_v79) (V c main_arg17) (V c main_v80) (V c main_arg19) (V c main_v81)
          (((cfg6.win 5).blk t).view.emb (ix2 p (0 : Fin 1)))
  rw [rows6_5 t p]
  exact head_point (V c main_v79) (V c main_arg17) (V c main_v80) (V c main_arg19) (V c main_v81) _ _ _ _ _ p
    (blk6_0 V c t) (blk6_1 V c t) (blk6_2 V c t) (blk6_3 V c t) (blk6_4 V c t)

/-- An index of the result array is in the point's block iff each coordinate is in the block's range on its axis. -/
theorem mem_blk6 (t : Fin cfg6.N) (i : S1024x1.Idx) :
    i ∈ ((cfg6.win 5).blk t).view.set ↔ ∀ a : Fin 2, win6_5.index t a * S1024x1.size a ≤ (i a).val ∧ (i a).val < win6_5.index t a * S1024x1.size a + S1024x1.size a := by
  show i ∈ ((View.whole main_v82).slice (win6_5.rect t)).set ↔ _
  rw [View.set_slice_whole, Rect.mem_set_unit]
  exact Iff.rfl

/-- Every index of the result array is in the one point's block. -/
theorem tiles6 (i : S1024x1.Idx) :
    ∃ t : Fin cfg6.N, (cfg6.win 5).flush t = true ∧ i ∈ ((cfg6.win 5).blk t).view.set := by
  have hi0 : (i 0).val < 1024 := (i 0).isLt
  have hi1 : (i 1).val < 1 := (i 1).isLt
  refine ⟨t6_0, flush6_5 _, ?_⟩
  obtain ⟨e00, e01, e10, e11, e20, e21, e30, e31, e40, e41, e50, e51⟩ := idx_facts6 t6_0
  rw [mem_blk6]
  intro a
  match a with
  | ⟨0, _⟩ =>
    show win6_5.index t6_0 (0 : Fin 2) * 1024 ≤ (i 0).val ∧ (i 0).val < win6_5.index t6_0 (0 : Fin 2) * 1024 + 1024
    rw [e50]; omega
  | ⟨1, _⟩ =>
    show win6_5.index t6_0 (1 : Fin 2) * 1 ≤ (i 1).val ∧ (i 1).val < win6_5.index t6_0 (1 : Fin 2) * 1 + 1
    rw [e51]; omega

/-- After the launch the result array is the head of the whole arrays as the launch found them. -/
theorem final6 (c : Dev nD) :
    (dat6 V c).arrAt 5 cfg6.N = headG (V c main_v79) (V c main_arg17) (V c main_v80) (V c main_arg19) (V c main_v81) :=
  (dat6 V c).arrAt_eq_of_cover 5 (headG (V c main_v79) (V c main_arg17) (V c main_v80) (V c main_arg19) (V c main_v81))
    (fun t _ => flushed_eq6 V c t) (tiles6)

end Cert.KernelIdeal.Hand

end
-- ==== Proof.RefStages.lean ====
/-
  The reference program's result, read stage by stage at an index.

  Each dense stage of the reference is written as a whole-array function of the stage before it: the edge
  transform, the edge term's second dense layer, the four message-passing rounds, and the classifier head. The
  scatter-adds, gathers and the concatenation are left as the named stages they are.
-/
import proofs.«134920_j90091234001037_2_alg».proof.Proof.RefRead
import proofs.«134920_j90091234001037_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic
open Idealize.ShloMosaic.ValueIdx (ix1 ix2 eq_ix2)

/-- A select on "v is at least zero" between v and the slope literal times v is the leaky rectifier of v. -/
theorem select_leaky (v : Ideal .f32) :
    Scalar.select (FloatOps.cmpf .oge v (FloatOps.ofBits (F := Ideal) .f32 0x00000000#32)) v
        (FloatOps.mulf (FloatOps.ofBits (F := Ideal) .f32 0x3C23D70A#32) v)
      = Spec.leaky v := by
  unfold Spec.leaky Spec.slope
  simp only [Ideal.cmpf_def, Ideal.ofBits_def, Ideal.ofBits_zero_f32, Ideal.mulf_def, Ideal.cmp, Scalar.select]
  by_cases h : (0 : EReal) ≤ v
  · rw [if_pos h, decide_eq_true h]; rfl
  · rw [if_neg h, decide_eq_false h]; rfl

variable (x0 : (⟨S20000x2, .f32⟩ : BufTy).Contents (Elt Ideal))
  (x1 : (⟨S40000x3, .f32⟩ : BufTy).Contents (Elt Ideal))
  (x2 : (⟨S40000x2, .f32⟩ : BufTy).Contents (Elt Ideal))
  (x3 : (⟨S1250000x1, .f32⟩ : BufTy).Contents (Elt Ideal))
  (x4 : (⟨S100000x64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S1x64, .f32⟩ : BufTy).Contents (Elt Ideal))
  (x10 : (⟨S64, .f32⟩ : BufTy).Contents (Elt Ideal))
  (x11 : (⟨S2x64, .f32⟩ : BufTy).Contents (Elt Ideal))
  (x12 : (⟨S64, .f32⟩ : BufTy).Contents (Elt Ideal))
  (x13 : (⟨S3x64, .f32⟩ : BufTy).Contents (Elt Ideal))
  (x14 : (⟨S64, .f32⟩ : BufTy).Contents (Elt Ideal))
  (x15 : (⟨S2x64, .f32⟩ : BufTy).Contents (Elt Ideal))
  (x16 : (⟨S64, .f32⟩ : BufTy).Contents (Elt Ideal))
  (x17 : (⟨S64x64, .f32⟩ : BufTy).Contents (Elt Ideal))
  (x18 : (⟨S64, .f32⟩ : BufTy).Contents (Elt Ideal))
  (x19 : (⟨S64x1, .f32⟩ : BufTy).Contents (Elt Ideal))
  (x20 : (⟨S1, .f32⟩ : BufTy).Contents (Elt Ideal))
  (x21 : (⟨S2x1250000, .i32⟩ : BufTy).Contents (Elt Ideal))
  (x23 : (⟨S100000, .i32⟩ : BufTy).Contents (Elt Ideal))

/-- The edge transform: the rectifier of the edge feature times the weight row, plus the bias (the contraction has
    one term). -/
theorem edge_eq :
    val_main_v12 (F := Ideal) x3 x9 x10 = fun i => Spec.leaky (x3 (ix2 (n0 := 1250000) (n1 := 1) (i 0) 0) * x9 (ix2 (n0 := 1) (n1 := 64) 0 (i 1)) + x10 (ix1 (n := 64) (i 1))) := by
  funext i
  have el : lidx_main_v4 i 0 = ix2 (n0 := 1250000) (n1 := 1) (i 0) 0 := funext fun a => by
    match a with
    | ⟨0, _⟩ => rfl
    | ⟨1, _⟩ => rfl
  have er : ridx_main_v4 i 0 = ix2 (n0 := 1) (n1 := 64) 0 (i 1) := funext fun a => by
    match a with
    | ⟨0, _⟩ => rfl
    | ⟨1, _⟩ => rfl
  have eb : idx_main_v5 (idx_main_v6 i) = ix1 (n := 64) (i 1) := funext fun a => by
    match a with
    | ⟨0, _⟩ => rfl
  rw [val_main_v12_apply, val_main_v9_apply, val_main_v11_apply, val_main_v8_apply, val_main_cst_apply,
    val_main_v10_apply, val_main_cst_0_apply, select_leaky, val_main_v7_apply, val_main_v4_apply, val_main_v6_apply,
    val_main_v5_apply, Fin.sum_univ_one]
  simp only [el, er, eb, Ideal.addf_def]

/-- The same transform read at the edge `e` and the feature `q`. -/
theorem edge_apply (e : Fin 1250000) (q : Fin 64) :
    val_main_v12 (F := Ideal) x3 x9 x10 (ix2 e q) = Spec.leaky (x3 (ix2 e 0) * x9 (ix2 0 q) + x10 (ix1 q)) :=
  congrFun (edge_eq x3 x9 x10) (ix2 e q)

/-- The edge term's second dense layer: the aggregated edge features' row times the weight matrix, plus the bias. -/
theorem theta2_eq :
    val_main_v19 (F := Ideal) x3 x7 x8 x9 x10 x21 = fun i => (∑ k : Fin 64, (val_main_v15 (F := Ideal) x3 x9 x10 x21) (ix2 (n0 := 100000) (i 0) k) * x7 (ix2 (n1 := 64) k (i 1))) + x8 (ix1 (n := 64) (i 1)) := by
  funext i
  have el : ∀ k : Fin 64, lidx_main_v16 i k = ix2 (n0 := 100000) (i 0) k := fun k => funext fun a => by
    match a with
    | ⟨0, _⟩ => rfl
    | ⟨1, _⟩ => rfl
  have er : ∀ k : Fin 64, ridx_main_v16 i k = ix2 (n1 := 64) k (i 1) := fun k => funext fun a => by
    match a with
    | ⟨0, _⟩ => rfl
    | ⟨1, _⟩ => rfl
  have eb : idx_main_v17 (idx_main_v18 i) = ix1 (n := 64) (i 1) := funext fun a => by
    match a with
    | ⟨0, _⟩ => rfl
  rw [val_main_v19_apply, val_main_v16_apply, val_main_v18_apply, val_main_v17_apply]
  simp only [el, er, eb, Ideal.addf_def]

/-- The same layer read at the node `p` and the feature `q`. -/
theorem theta2_apply (p : Fin 100000) (q : Fin 64) :
    val_main_v19 (F := Ideal) x3 x7 x8 x9 x10 x21 (ix2 p q) = (∑ k : Fin 64, (val_main_v15 (F := Ideal) x3 x9 x10 x21) (ix2 p k) * x7 (ix2 k q)) + x8 (ix1 q) :=
  congrFun (theta2_eq x3 x7 x8 x9 x10 x21) (ix2 p q)

/-- First message-passing round: the rectifier of the aggregated neighbours' row times the weight matrix, plus the bias,
    plus the edge term, plus the node-type term. -/
theorem round1_eq :
    val_main_v53 (F := Ideal) x0 x1 x2 x3 x4 x5 x6 x7 x8 x9 x10 x11 x12 x13 x14 x15 x16 x21 = fun i => Spec.leaky ((((∑ k : Fin 64, (val_main_v42 (F := Ideal) x4 x21) (ix2 (n0 := 100000) (i 0) k) * x5 (ix2 (n1 := 64) k (i 1))) + x6 (ix1 (n := 64) (i 1))) + val_main_v19 (F := Ideal) x3 x7 x8 x9 x10 x21 i) + val_main_v32 (F := Ideal) x0 x1 x2 x11 x12 x13 x14 x15 x16 i) := by
  funext i
  have el : ∀ k : Fin 64, lidx_main_v43 i k = ix2 (n0 := 100000) (i 0) k := fun k => funext fun a => by
    match a with
    | ⟨0, _⟩ => rfl
    | ⟨1, _⟩ => rfl
  have er : ∀ k : Fin 64, ridx_main_v43 i k = ix2 (n1 := 64) k (i 1) := fun k => funext fun a => by
    match a with
    | ⟨0, _⟩ => rfl
    | ⟨1, _⟩ => rfl
  have eb : idx_main_v44 (idx_main_v45 i) = ix1 (n := 64) (i 1) := funext fun a => by
    match a with
    | ⟨0, _⟩ => rfl
  rw [val_main_v53_apply, val_main_v50_apply, val_main_v52_apply, val_main_v49_apply, val_main_cst_4_apply,
    val_main_v51_apply, val_main_cst_5_apply, select_leaky, val_main_v48_apply, val_main_v47_apply, val_main_v46_apply,
    val_main_v43_apply, val_main_v45_apply, val_main_v44_apply]
  simp only [el, er, eb, Ideal.addf_def]

/-- The same round read at the node `p` and the feature `q`. -/
theorem round1_apply (p : Fin 100000) (q : Fin 64) :
    val_main_v53 (F := Ideal) x0 x1 x2 x3 x4 x5 x6 x7 x8 x9 x10 x11 x12 x13 x14 x15 x16 x21 (ix2 p q) = Spec.leaky ((((∑ k : Fin 64, (val_main_v42 (F := Ideal) x4 x21) (ix2 p k) * x5 (ix2 k q)) + x6 (ix1 q)) + val_main_v19 (F := Ideal) x3 x7 x8 x9 x10 x21 (ix2 p q)) + val_main_v32 (F := Ideal) x0 x1 x2 x11 x12 x13 x14 x15 x16 (ix2 p q)) :=
  congrFun (round1_eq x0 x1 x2 x3 x4 x5 x6 x7 x8 x9 x10 x11 x12 x13 x14 x15 x16 x21) (ix2 p q)

/-- Second message-passing round: the rectifier of the aggregated neighbours' row times the weight matrix, plus the bias,
    plus the edge term, plus the node-type term. -/
theorem round2_eq :
    val_main_v74 (F := Ideal) x0 x1 x2 x3 x4 x5 x6 x7 x8 x9 x10 x11 x12 x13 x14 x15 x16 x21 = fun i => Spec.leaky ((((∑ k : Fin 64, (val_main_v63 (F := Ideal) x0 x1 x2 x3 x4 x5 x6 x7 x8 x9 x10 x11 x12 x13 x14 x15 x16 x21) (ix2 (n0 := 100000) (i 0) k) * x5 (ix2 (n1 := 64) k (i 1))) + x6 (ix1 (n := 64) (i 1))) + val_main_v19 (F := Ideal) x3 x7 x8 x9 x10 x21 i) + val_main_v32 (F := Ideal) x0 x1 x2 x11 x12 x13 x14 x15 x16 i) := by
  funext i
  have el : ∀ k : Fin 64, lidx_main_v64 i k = ix2 (n0 := 100000) (i 0) k := fun k => funext fun a => by
    match a with
    | ⟨0, _⟩ => rfl
    | ⟨1, _⟩ => rfl
  have er : ∀ k : Fin 64, ridx_main_v64 i k = ix2 (n1 := 64) k (i 1) := fun k => funext fun a => by
    match a with
    | ⟨0, _⟩ => rfl
    | ⟨1, _⟩ => rfl
  have eb : idx_main_v65 (idx_main_v66 i) = ix1 (n := 64) (i 1) := funext fun a => by
    match a with
    | ⟨0, _⟩ => rfl
  rw [val_main_v74_apply, val_main_v71_apply, val_main_v73_apply, val_main_v70_apply, val_main_cst_9_apply,
    val_main_v72_apply, val_main_cst_10_apply, select_leaky, val_main_v69_apply, val_main_v68_apply, val_main_v67_apply,
    val_main_v64_apply, val_main_v66_apply, val_main_v65_apply]
  simp only [el, er, eb, Ideal.addf_def]

/-- The same round read at the node `p` and the feature `q`. -/
theorem round2_apply (p : Fin 100000) (q : Fin 64) :
    val_main_v74 (F := Ideal) x0 x1 x2 x3 x4 x5 x6 x7 x8 x9 x10 x11 x12 x13 x14 x15 x16 x21 (ix2 p q) = Spec.leaky ((((∑ k : Fin 64, (val_main_v63 (F := Ideal) x0 x1 x2 x3 x4 x5 x6 x7 x8 x9 x10 x11 x12 x13 x14 x15 x16 x21) (ix2 p k) * x5 (ix2 k q)) + x6 (ix1 q)) + val_main_v19 (F := Ideal) x3 x7 x8 x9 x10 x21 (ix2 p q)) + val_main_v32 (F := Ideal) x0 x1 x2 x11 x12 x13 x14 x15 x16 (ix2 p q)) :=
  congrFun (round2_eq x0 x1 x2 x3 x4 x5 x6 x7 x8 x9 x10 x11 x12 x13 x14 x15 x16 x21) (ix2 p q)

/-- Third message-passing round: the rectifier of the aggregated neighbours' row times the weight matrix, plus the bias,
    plus the edge term, plus the node-type term. -/
theorem round3_eq :
    val_main_v95 (F := Ideal) x0 x1 x2 x3 x4 x5 x6 x7 x8 x9 x10 x11 x12 x13 x14 x15 x16 x21 = fun i => Spec.leaky ((((∑ k : Fin 64, (val_main_v84 (F := Ideal) x0 x1 x2 x3 x4 x5 x6 x7 x8 x9 x10 x11 x12 x13 x14 x15 x16 x21) (ix2 (n0 := 100000) (i 0) k) * x5 (ix2 (n1 := 64) k (i 1))) + x6 (ix1 (n := 64) (i 1))) + val_main_v19 (F := Ideal) x3 x7 x8 x9 x10 x21 i) + val_main_v32 (F := Ideal) x0 x1 x2 x11 x12 x13 x14 x15 x16 i) := by
  funext i
  have el : ∀ k : Fin 64, lidx_main_v85 i k = ix2 (n0 := 100000) (i 0) k := fun k => funext fun a => by
    match a with
    | ⟨0, _⟩ => rfl
    | ⟨1, _⟩ => rfl
  have er : ∀ k : Fin 64, ridx_main_v85 i k = ix2 (n1 := 64) k (i 1) := fun k => funext fun a => by
    match a with
    | ⟨0, _⟩ => rfl
    | ⟨1, _⟩ => rfl
  have eb : idx_main_v86 (idx_main_v87 i) = ix1 (n := 64) (i 1) := funext fun a => by
    match a with
    | ⟨0, _⟩ => rfl
  rw [val_main_v95_apply, val_main_v92_apply, val_main_v94_apply, val_main_v91_apply, val_main_cst_14_apply,
    val_main_v93_apply, val_main_cst_15_apply, select_leaky, val_main_v90_apply, val_main_v89_apply, val_main_v88_apply,
    val_main_v85_apply, val_main_v87_apply, val_main_v86_apply]
  simp only [el, er, eb, Ideal.addf_def]

/-- The same round read at the node `p` and the feature `q`. -/
theorem round3_apply (p : Fin 100000) (q : Fin 64) :
    val_main_v95 (F := Ideal) x0 x1 x2 x3 x4 x5 x6 x7 x8 x9 x10 x11 x12 x13 x14 x15 x16 x21 (ix2 p q) = Spec.leaky ((((∑ k : Fin 64, (val_main_v84 (F := Ideal) x0 x1 x2 x3 x4 x5 x6 x7 x8 x9 x10 x11 x12 x13 x14 x15 x16 x21) (ix2 p k) * x5 (ix2 k q)) + x6 (ix1 q)) + val_main_v19 (F := Ideal) x3 x7 x8 x9 x10 x21 (ix2 p q)) + val_main_v32 (F := Ideal) x0 x1 x2 x11 x12 x13 x14 x15 x16 (ix2 p q)) :=
  congrFun (round3_eq x0 x1 x2 x3 x4 x5 x6 x7 x8 x9 x10 x11 x12 x13 x14 x15 x16 x21) (ix2 p q)

/-- Fourth message-passing round: the rectifier of the aggregated neighbours' row times the weight matrix, plus the bias,
    plus the edge term, plus the node-type term. -/
theorem round4_eq :
    val_main_v116 (F := Ideal) x0 x1 x2 x3 x4 x5 x6 x7 x8 x9 x10 x11 x12 x13 x14 x15 x16 x21 = fun i => Spec.leaky ((((∑ k : Fin 64, (val_main_v105 (F := Ideal) x0 x1 x2 x3 x4 x5 x6 x7 x8 x9 x10 x11 x12 x13 x14 x15 x16 x21) (ix2 (n0 := 100000) (i 0) k) * x5 (ix2 (n1 := 64) k (i 1))) + x6 (ix1 (n := 64) (i 1))) + val_main_v19 (F := Ideal) x3 x7 x8 x9 x10 x21 i) + val_main_v32 (F := Ideal) x0 x1 x2 x11 x12 x13 x14 x15 x16 i) := by
  funext i
  have el : ∀ k : Fin 64, lidx_main_v106 i k = ix2 (n0 := 100000) (i 0) k := fun k => funext fun a => by
    match a with
    | ⟨0, _⟩ => rfl
    | ⟨1, _⟩ => rfl
  have er : ∀ k : Fin 64, ridx_main_v106 i k = ix2 (n1 := 64) k (i 1) := fun k => funext fun a => by
    match a with
    | ⟨0, _⟩ => rfl
    | ⟨1, _⟩ => rfl
  have eb : idx_main_v107 (idx_main_v108 i) = ix1 (n := 64) (i 1) := funext fun a => by
    match a with
    | ⟨0, _⟩ => rfl
  rw [val_main_v116_apply, val_main_v113_apply, val_main_v115_apply, val_main_v112_apply, val_main_cst_19_apply,
    val_main_v114_apply, val_main_cst_20_apply, select_leaky, val_main_v111_apply, val_main_v110_apply, val_main_v109_apply,
    val_main_v106_apply, val_main_v108_apply, val_main_v107_apply]
  simp only [el, er, eb, Ideal.addf_def]

/-- The same round read at the node `p` and the feature `q`. -/
theorem round4_apply (p : Fin 100000) (q : Fin 64) :
    val_main_v116 (F := Ideal) x0 x1 x2 x3 x4 x5 x6 x7 x8 x9 x10 x11 x12 x13 x14 x15 x16 x21 (ix2 p q) = Spec.leaky ((((∑ k : Fin 64, (val_main_v105 (F := Ideal) x0 x1 x2 x3 x4 x5 x6 x7 x8 x9 x10 x11 x12 x13 x14 x15 x16 x21) (ix2 p k) * x5 (ix2 k q)) + x6 (ix1 q)) + val_main_v19 (F := Ideal) x3 x7 x8 x9 x10 x21 (ix2 p q)) + val_main_v32 (F := Ideal) x0 x1 x2 x11 x12 x13 x14 x15 x16 (ix2 p q)) :=
  congrFun (round4_eq x0 x1 x2 x3 x4 x5 x6 x7 x8 x9 x10 x11 x12 x13 x14 x15 x16 x21) (ix2 p q)

/-- The literal one, read as an extended real. -/
theorem ofBits_one_f32 : Ideal.ofBits .f32 0x3F800000#32 = 1 := IdealRules.sign_bit.ideal_onePat .f32

/-- The classifier head: the logistic function of the two dense layers applied to the per-graph mean. The program
    spells the logistic function as one over one plus the exponential of the negated argument. -/
theorem head_eq :
    val_main_v141 (F := Ideal) x0 x1 x2 x3 x4 x5 x6 x7 x8 x9 x10 x11 x12 x13 x14 x15 x16 x17 x18 x19 x20 x21 x23 = fun i => Ideal.logistic ((∑ k : Fin 64, ((∑ j : Fin 64, (val_main_v127 (F := Ideal) x0 x1 x2 x3 x4 x5 x6 x7 x8 x9 x10 x11 x12 x13 x14 x15 x16 x21 x23) (ix2 (n0 := 1024) (i 0) j) * x17 (ix2 j k)) + x18 (ix1 k)) * x19 (ix2 (n1 := 1) k 0)) + x20 (ix1 (n := 1) 0)) := by
  funext i
  have el2 : ∀ k : Fin 64, lidx_main_v132 i k = ix2 (n0 := 1024) (i 0) k := fun k => funext fun a => by
    match a with
    | ⟨0, _⟩ => rfl
    | ⟨1, _⟩ => rfl
  have er2 : ∀ k : Fin 64, ridx_main_v132 i k = ix2 (n1 := 1) k 0 := fun k => funext fun a => by
    match a with
    | ⟨0, _⟩ => rfl
    | ⟨1, _⟩ => exact Fin.ext (Nat.lt_one_iff.mp (i 1).isLt)
  have el1 : ∀ (k j : Fin 64), lidx_main_v128 (ix2 (n0 := 1024) (i 0) k) j = ix2 (n0 := 1024) (i 0) j := fun k j => funext fun a => by
    match a with
    | ⟨0, _⟩ => rfl
    | ⟨1, _⟩ => rfl
  have er1 : ∀ (k j : Fin 64), ridx_main_v128 (ix2 (n0 := 1024) (i 0) k) j = ix2 j k := fun k j => funext fun a => by
    match a with
    | ⟨0, _⟩ => rfl
    | ⟨1, _⟩ => rfl
  have eb1 : ∀ (k : Fin 64), idx_main_v129 (idx_main_v130 (ix2 (n0 := 1024) (i 0) k)) = ix1 k := fun k => funext fun a => by
    match a with
    | ⟨0, _⟩ => rfl
  have eb2 : idx_main_v133 (idx_main_v134 i) = ix1 (n := 1) 0 := funext fun a => by
    match a with
    | ⟨0, _⟩ => rfl
  rw [val_main_v141_apply, val_main_v140_apply, val_main_cst_26_apply, val_main_v139_apply, val_main_v138_apply,
    val_main_cst_25_apply, val_main_v137_apply, val_main_v136_apply, val_main_v135_apply, val_main_v132_apply,
    val_main_v134_apply, val_main_v133_apply]
  simp only [el2, er2, eb2, val_main_v131_apply, val_main_v128_apply, val_main_v130_apply, val_main_v129_apply, el1, er1, eb1,
    Ideal.addf_def, Ideal.hostDivf_def, Ideal.hostUnary_exp_def, Ideal.hostNegf_def, Ideal.negf_def, Ideal.ofBits_def,
    ofBits_one_f32, Ideal.logistic]

/-- The same head read at the graph `g`. -/
theorem head_apply (g : Fin 1024) :
    val_main_v141 (F := Ideal) x0 x1 x2 x3 x4 x5 x6 x7 x8 x9 x10 x11 x12 x13 x14 x15 x16 x17 x18 x19 x20 x21 x23 (ix2 g 0) = Ideal.logistic ((∑ k : Fin 64, ((∑ j : Fin 64, (val_main_v127 (F := Ideal) x0 x1 x2 x3 x4 x5 x6 x7 x8 x9 x10 x11 x12 x13 x14 x15 x16 x21 x23) (ix2 g j) * x17 (ix2 j k)) + x18 (ix1 k)) * x19 (ix2 k 0)) + x20 (ix1 0)) :=
  congrFun (head_eq x0 x1 x2 x3 x4 x5 x6 x7 x8 x9 x10 x11 x12 x13 x14 x15 x16 x17 x18 x19 x20 x21 x23) (ix2 g 0)

end Cert.ReferenceIdeal.RefValue

end
-- ==== Proof.KI.Bridge.lean ====
/-
  Launch by launch, the idealized kernel's arrays are the reference's stages.

  Over the extended reals the edge transform, the dense layer, the four message-passing rounds and the classifier head
  of the kernel compute, row by row, the same sums and the same rectifier or logistic as the reference's host
  operations; the scatter-adds, gathers, the concatenation and the per-graph mean between them are the same host
  operations on both sides. The one rearrangement is in the rounds: the kernel adds the two loop-invariant terms to each
  other before adding them to the row's affine image, the reference adds them one after the other, and addition of
  extended reals is associative.
-/
import proofs.«134920_j90091234001037_2_alg».proof.Proof.KI.Entry
import proofs.«134920_j90091234001037_2_alg».proof.Proof.KI.BlocksEdge
import proofs.«134920_j90091234001037_2_alg».proof.Proof.KI.BlocksDense
import proofs.«134920_j90091234001037_2_alg».proof.Proof.KI.BlocksHead
import proofs.«134920_j90091234001037_2_alg».proof.Proof.RefStages

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The edge function at an edge and a column. -/
theorem edgeG_at (ea : Vec Ideal S1250000x1 .f32) (w b : Vec Ideal S1x64 .f32) (e : Fin 1250000) (q : Fin 64) :
    edgeG ea w b (ix2 e q) = Spec.leaky (ea (ix2 e (0 : Fin 1)) * w (ix2 (0 : Fin 1) q) + b (ix2 (0 : Fin 1) q)) := rfl

/-- The edge transform: the rectifier of edge feature times weight plus bias, the reference's one-term contraction. -/
theorem st0 : a0 m c = Cert.ReferenceIdeal.Read.val_main_v12 (F := Ideal) (m ((c : Thread nD τ).loc main_arg3)) (m ((c : Thread nD τ).loc main_arg9)) (m ((c : Thread nD τ).loc main_arg10)) := by
  unfold a0
  rw [final0 (fun c b => U1 m c b) c]
  show edgeG (U1 m c main_arg3) (U1 m c main_arg9) (U1 m c main_v4) = _
  rw [ent0_ea m c, ent0_w m c]
  funext i
  obtain ⟨e, q, rfl⟩ : ∃ (e : Fin 1250000) (q : Fin 64), i = ix2 e q := ⟨i 0, i 1, eq_ix2 i⟩
  rw [Cert.ReferenceIdeal.RefValue.edge_apply]
  rw [edgeG_at, ent0_b m c q]

/-- The dense layer without rectifier: the aggregated edge term times the weight plus the bias, plus the per-type term. -/
theorem st1 : a1 m c = fun i => Cert.ReferenceIdeal.Read.val_main_v19 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg21)) i + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) i := by
  unfold a1
  rw [final1 (fun c b => U3 m c b) c]
  show denseG (U3 m c main_v8) (U3 m c main_arg7) (U3 m c main_v22) (U3 m c main_v21) = _
  rw [ent1_agg m c (st0 m c), ent1_w m c, ent1_add m c]
  funext i
  obtain ⟨p, q, rfl⟩ : ∃ (p : Fin 100000) (q : Fin 64), i = ix2 p q := ⟨i 0, i 1, eq_ix2 i⟩
  rw [Cert.ReferenceIdeal.RefValue.theta2_apply]
  unfold denseG
  show ((∑ k : Fin 64, Cert.ReferenceIdeal.Read.val_main_v15 (F := Ideal) (m ((c : Thread nD τ).loc main_arg3)) (m ((c : Thread nD τ).loc main_arg9)) (m ((c : Thread nD τ).loc main_arg10)) (m ((c : Thread nD τ).loc main_arg21)) (ix2 p k) * (m ((c : Thread nD τ).loc main_arg7)) (ix2 k q)) + U3 m c main_v22 (ix2 (0 : Fin 1) q))
      + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 p q) = _
  rw [ent1_b m c q]

/-- Round 1: the launch's output array is the reference's stage. Row by row both are the rectifier of the aggregated
    row times the weight, plus the bias, plus the two loop-invariant terms; the kernel adds those two to each other
    first, the reference one after the other: the sum of extended reals is associative. -/
theorem st2 : a2 m c = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  unfold a2
  rw [final2 (fun c b => U5 m c b) c]
  show denseActG (U5 m c main_v34) (U5 m c main_arg5) (U5 m c main_v24) (U5 m c main_v23) = _
  rw [ent2_agg m c, ent2_w m c, ent2_add m c, st1 m c]
  funext i
  obtain ⟨p, q, rfl⟩ : ∃ (p : Fin 100000) (q : Fin 64), i = ix2 p q := ⟨i 0, i 1, eq_ix2 i⟩
  rw [Cert.ReferenceIdeal.RefValue.round1_apply]
  unfold denseActG denseG
  show Spec.leaky (((∑ k : Fin 64, Cert.ReferenceIdeal.Read.val_main_v42 (F := Ideal) (m ((c : Thread nD τ).loc main_arg4)) (m ((c : Thread nD τ).loc main_arg21)) (ix2 p k) * (m ((c : Thread nD τ).loc main_arg5)) (ix2 k q)) + U5 m c main_v24 (ix2 (0 : Fin 1) q))
      + (Cert.ReferenceIdeal.Read.val_main_v19 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg21)) (ix2 p q) + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 p q))) = _
  rw [ent2_b m c q, ← add_assoc]

/-- Round 2: the launch's output array is the reference's stage. Row by row both are the rectifier of the aggregated
    row times the weight, plus the bias, plus the two loop-invariant terms; the kernel adds those two to each other
    first, the reference one after the other: the sum of extended reals is associative. -/
theorem st3 : a3 m c = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  unfold a3
  rw [final3 (fun c b => U7 m c b) c]
  show denseActG (U7 m c main_v45) (U7 m c main_arg5) (U7 m c main_v24) (U7 m c main_v23) = _
  rw [ent3_agg m c (st2 m c), ent3_w m c, ent3_add m c, st1 m c]
  funext i
  obtain ⟨p, q, rfl⟩ : ∃ (p : Fin 100000) (q : Fin 64), i = ix2 p q := ⟨i 0, i 1, eq_ix2 i⟩
  rw [Cert.ReferenceIdeal.RefValue.round2_apply]
  unfold denseActG denseG
  show Spec.leaky (((∑ k : Fin 64, Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (ix2 p k) * (m ((c : Thread nD τ).loc main_arg5)) (ix2 k q)) + U7 m c main_v24 (ix2 (0 : Fin 1) q))
      + (Cert.ReferenceIdeal.Read.val_main_v19 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg21)) (ix2 p q) + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 p q))) = _
  rw [ent3_b m c q, ← add_assoc]

/-- Round 3: the launch's output array is the reference's stage. Row by row both are the rectifier of the aggregated
    row times the weight, plus the bias, plus the two loop-invariant terms; the kernel adds those two to each other
    first, the reference one after the other: the sum of extended reals is associative. -/
theorem st4 : a4 m c = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  unfold a4
  rw [final4 (fun c b => U9 m c b) c]
  show denseActG (U9 m c main_v56) (U9 m c main_arg5) (U9 m c main_v24) (U9 m c main_v23) = _
  rw [ent4_agg m c (st3 m c), ent4_w m c, ent4_add m c, st1 m c]
  funext i
  obtain ⟨p, q, rfl⟩ : ∃ (p : Fin 100000) (q : Fin 64), i = ix2 p q := ⟨i 0, i 1, eq_ix2 i⟩
  rw [Cert.ReferenceIdeal.RefValue.round3_apply]
  unfold denseActG denseG
  show Spec.leaky (((∑ k : Fin 64, Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (ix2 p k) * (m ((c : Thread nD τ).loc main_arg5)) (ix2 k q)) + U9 m c main_v24 (ix2 (0 : Fin 1) q))
      + (Cert.ReferenceIdeal.Read.val_main_v19 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg21)) (ix2 p q) + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 p q))) = _
  rw [ent4_b m c q, ← add_assoc]

/-- Round 4: the launch's output array is the reference's stage. Row by row both are the rectifier of the aggregated
    row times the weight, plus the bias, plus the two loop-invariant terms; the kernel adds those two to each other
    first, the reference one after the other: the sum of extended reals is associative. -/
theorem st5 : a5 m c = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) := by
  unfold a5
  rw [final5 (fun c b => U11 m c b) c]
  show denseActG (U11 m c main_v67) (U11 m c main_arg5) (U11 m c main_v24) (U11 m c main_v23) = _
  rw [ent5_agg m c (st4 m c), ent5_w m c, ent5_add m c, st1 m c]
  funext i
  obtain ⟨p, q, rfl⟩ : ∃ (p : Fin 100000) (q : Fin 64), i = ix2 p q := ⟨i 0, i 1, eq_ix2 i⟩
  rw [Cert.ReferenceIdeal.RefValue.round4_apply]
  unfold denseActG denseG
  show Spec.leaky (((∑ k : Fin 64, Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (ix2 p k) * (m ((c : Thread nD τ).loc main_arg5)) (ix2 k q)) + U11 m c main_v24 (ix2 (0 : Fin 1) q))
      + (Cert.ReferenceIdeal.Read.val_main_v19 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg21)) (ix2 p q) + Cert.ReferenceIdeal.Read.val_main_v32 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 p q))) = _
  rw [ent5_b m c q, ← add_assoc]

/-- The head: the logistic of the second affine map of the first affine map of each graph's mean row. -/
theorem st6 : a6 m c = Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg23)) := by
  unfold a6
  rw [final6 (fun c b => U13 m c b) c]
  show headG (U13 m c main_v79) (U13 m c main_arg17) (U13 m c main_v80) (U13 m c main_arg19) (U13 m c main_v81) = _
  rw [ent6_ge m c (st5 m c), ent6_w1 m c, ent6_w2 m c]
  funext i
  obtain ⟨g, j, rfl⟩ : ∃ (g : Fin 1024) (j : Fin 1), i = ix2 g j := ⟨i 0, i 1, eq_ix2 i⟩
  obtain rfl : j = 0 := Subsingleton.elim _ _
  rw [Cert.ReferenceIdeal.RefValue.head_apply]
  unfold headG
  show Ideal.logistic ((∑ k : Fin 64, ((∑ j : Fin 64, Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg23)) (ix2 g j) * (m ((c : Thread nD τ).loc main_arg17)) (ix2 j k)) + U13 m c main_v80 (ix2 (0 : Fin 1) k)) * (m ((c : Thread nD τ).loc main_arg19)) (ix2 k (0 : Fin 1)))
      + U13 m c main_v81 (ix2 (0 : Fin 1) (0 : Fin 1))) = _
  simp only [ent6_b1 m c, ent6_b2 m c]

end Cert.KernelIdeal.Hand

end
-- ==== Proof.RefResult.lean ====
/-
  The reference program's run read back a stretch at a time: the result buffer after the whole line of host
  operations is the last stage of the reference read as a function of the arguments.
-/
import proofs.«134920_j90091234001037_2_alg».proof.Proof.RefRunQ
import proofs.«134920_j90091234001037_2_alg».proof.Proof.RefRead
import proofs.«134920_j90091234001037_2_alg».proof.Proof.LibFoldCut

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- The contents after the first `n = a + b` operations are those after `b` more operations from the contents after the
    first `a`. -/
theorem after_take_of_eq {τ : Topo} {sig : RefSig} {Val : EltTy → Type} (a b n : Nat) (h : a + b = n)
    (l : List (HloOp τ sig Val)) (V : Valuation τ sig Val) :
    after (l.take n) V = after ((l.drop a).take b) (after (l.take a) V) := by
  subst h
  rw [List.take_add, after_append]

variable {F : FTy → Type} [FloatOps F] in
/-- The concatenation of the three node-type blocks depends only on the three blocks. -/
theorem concat3_congr {X1 Y1 : (⟨S20000x64, .f32⟩ : BufTy).Contents (Elt F)} {X2 Y2 X3 Y3 : (⟨S40000x64, .f32⟩ : BufTy).Contents (Elt F)}
    (h1 : X1 = Y1) (h2 : X2 = Y2) (h3 : X3 = Y3) :
    concatenate S100000x64 0 [⟨S20000x64, X1⟩, ⟨S40000x64, X2⟩, ⟨S40000x64, X3⟩] concatenates_S20000x64_S40000x64_S40000x64_S100000x64_d0
      = concatenate S100000x64 0 [⟨S20000x64, Y1⟩, ⟨S40000x64, Y2⟩, ⟨S40000x64, Y3⟩] concatenates_S20000x64_S40000x64_S40000x64_S100000x64_d0 := by
  subst h1 h2 h3; rfl

/-! ## The line, a stretch at a time

`atN_b` reads buffer `b` after the first `N` operations of the line: a stage's buffer holds that stage of the reference
as a function of the arguments, an argument's buffer the argument. The line is cut after the edge transform (15
operations), after the edge term's second dense layer (23), after the three node-type dense maps (35), after their
concatenation (36), after each of the four message-passing rounds (62, 88, 114, 140) and at its end (171). Within a
stretch the buffers it reads are rewritten by the facts at the cut before it, and what is left holds by unfolding the
stages. -/

section Stretches

variable {F : FTy → Type} [FloatOps F]
variable (m : (ℓ : Loc nD τ sig) → Buf (Elt F) ℓ) (c : Dev nD)

theorem at15_v12 :
    after (List.take 15 (ValueQ.ops (F := F))) (launchContents m c) (Proc.devRef .tc main_v12)
      = val_main_v12 (F := F) (m ((c.tc : Thread nD τ).loc main_arg3)) (m ((c.tc : Thread nD τ).loc main_arg9)) (m ((c.tc : Thread nD τ).loc main_arg10)) := by
  simp only [ValueQ.ops, List.take_succ_cons, List.take_zero]
  after_results_simp <;> rfl

theorem at15_v1 :
    after (List.take 15 (ValueQ.ops (F := F))) (launchContents m c) (Proc.devRef .tc main_v1)
      = val_main_v1 (F := F) (m ((c.tc : Thread nD τ).loc main_arg21)) := by
  simp only [ValueQ.ops, List.take_succ_cons, List.take_zero]
  after_results_simp <;> rfl

theorem at15_v3 :
    after (List.take 15 (ValueQ.ops (F := F))) (launchContents m c) (Proc.devRef .tc main_v3)
      = val_main_v3 (F := F) (m ((c.tc : Thread nD τ).loc main_arg21)) := by
  simp only [ValueQ.ops, List.take_succ_cons, List.take_zero]
  after_results_simp <;> rfl

theorem at15_arg7 :
    after (List.take 15 (ValueQ.ops (F := F))) (launchContents m c) (Proc.devRef .tc main_arg7)
      = (m ((c.tc : Thread nD τ).loc main_arg7)) := by
  simp only [ValueQ.ops, List.take_succ_cons, List.take_zero]
  after_results_simp <;> rfl

theorem at15_arg8 :
    after (List.take 15 (ValueQ.ops (F := F))) (launchContents m c) (Proc.devRef .tc main_arg8)
      = (m ((c.tc : Thread nD τ).loc main_arg8)) := by
  simp only [ValueQ.ops, List.take_succ_cons, List.take_zero]
  after_results_simp <;> rfl

theorem at23_v19 :
    after (List.take 23 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 15 8 23 rfl]
  have h_v12 := at15_v12 m c
  have h_v3 := at15_v3 m c
  have h_arg7 := at15_arg7 m c
  have h_arg8 := at15_arg8 m c
  generalize after (List.take 15 (ValueQ.ops (F := F))) (launchContents m c) = W at h_v12 h_v3 h_arg7 h_arg8 ⊢
  simp only [ValueQ.ops, List.drop_succ_cons, List.drop_zero, List.take_succ_cons, List.take_zero]
  after_results_simp
  rw [h_v12, h_v3, h_arg7, h_arg8]
  rfl

theorem at23_v1 :
    after (List.take 23 (ValueQ.ops (F := F))) (launchContents m c) (Proc.devRef .tc main_v1)
      = val_main_v1 (F := F) (m ((c.tc : Thread nD τ).loc main_arg21)) := by
  rw [after_take_of_eq 15 8 23 rfl]
  have h_v1 := at15_v1 m c
  generalize after (List.take 15 (ValueQ.ops (F := F))) (launchContents m c) = W at h_v1 ⊢
  simp only [ValueQ.ops, List.drop_succ_cons, List.drop_zero, List.take_succ_cons, List.take_zero]
  after_results_simp
  exact h_v1

theorem at23_v3 :
    after (List.take 23 (ValueQ.ops (F := F))) (launchContents m c) (Proc.devRef .tc main_v3)
      = val_main_v3 (F := F) (m ((c.tc : Thread nD τ).loc main_arg21)) := by
  rw [after_take_of_eq 15 8 23 rfl]
  have h_v3 := at15_v3 m c
  generalize after (List.take 15 (ValueQ.ops (F := F))) (launchContents m c) = W at h_v3 ⊢
  simp only [ValueQ.ops, List.drop_succ_cons, List.drop_zero, List.take_succ_cons, List.take_zero]
  after_results_simp
  exact h_v3

theorem at23_arg0 :
    after (List.take 23 (ValueQ.ops (F := F))) (launchContents m c) (Proc.devRef .tc main_arg0)
      = (m ((c.tc : Thread nD τ).loc main_arg0)) := by
  simp only [ValueQ.ops, List.take_succ_cons, List.take_zero]
  after_results_simp <;> rfl

theorem at23_arg1 :
    after (List.take 23 (ValueQ.ops (F := F))) (launchContents m c) (Proc.devRef .tc main_arg1)
      = (m ((c.tc : Thread nD τ).loc main_arg1)) := by
  simp only [ValueQ.ops, List.take_succ_cons, List.take_zero]
  after_results_simp <;> rfl

theorem at23_arg2 :
    after (List.take 23 (ValueQ.ops (F := F))) (launchContents m c) (Proc.devRef .tc main_arg2)
      = (m ((c.tc : Thread nD τ).loc main_arg2)) := by
  simp only [ValueQ.ops, List.take_succ_cons, List.take_zero]
  after_results_simp <;> rfl

theorem at23_arg11 :
    after (List.take 23 (ValueQ.ops (F := F))) (launchContents m c) (Proc.devRef .tc main_arg11)
      = (m ((c.tc : Thread nD τ).loc main_arg11)) := by
  simp only [ValueQ.ops, List.take_succ_cons, List.take_zero]
  after_results_simp <;> rfl

theorem at23_arg12 :
    after (List.take 23 (ValueQ.ops (F := F))) (launchContents m c) (Proc.devRef .tc main_arg12)
      = (m ((c.tc : Thread nD τ).loc main_arg12)) := by
  simp only [ValueQ.ops, List.take_succ_cons, List.take_zero]
  after_results_simp <;> rfl

theorem at23_arg13 :
    after (List.take 23 (ValueQ.ops (F := F))) (launchContents m c) (Proc.devRef .tc main_arg13)
      = (m ((c.tc : Thread nD τ).loc main_arg13)) := by
  simp only [ValueQ.ops, List.take_succ_cons, List.take_zero]
  after_results_simp <;> rfl

theorem at23_arg14 :
    after (List.take 23 (ValueQ.ops (F := F))) (launchContents m c) (Proc.devRef .tc main_arg14)
      = (m ((c.tc : Thread nD τ).loc main_arg14)) := by
  simp only [ValueQ.ops, List.take_succ_cons, List.take_zero]
  after_results_simp <;> rfl

theorem at23_arg15 :
    after (List.take 23 (ValueQ.ops (F := F))) (launchContents m c) (Proc.devRef .tc main_arg15)
      = (m ((c.tc : Thread nD τ).loc main_arg15)) := by
  simp only [ValueQ.ops, List.take_succ_cons, List.take_zero]
  after_results_simp <;> rfl

theorem at23_arg16 :
    after (List.take 23 (ValueQ.ops (F := F))) (launchContents m c) (Proc.devRef .tc main_arg16)
      = (m ((c.tc : Thread nD τ).loc main_arg16)) := by
  simp only [ValueQ.ops, List.take_succ_cons, List.take_zero]
  after_results_simp <;> rfl

theorem at35_v23 :
    after (List.take 35 (ValueQ.ops (F := F))) (launchContents m c) (Proc.devRef .tc main_v23)
      = val_main_v23 (F := F) (m ((c.tc : Thread nD τ).loc main_arg0)) (m ((c.tc : Thread nD τ).loc main_arg11)) (m ((c.tc : Thread nD τ).loc main_arg12)) := by
  rw [after_take_of_eq 23 12 35 rfl]
  have h_arg0 := at23_arg0 m c
  have h_arg11 := at23_arg11 m c
  have h_arg12 := at23_arg12 m c
  generalize after (List.take 23 (ValueQ.ops (F := F))) (launchContents m c) = W at h_arg0 h_arg11 h_arg12 ⊢
  simp only [ValueQ.ops, List.drop_succ_cons, List.drop_zero, List.take_succ_cons, List.take_zero]
  after_results_simp
  rw [h_arg0, h_arg11, h_arg12]
  rfl

theorem at35_v27 :
    after (List.take 35 (ValueQ.ops (F := F))) (launchContents m c) (Proc.devRef .tc main_v27)
      = val_main_v27 (F := F) (m ((c.tc : Thread nD τ).loc main_arg1)) (m ((c.tc : Thread nD τ).loc main_arg13)) (m ((c.tc : Thread nD τ).loc main_arg14)) := by
  rw [after_take_of_eq 23 12 35 rfl]
  have h_arg1 := at23_arg1 m c
  have h_arg13 := at23_arg13 m c
  have h_arg14 := at23_arg14 m c
  generalize after (List.take 23 (ValueQ.ops (F := F))) (launchContents m c) = W at h_arg1 h_arg13 h_arg14 ⊢
  simp only [ValueQ.ops, List.drop_succ_cons, List.drop_zero, List.take_succ_cons, List.take_zero]
  after_results_simp
  rw [h_arg1, h_arg13, h_arg14]
  rfl

theorem at35_v31 :
    after (List.take 35 (ValueQ.ops (F := F))) (launchContents m c) (Proc.devRef .tc main_v31)
      = val_main_v31 (F := F) (m ((c.tc : Thread nD τ).loc main_arg2)) (m ((c.tc : Thread nD τ).loc main_arg15)) (m ((c.tc : Thread nD τ).loc main_arg16)) := by
  rw [after_take_of_eq 23 12 35 rfl]
  have h_arg2 := at23_arg2 m c
  have h_arg15 := at23_arg15 m c
  have h_arg16 := at23_arg16 m c
  generalize after (List.take 23 (ValueQ.ops (F := F))) (launchContents m c) = W at h_arg2 h_arg15 h_arg16 ⊢
  simp only [ValueQ.ops, List.drop_succ_cons, List.drop_zero, List.take_succ_cons, List.take_zero]
  after_results_simp
  rw [h_arg2, h_arg15, h_arg16]
  rfl

theorem at35_v19 :
    after (List.take 35 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 23 12 35 rfl]
  have h_v19 := at23_v19 m c
  generalize after (List.take 23 (ValueQ.ops (F := F))) (launchContents m c) = W at h_v19 ⊢
  simp only [ValueQ.ops, List.drop_succ_cons, List.drop_zero, List.take_succ_cons, List.take_zero]
  after_results_simp
  exact h_v19

theorem at35_v1 :
    after (List.take 35 (ValueQ.ops (F := F))) (launchContents m c) (Proc.devRef .tc main_v1)
      = val_main_v1 (F := F) (m ((c.tc : Thread nD τ).loc main_arg21)) := by
  rw [after_take_of_eq 23 12 35 rfl]
  have h_v1 := at23_v1 m c
  generalize after (List.take 23 (ValueQ.ops (F := F))) (launchContents m c) = W at h_v1 ⊢
  simp only [ValueQ.ops, List.drop_succ_cons, List.drop_zero, List.take_succ_cons, List.take_zero]
  after_results_simp
  exact h_v1

theorem at35_v3 :
    after (List.take 35 (ValueQ.ops (F := F))) (launchContents m c) (Proc.devRef .tc main_v3)
      = val_main_v3 (F := F) (m ((c.tc : Thread nD τ).loc main_arg21)) := by
  rw [after_take_of_eq 23 12 35 rfl]
  have h_v3 := at23_v3 m c
  generalize after (List.take 23 (ValueQ.ops (F := F))) (launchContents m c) = W at h_v3 ⊢
  simp only [ValueQ.ops, List.drop_succ_cons, List.drop_zero, List.take_succ_cons, List.take_zero]
  after_results_simp
  exact h_v3

theorem at36_v32 :
    after (List.take 36 (ValueQ.ops (F := F))) (launchContents m c) (Proc.devRef .tc main_v32)
      = val_main_v32 (F := F) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [after_take_of_eq 35 1 36 rfl]
  have h_v23 := at35_v23 m c
  have h_v27 := at35_v27 m c
  have h_v31 := at35_v31 m c
  generalize after (List.take 35 (ValueQ.ops (F := F))) (launchContents m c) = W at h_v23 h_v27 h_v31 ⊢
  simp only [ValueQ.ops, List.drop_succ_cons, List.drop_zero, List.take_succ_cons, List.take_zero]
  after_results_simp
  exact concat3_congr h_v23 h_v27 h_v31

theorem at36_v19 :
    after (List.take 36 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 35 1 36 rfl]
  have h_v19 := at35_v19 m c
  generalize after (List.take 35 (ValueQ.ops (F := F))) (launchContents m c) = W at h_v19 ⊢
  simp only [ValueQ.ops, List.drop_succ_cons, List.drop_zero, List.take_succ_cons, List.take_zero]
  after_results_simp
  exact h_v19

theorem at36_v1 :
    after (List.take 36 (ValueQ.ops (F := F))) (launchContents m c) (Proc.devRef .tc main_v1)
      = val_main_v1 (F := F) (m ((c.tc : Thread nD τ).loc main_arg21)) := by
  rw [after_take_of_eq 35 1 36 rfl]
  have h_v1 := at35_v1 m c
  generalize after (List.take 35 (ValueQ.ops (F := F))) (launchContents m c) = W at h_v1 ⊢
  simp only [ValueQ.ops, List.drop_succ_cons, List.drop_zero, List.take_succ_cons, List.take_zero]
  after_results_simp
  exact h_v1

theorem at36_v3 :
    after (List.take 36 (ValueQ.ops (F := F))) (launchContents m c) (Proc.devRef .tc main_v3)
      = val_main_v3 (F := F) (m ((c.tc : Thread nD τ).loc main_arg21)) := by
  rw [after_take_of_eq 35 1 36 rfl]
  have h_v3 := at35_v3 m c
  generalize after (List.take 35 (ValueQ.ops (F := F))) (launchContents m c) = W at h_v3 ⊢
  simp only [ValueQ.ops, List.drop_succ_cons, List.drop_zero, List.take_succ_cons, List.take_zero]
  after_results_simp
  exact h_v3

theorem at36_arg4 :
    after (List.take 36 (ValueQ.ops (F := F))) (launchContents m c) (Proc.devRef .tc main_arg4)
      = (m ((c.tc : Thread nD τ).loc main_arg4)) := by
  simp only [ValueQ.ops, List.take_succ_cons, List.take_zero]
  after_results_simp <;> rfl

theorem at36_arg5 :
    after (List.take 36 (ValueQ.ops (F := F))) (launchContents m c) (Proc.devRef .tc main_arg5)
      = (m ((c.tc : Thread nD τ).loc main_arg5)) := by
  simp only [ValueQ.ops, List.take_succ_cons, List.take_zero]
  after_results_simp <;> rfl

theorem at36_arg6 :
    after (List.take 36 (ValueQ.ops (F := F))) (launchContents m c) (Proc.devRef .tc main_arg6)
      = (m ((c.tc : Thread nD τ).loc main_arg6)) := by
  simp only [ValueQ.ops, List.take_succ_cons, List.take_zero]
  after_results_simp <;> rfl

theorem at62_v53 :
    after (List.take 62 (ValueQ.ops (F := F))) (launchContents m c) (Proc.devRef .tc main_v53)
      = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) := by
  rw [after_take_of_eq 36 26 62 rfl]
  have h_arg4 := at36_arg4 m c
  have h_v1 := at36_v1 m c
  have h_v3 := at36_v3 m c
  have h_arg5 := at36_arg5 m c
  have h_arg6 := at36_arg6 m c
  have h_v19 := at36_v19 m c
  have h_v32 := at36_v32 m c
  generalize after (List.take 36 (ValueQ.ops (F := F))) (launchContents m c) = W at h_arg4 h_v1 h_v3 h_arg5 h_arg6 h_v19 h_v32 ⊢
  simp only [ValueQ.ops, List.drop_succ_cons, List.drop_zero, List.take_succ_cons, List.take_zero]
  after_results_simp
  rw [h_arg4, h_v1, h_v3, h_arg5, h_arg6, h_v19, h_v32]
  rfl

theorem at62_v32 :
    after (List.take 62 (ValueQ.ops (F := F))) (launchContents m c) (Proc.devRef .tc main_v32)
      = val_main_v32 (F := F) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [after_take_of_eq 36 26 62 rfl]
  have h_v32 := at36_v32 m c
  generalize after (List.take 36 (ValueQ.ops (F := F))) (launchContents m c) = W at h_v32 ⊢
  simp only [ValueQ.ops, List.drop_succ_cons, List.drop_zero, List.take_succ_cons, List.take_zero]
  after_results_simp
  exact h_v32

theorem at62_v19 :
    after (List.take 62 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 36 26 62 rfl]
  have h_v19 := at36_v19 m c
  generalize after (List.take 36 (ValueQ.ops (F := F))) (launchContents m c) = W at h_v19 ⊢
  simp only [ValueQ.ops, List.drop_succ_cons, List.drop_zero, List.take_succ_cons, List.take_zero]
  after_results_simp
  exact h_v19

theorem at62_v1 :
    after (List.take 62 (ValueQ.ops (F := F))) (launchContents m c) (Proc.devRef .tc main_v1)
      = val_main_v1 (F := F) (m ((c.tc : Thread nD τ).loc main_arg21)) := by
  rw [after_take_of_eq 36 26 62 rfl]
  have h_v1 := at36_v1 m c
  generalize after (List.take 36 (ValueQ.ops (F := F))) (launchContents m c) = W at h_v1 ⊢
  simp only [ValueQ.ops, List.drop_succ_cons, List.drop_zero, List.take_succ_cons, List.take_zero]
  after_results_simp
  exact h_v1

theorem at62_v3 :
    after (List.take 62 (ValueQ.ops (F := F))) (launchContents m c) (Proc.devRef .tc main_v3)
      = val_main_v3 (F := F) (m ((c.tc : Thread nD τ).loc main_arg21)) := by
  rw [after_take_of_eq 36 26 62 rfl]
  have h_v3 := at36_v3 m c
  generalize after (List.take 36 (ValueQ.ops (F := F))) (launchContents m c) = W at h_v3 ⊢
  simp only [ValueQ.ops, List.drop_succ_cons, List.drop_zero, List.take_succ_cons, List.take_zero]
  after_results_simp
  exact h_v3

theorem at62_arg5 :
    after (List.take 62 (ValueQ.ops (F := F))) (launchContents m c) (Proc.devRef .tc main_arg5)
      = (m ((c.tc : Thread nD τ).loc main_arg5)) := by
  rw [after_take_of_eq 36 26 62 rfl]
  have h_arg5 := at36_arg5 m c
  generalize after (List.take 36 (ValueQ.ops (F := F))) (launchContents m c) = W at h_arg5 ⊢
  simp only [ValueQ.ops, List.drop_succ_cons, List.drop_zero, List.take_succ_cons, List.take_zero]
  after_results_simp
  exact h_arg5

theorem at62_arg6 :
    after (List.take 62 (ValueQ.ops (F := F))) (launchContents m c) (Proc.devRef .tc main_arg6)
      = (m ((c.tc : Thread nD τ).loc main_arg6)) := by
  rw [after_take_of_eq 36 26 62 rfl]
  have h_arg6 := at36_arg6 m c
  generalize after (List.take 36 (ValueQ.ops (F := F))) (launchContents m c) = W at h_arg6 ⊢
  simp only [ValueQ.ops, List.drop_succ_cons, List.drop_zero, List.take_succ_cons, List.take_zero]
  after_results_simp
  exact h_arg6

theorem at88_v74 :
    after (List.take 88 (ValueQ.ops (F := F))) (launchContents m c) (Proc.devRef .tc main_v74)
      = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) := by
  rw [after_take_of_eq 62 26 88 rfl]
  have h_v53 := at62_v53 m c
  have h_v1 := at62_v1 m c
  have h_v3 := at62_v3 m c
  have h_arg5 := at62_arg5 m c
  have h_arg6 := at62_arg6 m c
  have h_v19 := at62_v19 m c
  have h_v32 := at62_v32 m c
  generalize after (List.take 62 (ValueQ.ops (F := F))) (launchContents m c) = W at h_v53 h_v1 h_v3 h_arg5 h_arg6 h_v19 h_v32 ⊢
  simp only [ValueQ.ops, List.drop_succ_cons, List.drop_zero, List.take_succ_cons, List.take_zero]
  after_results_simp
  rw [h_v53, h_v1, h_v3, h_arg5, h_arg6, h_v19, h_v32]
  rfl

theorem at88_v32 :
    after (List.take 88 (ValueQ.ops (F := F))) (launchContents m c) (Proc.devRef .tc main_v32)
      = val_main_v32 (F := F) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [after_take_of_eq 62 26 88 rfl]
  have h_v32 := at62_v32 m c
  generalize after (List.take 62 (ValueQ.ops (F := F))) (launchContents m c) = W at h_v32 ⊢
  simp only [ValueQ.ops, List.drop_succ_cons, List.drop_zero, List.take_succ_cons, List.take_zero]
  after_results_simp
  exact h_v32

theorem at88_v19 :
    after (List.take 88 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 62 26 88 rfl]
  have h_v19 := at62_v19 m c
  generalize after (List.take 62 (ValueQ.ops (F := F))) (launchContents m c) = W at h_v19 ⊢
  simp only [ValueQ.ops, List.drop_succ_cons, List.drop_zero, List.take_succ_cons, List.take_zero]
  after_results_simp
  exact h_v19

theorem at88_v1 :
    after (List.take 88 (ValueQ.ops (F := F))) (launchContents m c) (Proc.devRef .tc main_v1)
      = val_main_v1 (F := F) (m ((c.tc : Thread nD τ).loc main_arg21)) := by
  rw [after_take_of_eq 62 26 88 rfl]
  have h_v1 := at62_v1 m c
  generalize after (List.take 62 (ValueQ.ops (F := F))) (launchContents m c) = W at h_v1 ⊢
  simp only [ValueQ.ops, List.drop_succ_cons, List.drop_zero, List.take_succ_cons, List.take_zero]
  after_results_simp
  exact h_v1

theorem at88_v3 :
    after (List.take 88 (ValueQ.ops (F := F))) (launchContents m c) (Proc.devRef .tc main_v3)
      = val_main_v3 (F := F) (m ((c.tc : Thread nD τ).loc main_arg21)) := by
  rw [after_take_of_eq 62 26 88 rfl]
  have h_v3 := at62_v3 m c
  generalize after (List.take 62 (ValueQ.ops (F := F))) (launchContents m c) = W at h_v3 ⊢
  simp only [ValueQ.ops, List.drop_succ_cons, List.drop_zero, List.take_succ_cons, List.take_zero]
  after_results_simp
  exact h_v3

theorem at88_arg5 :
    after (List.take 88 (ValueQ.ops (F := F))) (launchContents m c) (Proc.devRef .tc main_arg5)
      = (m ((c.tc : Thread nD τ).loc main_arg5)) := by
  rw [after_take_of_eq 62 26 88 rfl]
  have h_arg5 := at62_arg5 m c
  generalize after (List.take 62 (ValueQ.ops (F := F))) (launchContents m c) = W at h_arg5 ⊢
  simp only [ValueQ.ops, List.drop_succ_cons, List.drop_zero, List.take_succ_cons, List.take_zero]
  after_results_simp
  exact h_arg5

theorem at88_arg6 :
    after (List.take 88 (ValueQ.ops (F := F))) (launchContents m c) (Proc.devRef .tc main_arg6)
      = (m ((c.tc : Thread nD τ).loc main_arg6)) := by
  rw [after_take_of_eq 62 26 88 rfl]
  have h_arg6 := at62_arg6 m c
  generalize after (List.take 62 (ValueQ.ops (F := F))) (launchContents m c) = W at h_arg6 ⊢
  simp only [ValueQ.ops, List.drop_succ_cons, List.drop_zero, List.take_succ_cons, List.take_zero]
  after_results_simp
  exact h_arg6

theorem at114_v95 :
    after (List.take 114 (ValueQ.ops (F := F))) (launchContents m c) (Proc.devRef .tc main_v95)
      = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) := by
  rw [after_take_of_eq 88 26 114 rfl]
  have h_v74 := at88_v74 m c
  have h_v1 := at88_v1 m c
  have h_v3 := at88_v3 m c
  have h_arg5 := at88_arg5 m c
  have h_arg6 := at88_arg6 m c
  have h_v19 := at88_v19 m c
  have h_v32 := at88_v32 m c
  generalize after (List.take 88 (ValueQ.ops (F := F))) (launchContents m c) = W at h_v74 h_v1 h_v3 h_arg5 h_arg6 h_v19 h_v32 ⊢
  simp only [ValueQ.ops, List.drop_succ_cons, List.drop_zero, List.take_succ_cons, List.take_zero]
  after_results_simp
  rw [h_v74, h_v1, h_v3, h_arg5, h_arg6, h_v19, h_v32]
  rfl

theorem at114_v32 :
    after (List.take 114 (ValueQ.ops (F := F))) (launchContents m c) (Proc.devRef .tc main_v32)
      = val_main_v32 (F := F) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [after_take_of_eq 88 26 114 rfl]
  have h_v32 := at88_v32 m c
  generalize after (List.take 88 (ValueQ.ops (F := F))) (launchContents m c) = W at h_v32 ⊢
  simp only [ValueQ.ops, List.drop_succ_cons, List.drop_zero, List.take_succ_cons, List.take_zero]
  after_results_simp
  exact h_v32

theorem at114_v19 :
    after (List.take 114 (ValueQ.ops (F := F))) (launchContents m c) (Proc.devRef .tc main_v19)
      = val_main_v19 (F := F) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg21)) := by
  rw [after_take_of_eq 88 26 114 rfl]
  have h_v19 := at88_v19 m c
  generalize after (List.take 88 (ValueQ.ops (F := F))) (launchContents m c) = W at h_v19 ⊢
  simp only [ValueQ.ops, List.drop_succ_cons, List.drop_zero, List.take_succ_cons, List.take_zero]
  after_results_simp
  exact h_v19

theorem at114_v1 :
    after (List.take 114 (ValueQ.ops (F := F))) (launchContents m c) (Proc.devRef .tc main_v1)
      = val_main_v1 (F := F) (m ((c.tc : Thread nD τ).loc main_arg21)) := by
  rw [after_take_of_eq 88 26 114 rfl]
  have h_v1 := at88_v1 m c
  generalize after (List.take 88 (ValueQ.ops (F := F))) (launchContents m c) = W at h_v1 ⊢
  simp only [ValueQ.ops, List.drop_succ_cons, List.drop_zero, List.take_succ_cons, List.take_zero]
  after_results_simp
  exact h_v1

theorem at114_v3 :
    after (List.take 114 (ValueQ.ops (F := F))) (launchContents m c) (Proc.devRef .tc main_v3)
      = val_main_v3 (F := F) (m ((c.tc : Thread nD τ).loc main_arg21)) := by
  rw [after_take_of_eq 88 26 114 rfl]
  have h_v3 := at88_v3 m c
  generalize after (List.take 88 (ValueQ.ops (F := F))) (launchContents m c) = W at h_v3 ⊢
  simp only [ValueQ.ops, List.drop_succ_cons, List.drop_zero, List.take_succ_cons, List.take_zero]
  after_results_simp
  exact h_v3

theorem at114_arg5 :
    after (List.take 114 (ValueQ.ops (F := F))) (launchContents m c) (Proc.devRef .tc main_arg5)
      = (m ((c.tc : Thread nD τ).loc main_arg5)) := by
  rw [after_take_of_eq 88 26 114 rfl]
  have h_arg5 := at88_arg5 m c
  generalize after (List.take 88 (ValueQ.ops (F := F))) (launchContents m c) = W at h_arg5 ⊢
  simp only [ValueQ.ops, List.drop_succ_cons, List.drop_zero, List.take_succ_cons, List.take_zero]
  after_results_simp
  exact h_arg5

theorem at114_arg6 :
    after (List.take 114 (ValueQ.ops (F := F))) (launchContents m c) (Proc.devRef .tc main_arg6)
      = (m ((c.tc : Thread nD τ).loc main_arg6)) := by
  rw [after_take_of_eq 88 26 114 rfl]
  have h_arg6 := at88_arg6 m c
  generalize after (List.take 88 (ValueQ.ops (F := F))) (launchContents m c) = W at h_arg6 ⊢
  simp only [ValueQ.ops, List.drop_succ_cons, List.drop_zero, List.take_succ_cons, List.take_zero]
  after_results_simp
  exact h_arg6

theorem at140_v116 :
    after (List.take 140 (ValueQ.ops (F := F))) (launchContents m c) (Proc.devRef .tc main_v116)
      = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) := by
  rw [after_take_of_eq 114 26 140 rfl]
  have h_v95 := at114_v95 m c
  have h_v1 := at114_v1 m c
  have h_v3 := at114_v3 m c
  have h_arg5 := at114_arg5 m c
  have h_arg6 := at114_arg6 m c
  have h_v19 := at114_v19 m c
  have h_v32 := at114_v32 m c
  generalize after (List.take 114 (ValueQ.ops (F := F))) (launchContents m c) = W at h_v95 h_v1 h_v3 h_arg5 h_arg6 h_v19 h_v32 ⊢
  simp only [ValueQ.ops, List.drop_succ_cons, List.drop_zero, List.take_succ_cons, List.take_zero]
  after_results_simp
  rw [h_v95, h_v1, h_v3, h_arg5, h_arg6, h_v19, h_v32]
  rfl

theorem at140_arg17 :
    after (List.take 140 (ValueQ.ops (F := F))) (launchContents m c) (Proc.devRef .tc main_arg17)
      = (m ((c.tc : Thread nD τ).loc main_arg17)) := by
  simp only [ValueQ.ops, List.take_succ_cons, List.take_zero]
  after_results_simp <;> rfl

theorem at140_arg18 :
    after (List.take 140 (ValueQ.ops (F := F))) (launchContents m c) (Proc.devRef .tc main_arg18)
      = (m ((c.tc : Thread nD τ).loc main_arg18)) := by
  simp only [ValueQ.ops, List.take_succ_cons, List.take_zero]
  after_results_simp <;> rfl

theorem at140_arg19 :
    after (List.take 140 (ValueQ.ops (F := F))) (launchContents m c) (Proc.devRef .tc main_arg19)
      = (m ((c.tc : Thread nD τ).loc main_arg19)) := by
  simp only [ValueQ.ops, List.take_succ_cons, List.take_zero]
  after_results_simp <;> rfl

theorem at140_arg20 :
    after (List.take 140 (ValueQ.ops (F := F))) (launchContents m c) (Proc.devRef .tc main_arg20)
      = (m ((c.tc : Thread nD τ).loc main_arg20)) := by
  simp only [ValueQ.ops, List.take_succ_cons, List.take_zero]
  after_results_simp <;> rfl

theorem at140_arg23 :
    after (List.take 140 (ValueQ.ops (F := F))) (launchContents m c) (Proc.devRef .tc main_arg23)
      = (m ((c.tc : Thread nD τ).loc main_arg23)) := by
  simp only [ValueQ.ops, List.take_succ_cons, List.take_zero]
  after_results_simp <;> rfl

theorem at171_v141 :
    after (List.take 171 (ValueQ.ops (F := F))) (launchContents m c) (Proc.devRef .tc main_v141)
      = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg23)) := by
  rw [after_take_of_eq 140 31 171 rfl]
  have h_v116 := at140_v116 m c
  have h_arg23 := at140_arg23 m c
  have h_arg17 := at140_arg17 m c
  have h_arg18 := at140_arg18 m c
  have h_arg19 := at140_arg19 m c
  have h_arg20 := at140_arg20 m c
  generalize after (List.take 140 (ValueQ.ops (F := F))) (launchContents m c) = W at h_v116 h_arg23 h_arg17 h_arg18 h_arg19 h_arg20 ⊢
  simp only [ValueQ.ops, List.drop_succ_cons, List.drop_zero, List.take_succ_cons, List.take_zero]
  after_results_simp
  rw [h_v116, h_arg23, h_arg17, h_arg18, h_arg19, h_arg20]
  rfl

/-- The result buffer after the whole line of operations holds the reference's last stage, read as a function of
    the arguments. -/
theorem result_eq :
    after (ValueQ.ops (F := F)) (launchContents m c) (Proc.devRef .tc main_v141)
      = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg23)) := by
  have h := at171_v141 m c
  rwa [List.take_of_length_le (show (ValueQ.ops (F := F)).length ≤ 171 from Nat.le_of_eq rfl)] at h

end Stretches

/-- Every weakly fair execution of the reference terminates with its result buffer at the last stage of the reference,
    read as a function of the arguments, and the arguments unchanged. -/
theorem run_val {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141) = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨(h c).1.trans (result_eq m c), (h c).2⟩) (ValueQ.run m ρ)

end Cert.ReferenceIdeal.RefValue

end
-- ==== Proof.lean ====
/-
  The certificate: the word-level kernel and its idealization run to the end without fault and leave their arguments
  unchanged; the idealization rewrote nothing; and over the extended reals the idealized kernel and the idealized
  reference, run from memories that agree on the arguments, end with the same result.

  The kernel is seven launches (an edge transform, a dense layer, four rounds of message passing, a classifier head)
  among host operations (scatter-adds, gathers, a concatenation, a per-graph mean) that the reference performs too.
  Each launch's output array is, row by row, the reference's corresponding stage: the same contraction sums, the same
  leaky rectifier with the same 32-bit slope, the same logistic. The only rearrangement is that the kernel adds the two
  loop-invariant terms of a round to each other first; addition of extended reals is associative, so no finiteness of
  the inputs is needed.
-/
import proofs.«134920_j90091234001037_2_alg».proof.Defs
import proofs.«134920_j90091234001037_2_alg».proof.Proof.Gen.Kernel
import proofs.«134920_j90091234001037_2_alg».proof.Proof.Gen.KernelIdeal
import proofs.«134920_j90091234001037_2_alg».proof.Proof.Gen.ReferenceIdeal
import proofs.«134920_j90091234001037_2_alg».proof.Proof.Gen.Pre_finite_inputs
import proofs.«134920_j90091234001037_2_alg».proof.Proof.KB.Frames
import proofs.«134920_j90091234001037_2_alg».proof.Proof.KI.Result
import proofs.«134920_j90091234001037_2_alg».proof.Proof.KI.Bridge
import proofs.«134920_j90091234001037_2_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

theorem frame_p : @Cert.frame_Kernel Cert.Kernel.Gen.facts Cert.Pre_finite_inputs.Gen.facts :=
  fun m ρ _ => Cert.Kernel.Hand.frameH (F := Bits) m ρ

theorem frame_pi : @Cert.frame_KernelIdeal Cert.KernelIdeal.Gen.facts Cert.Pre_finite_inputs.Gen.facts :=
  fun m ρ _ => Cert.KernelIdeal.Hand.frameH (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_val (F := Ideal) m ρ)

theorem preserves : Cert.preserves_Kernel_KernelIdeal := trivial

/-- Both runs end; the kernel's result array is the last launch's output, which is the reference's last stage of the
    same arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.a6 m c, Cert.KernelIdeal.Hand.runH (F := Ideal) m ρ, ?_⟩
  refine (θ_run Cert.ReferenceIdeal.defs _ _).mono (fun _ h c => ⟨(h c).1.trans ?_, (h c).2⟩)
    (Cert.ReferenceIdeal.RefValue.run_val (F := Ideal) m' ρ')
  refine Eq.trans ?_ (Cert.KernelIdeal.Hand.st6 m c).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
